-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64 .f32) (main_arg10 : FVec F S64 .f32) (main_arg11 : FVec F S64x1 .f32) (main_arg12 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S3x128 .f32) (main_arg7 : FVec F S128x64 .f32) (main_arg8 : FVec F S64 .f32) (main_arg9 : FVec F S64 .f32) (main_arg10 : FVec F S64 .f32) (main_arg11 : FVec F S64x1 .f32) (main_arg12 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x640000 32) (main_arg2 : IVec S100000 32) (main_arg3 : FVec F S3x128x128 .f32) (main_arg4 : FVec F S3x128 .f32) (main_arg5 : FVec F S3x128 .f32) (main_arg6 : FVec F S3x128 .f32) (main_arg7 : FVec F S128x64 .f32) (main_arg8 : FVec F S64 .f32) (main_arg9 : FVec F S64 .f32) (main_arg10 : FVec F S64 .f32) (main_arg11 : FVec F S64x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S128x128 : Shape := ⟨2, ![128, 128]⟩
abbrev S2000x128 : Shape := ⟨2, ![2000, 128]⟩
abbrev S740000x128 : Shape := ⟨2, ![740000, 128]⟩
abbrev S128 : Shape := ⟨1, ![128]⟩
abbrev S1x128 : Shape := ⟨2, ![1, 128]⟩
abbrev S4096 : Shape := ⟨1, ![4096]⟩
abbrev S100000x1 : Shape := ⟨2, ![100000, 1]⟩
abbrev S4096x128 : Shape := ⟨2, ![4096, 128]⟩
abbrev S4096x1 : Shape := ⟨2, ![4096, 1]⟩
abbrev S1x64 : Shape := ⟨2, ![1, 64]⟩
abbrev S1x1 : Shape := ⟨2, ![1, 1]⟩
abbrev S4096x64 : Shape := ⟨2, ![4096, 64]⟩

abbrev nBuf : Space → Nat
  | .hbm => 210
  | .vmem => 50
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S128x64, .f32⟩
  | 8 => ⟨S64, .f32⟩
  | 9 => ⟨S64, .f32⟩
  | 10 => ⟨S64, .f32⟩
  | 11 => ⟨S64x1, .f32⟩
  | 12 => ⟨S1, .f32⟩
  | 13 => ⟨S100000, .i32⟩
  | 14 => ⟨S1x640000, .i32⟩
  | 15 => ⟨S640000, .i32⟩
  | 16 => ⟨S740000, .i32⟩
  | 17 => ⟨S1x640000, .i32⟩
  | 18 => ⟨S640000, .i32⟩
  | 19 => ⟨S740000, .i32⟩
  | 20 => ⟨S_, .f32⟩
  | 21 => ⟨S740000, .f32⟩
  | 22 => ⟨S_, .f32⟩
  | 23 => ⟨S100000, .f32⟩
  | 24 => ⟨S740000x1, .i32⟩
  | 25 => ⟨S100000, .f32⟩
  | 26 => ⟨S100000, .f32⟩
  | 27 => ⟨S_, .i32⟩
  | 28 => ⟨S740000, .i32⟩
  | 29 => ⟨S740000, .i1⟩
  | 30 => ⟨S_, .i32⟩
  | 31 => ⟨S740000, .i32⟩
  | 32 => ⟨S740000, .i32⟩
  | 33 => ⟨S740000, .i32⟩
  | 34 => ⟨S740000x1, .i32⟩
  | 35 => ⟨S740000, .f32⟩
  | 36 => ⟨S_, .i32⟩
  | 37 => ⟨S740000, .i32⟩
  | 38 => ⟨S740000, .i1⟩
  | 39 => ⟨S_, .i32⟩
  | 40 => ⟨S740000, .i32⟩
  | 41 => ⟨S740000, .i32⟩
  | 42 => ⟨S740000, .i32⟩
  | 43 => ⟨S740000x1, .i32⟩
  | 44 => ⟨S740000, .f32⟩
  | 45 => ⟨S740000, .f32⟩
  | 46 => ⟨S740000x1, .f32⟩
  | 47 => ⟨S1x128x128, .f32⟩
  | 48 => ⟨S128x128, .f32⟩
  | 49 => ⟨S100000x128, .f32⟩
  | 50 => ⟨S_, .i32⟩
  | 51 => ⟨S740000, .i32⟩
  | 52 => ⟨S740000, .i1⟩
  | 53 => ⟨S_, .i32⟩
  | 54 => ⟨S740000, .i32⟩
  | 55 => ⟨S740000, .i32⟩
  | 56 => ⟨S740000, .i32⟩
  | 57 => ⟨S740000x1, .i32⟩
  | 58 => ⟨S740000x128, .f32⟩
  | 59 => ⟨S740000x128, .f32⟩
  | 60 => ⟨S740000x128, .f32⟩
  | 61 => ⟨S_, .f32⟩
  | 62 => ⟨S100000x128, .f32⟩
  | 63 => ⟨S740000x1, .i32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S100000x128, .f32⟩
  | 94 => ⟨S1x128x128, .f32⟩
  | 95 => ⟨S128x128, .f32⟩
  | 96 => ⟨S100000x128, .f32⟩
  | 97 => ⟨S_, .i32⟩
  | 98 => ⟨S740000, .i32⟩
  | 99 => ⟨S740000, .i1⟩
  | 100 => ⟨S_, .i32⟩
  | 101 => ⟨S740000, .i32⟩
  | 102 => ⟨S740000, .i32⟩
  | 103 => ⟨S740000, .i32⟩
  | 104 => ⟨S740000x1, .i32⟩
  | 105 => ⟨S740000x128, .f32⟩
  | 106 => ⟨S740000x128, .f32⟩
  | 107 => ⟨S740000x128, .f32⟩
  | 108 => ⟨S_, .f32⟩
  | 109 => ⟨S100000x128, .f32⟩
  | 110 => ⟨S740000x1, .i32⟩
  | 111 => ⟨S100000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S100000x128, .f32⟩
  | 13 => ⟨S1x128x128, .f32⟩
  | 14 => ⟨S128x128, .f32⟩
  | 15 => ⟨S100000x128, .f32⟩
  | 16 => ⟨S_, .i32⟩
  | 17 => ⟨S740000, .i32⟩
  | 18 => ⟨S740000, .i1⟩
  | 19 => ⟨S_, .i32⟩
  | 20 => ⟨S740000, .i32⟩
  | 21 => ⟨S740000, .i32⟩
  | 22 => ⟨S740000, .i32⟩
  | 23 => ⟨S740000x1, .i32⟩
  | 24 => ⟨S740000x128, .f32⟩
  | 25 => ⟨S740000x128, .f32⟩
  | 26 => ⟨S740000x128, .f32⟩
  | 27 => ⟨S_, .f32⟩
  | 28 => ⟨S100000x128, .f32⟩
  | 29 => ⟨S740000x1, .i32⟩
  | 30 => ⟨S100000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S100000x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S100000x128, .f32⟩
  | 60 => ⟨S_, .f32⟩
  | 61 => ⟨S100000, .f32⟩
  | 62 => ⟨S_, .f32⟩
  | 63 => ⟨S4096, .f32⟩
  | 64 => ⟨S100000x1, .i32⟩
  | 65 => ⟨S4096, .f32⟩
  | 66 => ⟨S_, .f32⟩
  | 67 => ⟨S4096x128, .f32⟩
  | 68 => ⟨S100000x1, .i32⟩
  | 69 => ⟨S4096x128, .f32⟩
  | 70 => ⟨S_, .f32⟩
  | 71 => ⟨S_, .f32⟩
  | 72 => ⟨S4096, .f32⟩
  | 73 => ⟨S4096, .f32⟩
  | 74 => ⟨S4096x1, .f32⟩
  | 75 => ⟨S4096x128, .f32⟩
  | 76 => ⟨S4096x128, .f32⟩
  | 77 => ⟨S1x64, .f32⟩
  | 78 => ⟨S1x64, .f32⟩
  | 79 => ⟨S1x64, .f32⟩
  | 80 => ⟨S1x1, .f32⟩
  | 81 => ⟨S4096x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S4096x128, .f32⟩
  | .local _ .vmem, ⟨43, _⟩ => ⟨S128x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S64x1, .f32⟩
  | .local _ .vmem, ⟨48, _⟩ => ⟨S1x1, .f32⟩
  | .local _ .vmem, ⟨49, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_11 : Ref sig .tc := ⟨.hbm, 97, rfl⟩
abbrev main_v71 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_c_18 : Ref sig .tc := ⟨.hbm, 144, rfl⟩
abbrev main_v111 : Ref sig .tc := ⟨.hbm, 145, rfl⟩
abbrev main_v112 : Ref sig .tc := ⟨.hbm, 146, rfl⟩
abbrev main_c_19 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_20 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_21 : Ref sig .tc := ⟨.hbm, 159, rfl⟩
abbrev main_v123 : Ref sig .tc := ⟨.hbm, 160, rfl⟩
abbrev main_cst_22 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_23 : Ref sig .tc := ⟨.hbm, 168, rfl⟩
abbrev main_v130 : Ref sig .tc := ⟨.hbm, 169, rfl⟩
abbrev main_cst_24 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_25 : Ref sig .tc := ⟨.hbm, 188, rfl⟩
abbrev main_v148 : Ref sig .tc := ⟨.hbm, 189, rfl⟩
abbrev main_cst_26 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_27 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_28 : Ref sig .tc := ⟨.hbm, 198, rfl⟩
abbrev main_call0_v0 : Ref sig .tc := ⟨.hbm, 199, rfl⟩
abbrev main_call0_v1 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg7_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem7_0 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S4096x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S4096x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S4096 : S_.BroadcastsInDim S4096 (![] : Fin 0 → Fin S4096.rank)
  bcast_S100000_S100000x1_0 : S100000.BroadcastsInDim S100000x1 (![0] : Fin 1 → Fin S100000x1.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  shapeCasts_S64_S1x64 : S64.ShapeCasts S1x64
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S64 : S4096x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S2000x128_S128x128_S2000x128_1_0_0_1_n_n_wf : DotDims.WF S2000x128 S128x128 S2000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S4096_S100000x1_S100000_n_0_0_1_wf : ScatterDims.WF S4096 S100000x1 S100000 [] [0] [0] 1
  scatter_S4096x128_S100000x1_S100000x128_1_0_0_1_wf : ScatterDims.WF S4096x128 S100000x1 S100000x128 [1] [0] [0] 1
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S4096x128.size a
  hwx6_0 : ∀ i : grid6.Coords, EltTy.bits .f32 = 32 ∨ (Rect.block (s := S4096x128) S4096x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S4096x1.size a ≤ S4096x1.size a
  hwx6_7 : ∀ i : grid6.Coords, EltTy.bits .f32 = 32 ∨ (Rect.block (s := S4096x1) S4096x1.size (cc6_transform_7 i) (hinb6_7 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v102) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v104) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v105) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v106) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v107) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v107) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v110) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v122) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v142) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v143) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v144) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v145) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v146) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v147) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v158) S4096x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v159) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v160) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v161) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg11) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v162) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v163) S4096x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S128x128 : Shape := ⟨2, ![128, 128]⟩
abbrev S740000x128 : Shape := ⟨2, ![740000, 128]⟩
abbrev S1x128 : Shape := ⟨2, ![1, 128]⟩
abbrev S128 : Shape := ⟨1, ![128]⟩
abbrev S4096 : Shape := ⟨1, ![4096]⟩
abbrev S100000x1 : Shape := ⟨2, ![100000, 1]⟩
abbrev S4096x128 : Shape := ⟨2, ![4096, 128]⟩
abbrev S4096x1 : Shape := ⟨2, ![4096, 1]⟩
abbrev S4096x64 : Shape := ⟨2, ![4096, 64]⟩
abbrev S1x64 : Shape := ⟨2, ![1, 64]⟩
abbrev S1x1 : Shape := ⟨2, ![1, 1]⟩

abbrev nBuf : Space → Nat
  | .hbm => 285
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S128x64, .f32⟩
  | 8 => ⟨S64, .f32⟩
  | 9 => ⟨S64, .f32⟩
  | 10 => ⟨S64, .f32⟩
  | 11 => ⟨S64x1, .f32⟩
  | 12 => ⟨S1, .f32⟩
  | 13 => ⟨S100000, .i32⟩
  | 14 => ⟨S1x640000, .i32⟩
  | 15 => ⟨S640000, .i32⟩
  | 16 => ⟨S740000, .i32⟩
  | 17 => ⟨S1x640000, .i32⟩
  | 18 => ⟨S640000, .i32⟩
  | 19 => ⟨S740000, .i32⟩
  | 20 => ⟨S_, .f32⟩
  | 21 => ⟨S740000, .f32⟩
  | 22 => ⟨S_, .f32⟩
  | 23 => ⟨S100000, .f32⟩
  | 24 => ⟨S740000x1, .i32⟩
  | 25 => ⟨S100000, .f32⟩
  | 26 => ⟨S100000, .f32⟩
  | 27 => ⟨S_, .i32⟩
  | 28 => ⟨S740000, .i32⟩
  | 29 => ⟨S740000, .i1⟩
  | 30 => ⟨S_, .i32⟩
  | 31 => ⟨S740000, .i32⟩
  | 32 => ⟨S740000, .i32⟩
  | 33 => ⟨S740000, .i32⟩
  | 34 => ⟨S740000x1, .i32⟩
  | 35 => ⟨S740000, .f32⟩
  | 36 => ⟨S_, .i32⟩
  | 37 => ⟨S740000, .i32⟩
  | 38 => ⟨S740000, .i1⟩
  | 39 => ⟨S_, .i32⟩
  | 40 => ⟨S740000, .i32⟩
  | 41 => ⟨S740000, .i32⟩
  | 42 => ⟨S740000, .i32⟩
  | 43 => ⟨S740000x1, .i32⟩
  | 44 => ⟨S740000, .f32⟩
  | 45 => ⟨S740000, .f32⟩
  | 46 => ⟨S740000x1, .f32⟩
  | 47 => ⟨S1x128x128, .f32⟩
  | 48 => ⟨S128x128, .f32⟩
  | 49 => ⟨S100000x128, .f32⟩
  | 50 => ⟨S_, .i32⟩
  | 51 => ⟨S740000, .i32⟩
  | 52 => ⟨S740000, .i1⟩
  | 53 => ⟨S_, .i32⟩
  | 54 => ⟨S740000, .i32⟩
  | 55 => ⟨S740000, .i32⟩
  | 56 => ⟨S740000, .i32⟩
  | 57 => ⟨S740000x1, .i32⟩
  | 58 => ⟨S740000x128, .f32⟩
  | 59 => ⟨S740000x128, .f32⟩
  | 60 => ⟨S740000x128, .f32⟩
  | 61 => ⟨S_, .f32⟩
  | 62 => ⟨S100000x128, .f32⟩
  | 63 => ⟨S740000x1, .i32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S1x128x128, .f32⟩
  | 108 => ⟨S128x128, .f32⟩
  | 109 => ⟨S100000x128, .f32⟩
  | 110 => ⟨S_, .i32⟩
  | 111 => ⟨S740000, .i32⟩
  | 112 => ⟨S740000, .i1⟩
  | 113 => ⟨S_, .i32⟩
  | 114 => ⟨S740000, .i32⟩
  | 115 => ⟨S740000, .i32⟩
  | 116 => ⟨S740000, .i32⟩
  | 117 => ⟨S740000x1, .i32⟩
  | 118 => ⟨S740000x128, .f32⟩
  | 119 => ⟨S740000x128, .f32⟩
  | 120 => ⟨S740000x128, .f32⟩
  | 121 => ⟨S_, .f32⟩
  | 122 => ⟨S100000x128, .f32⟩
  | 123 => ⟨S740000x1, .i32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S100000x128, .f32⟩
  | 15 => ⟨S_, .f32⟩
  | 16 => ⟨S128, .f32⟩
  | 17 => ⟨S_, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S128, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S1x128x128, .f32⟩
  | 40 => ⟨S128x128, .f32⟩
  | 41 => ⟨S100000x128, .f32⟩
  | 42 => ⟨S_, .i32⟩
  | 43 => ⟨S740000, .i32⟩
  | 44 => ⟨S740000, .i1⟩
  | 45 => ⟨S_, .i32⟩
  | 46 => ⟨S740000, .i32⟩
  | 47 => ⟨S740000, .i32⟩
  | 48 => ⟨S740000, .i32⟩
  | 49 => ⟨S740000x1, .i32⟩
  | 50 => ⟨S740000x128, .f32⟩
  | 51 => ⟨S740000x128, .f32⟩
  | 52 => ⟨S740000x128, .f32⟩
  | 53 => ⟨S_, .f32⟩
  | 54 => ⟨S100000x128, .f32⟩
  | 55 => ⟨S740000x1, .i32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .f32⟩
  | 100 => ⟨S100000, .f32⟩
  | 101 => ⟨S_, .f32⟩
  | 102 => ⟨S4096, .f32⟩
  | 103 => ⟨S100000x1, .i32⟩
  | 104 => ⟨S4096, .f32⟩
  | 105 => ⟨S_, .f32⟩
  | 106 => ⟨S4096x128, .f32⟩
  | 107 => ⟨S100000x1, .i32⟩
  | 108 => ⟨S4096x128, .f32⟩
  | 109 => ⟨S_, .f32⟩
  | 110 => ⟨S_, .f32⟩
  | 111 => ⟨S4096, .f32⟩
  | 112 => ⟨S4096, .f32⟩
  | 113 => ⟨S4096x1, .f32⟩
  | 114 => ⟨S4096x128, .f32⟩
  | 115 => ⟨S4096x128, .f32⟩
  | 116 => ⟨S4096x64, .f32⟩
  | 117 => ⟨S1x64, .f32⟩
  | 118 => ⟨S4096x64, .f32⟩
  | 119 => ⟨S4096x64, .f32⟩
  | 120 => ⟨S_, .f32⟩
  | 121 => ⟨S64, .f32⟩
  | 122 => ⟨S_, .f32⟩
  | 123 => ⟨S64, .f32⟩
  | 124 => ⟨S64, .f32⟩
  | 125 => ⟨S1x64, .f32⟩
  | 126 => ⟨S4096x64, .f32⟩
  | 127 => ⟨S4096x64, .f32⟩
  | _ => ⟨S100000x128, .f32⟩

abbrev hbmTy0_2 (i : Nat) : BufTy := match i % 128 with
  | 0 => ⟨S4096x64, .f32⟩
  | 1 => ⟨S_, .f32⟩
  | 2 => ⟨S64, .f32⟩
  | 3 => ⟨S_, .f32⟩
  | 4 => ⟨S64, .f32⟩
  | 5 => ⟨S64, .f32⟩
  | 6 => ⟨S1x64, .f32⟩
  | 7 => ⟨S4096x64, .f32⟩
  | 8 => ⟨S4096x64, .f32⟩
  | 9 => ⟨S_, .f32⟩
  | 10 => ⟨S64, .f32⟩
  | 11 => ⟨S64, .f32⟩
  | 12 => ⟨S64, .f32⟩
  | 13 => ⟨S1x64, .f32⟩
  | 14 => ⟨S4096x64, .f32⟩
  | 15 => ⟨S4096x64, .f32⟩
  | 16 => ⟨S1x64, .f32⟩
  | 17 => ⟨S4096x64, .f32⟩
  | 18 => ⟨S4096x64, .f32⟩
  | 19 => ⟨S1x64, .f32⟩
  | 20 => ⟨S4096x64, .f32⟩
  | 21 => ⟨S4096x64, .f32⟩
  | 22 => ⟨S_, .f32⟩
  | 23 => ⟨S4096x64, .f32⟩
  | 24 => ⟨S4096x64, .f32⟩
  | 25 => ⟨S4096x1, .f32⟩
  | 26 => ⟨S1x1, .f32⟩
  | 27 => ⟨S4096x1, .f32⟩
  | 28 => ⟨S4096x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call0_cst : Ref sig .tc := ⟨.hbm, 104, rfl⟩
abbrev main_call0_v0 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_12 : Ref sig .tc := ⟨.hbm, 110, rfl⟩
abbrev main_v81 : Ref sig .tc := ⟨.hbm, 111, rfl⟩
abbrev main_v82 : Ref sig .tc := ⟨.hbm, 112, rfl⟩
abbrev main_c_13 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_15 : Ref sig .tc := ⟨.hbm, 134, rfl⟩
abbrev main_v102 : Ref sig .tc := ⟨.hbm, 135, rfl⟩
abbrev main_cst_16 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_17 : Ref sig .tc := ⟨.hbm, 143, rfl⟩
abbrev main_v109 : Ref sig .tc := ⟨.hbm, 144, rfl⟩
abbrev main_cst_18 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_19 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_call1_cst : Ref sig .tc := ⟨.hbm, 164, rfl⟩
abbrev main_call1_v0 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_c_20 : Ref sig .tc := ⟨.hbm, 170, rfl⟩
abbrev main_v131 : Ref sig .tc := ⟨.hbm, 171, rfl⟩
abbrev main_v132 : Ref sig .tc := ⟨.hbm, 172, rfl⟩
abbrev main_c_21 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_22 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_23 : Ref sig .tc := ⟨.hbm, 194, rfl⟩
abbrev main_v152 : Ref sig .tc := ⟨.hbm, 195, rfl⟩
abbrev main_cst_24 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_25 : Ref sig .tc := ⟨.hbm, 203, rfl⟩
abbrev main_v159 : Ref sig .tc := ⟨.hbm, 204, rfl⟩
abbrev main_cst_26 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_27 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_call2_cst : Ref sig .tc := ⟨.hbm, 224, rfl⟩
abbrev main_call2_v0 : Ref sig .tc := ⟨.hbm, 225, rfl⟩
abbrev main_v177 : Ref sig .tc := ⟨.hbm, 226, rfl⟩
abbrev main_cst_28 : Ref sig .tc := ⟨.hbm, 227, rfl⟩
abbrev main_v178 : Ref sig .tc := ⟨.hbm, 228, rfl⟩
abbrev main_cst_29 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_30 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_31 : Ref sig .tc := ⟨.hbm, 237, rfl⟩
abbrev main_call3_v0 : Ref sig .tc := ⟨.hbm, 238, rfl⟩
abbrev main_call3_v1 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_cst_32 : Ref sig .tc := ⟨.hbm, 248, rfl⟩
abbrev main_v193 : Ref sig .tc := ⟨.hbm, 249, rfl⟩
abbrev main_cst_33 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_34 : Ref sig .tc := ⟨.hbm, 257, rfl⟩
abbrev main_v200 : Ref sig .tc := ⟨.hbm, 258, rfl⟩
abbrev main_cst_35 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_cst_36 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_call4_cst : Ref sig .tc := ⟨.hbm, 278, rfl⟩
abbrev main_call4_v0 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  slices_S3x128x128_S1x128x128_0_0_0 : S3x128x128.Slices ![0, 0, 0] S1x128x128
  shapeCasts_S1x128x128_S128x128 : S1x128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S4096 : S_.BroadcastsInDim S4096 (![] : Fin 0 → Fin S4096.rank)
  bcast_S100000_S100000x1_0 : S100000.BroadcastsInDim S100000x1 (![0] : Fin 1 → Fin S100000x1.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S64_d0 : S4096x64.ReducesTo [0] S64
  bcast_S_S64 : S_.BroadcastsInDim S64 (![] : Fin 0 → Fin S64.rank)
  bcast_S_S4096x64 : S_.BroadcastsInDim S4096x64 (![] : Fin 0 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S4096_S100000x1_S100000_n_0_0_1_wf : ScatterDims.WF S4096 S100000x1 S100000 [] [0] [0] 1
  scatter_S4096x128_S100000x1_S100000x128_1_0_0_1_wf : ScatterDims.WF S4096x128 S100000x1 S100000x128 [1] [0] [0] 1
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.KRun.lean ====
/-
  The kernel program's run with its result named. The program is seven kernel regions among stretches of host
  operations; its run leaves every unscoped buffer at the last boundary's contents, a fold from the launch memory
  through the host stretches and the regions' write-backs. Read at the result buffer, that fold is the value the
  bridge modules compute; read at an argument, it is the argument as launched.
-/
import proofs.«100148_j72756745994791_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and every argument as launched. -/
theorem run_named : θ_run defs (onTc (τ := τ) (main (F := F))) ⟨m, fun _ => 0, ρ⟩ (fun r => ∀ c : Dev nD,
      r.2.mem ((c.tc : Thread nD τ).loc main_v163) = W16 m ρ c (Proc.devRef .tc main_v163)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v163 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.KRun

end
-- ==== Proof.FiniteBias.lean ====
/-
  From "every float input is finite" to "every entry of the first bias array is a real number".

  The precondition computes, for each float argument `a`, the one-bit scalar  all (|a| < +∞)  and conjoins the
  thirteen scalars, left-nested, in argument order.  At the extended reals  |x| = max x (-x)  and the pattern
  0x7F800000 denotes ⊤, so  |x| < ⊤  excludes exactly x = ⊤ and x = ⊥: what is left is a real.
-/
import Idealize.ShloMosaic.Lib.ReduceAll
import Idealize.ShloMosaic.Lib.ValueIdx
import proofs.«100148_j72756745994791_1_alg».proof.Pre_finite_inputs

namespace Cert.Bridge.Finite

open Idealize.ShloMosaic
open Cert.Pre_finite_inputs

/-- A rank-0 array has one index. -/
instance : Subsingleton S_.Idx := ⟨fun a b => funext fun d => d.elim0⟩

/-- A conjunction of two one-bit scalars that is all-ones has an all-ones left conjunct. -/
theorem andi_ones_left {x y : IVec S_ 1} (h : andi x y = fun _ => 1#1) : x = fun _ => 1#1 :=
  funext fun j => (IntOp.andi_eq_one.1 (congrFun h j)).1

/-- A conjunction of two one-bit scalars that is all-ones has an all-ones right conjunct. -/
theorem andi_ones_right {x y : IVec S_ 1} (h : andi x y = fun _ => 1#1) : y = fun _ => 1#1 :=
  funext fun j => (IntOp.andi_eq_one.1 (congrFun h j)).2

/-- The f32 pattern 0x7F800000 denotes +∞. -/
theorem ofBits_inf : Ideal.ofBits .f32 0x7F800000#32 = ⊤ := by simp [Ideal.ofBits, Ideal.ieee]

/-- An extended real whose absolute value  max x (-x)  compares below +∞ is a real: at ⊤ and at ⊥ the
    absolute value is ⊤, and ⊤ < ⊤ is false. -/
theorem real_of_abs_lt_inf (x : EReal)
    (h : FloatOps.cmpf .olt (FloatOps.hostAbsf (F := Ideal) (φ := .f32) x) (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | coe r => exact ⟨r, rfl⟩
  | top => simp [Ideal.cmp] at h

/-- `all (|a| < +∞)` being 1 makes every entry of `a` a real: the reduction by `and` over all axes that is 1
    met a 1 at every index, and the comparison at that index is the scalar fact above. -/
theorem entries_real_of_all_abs_lt_inf {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu = fun _ => 1#1)
    (i : s.Idx) : ∃ r : ℝ, a i = (r : EReal) :=
  real_of_abs_lt_inf (a i) (Host.reduce_andi_all _ _ hr hu ValueIdx.ix0 (congrFun h ValueIdx.ix0) i)

/-- Every entry of the first bias array (the program's fifth argument) is a real number. Of the thirteen
    conjuncts its test is the third: eight times the left conjunct, then the right one. -/
theorem bias_real [Cert.Pre_finite_inputs.Facts] (a0 : FVec Ideal S100000x128 .f32) (a1 : IVec S2x640000 32) (a2 : IVec S100000 32)
    (a3 : FVec Ideal S3x128x128 .f32) (a4 a5 a6 : FVec Ideal S3x128 .f32) (a7 : FVec Ideal S128x64 .f32)
    (a8 a9 a10 : FVec Ideal S64 .f32) (a11 : FVec Ideal S64x1 .f32) (a12 : FVec Ideal S1 .f32)
    (h : Cert.Pre_finite_inputs.fn (F := Ideal) a0 a1 a2 a3 a4 a5 a6 a7 a8 a9 a10 a11 a12 = fun _ => 1#1) :
    ∀ i : Cert.Pre_finite_inputs.S3x128.Idx, ∃ r : ℝ, a4 i = (r : EReal) := by
  dsimp only [fn, fn_part1, fn_part2, fn_part3] at h
  have h48 := andi_ones_left h
  have h43 := andi_ones_left h48
  have h38 := andi_ones_left h43
  have h33 := andi_ones_left h38
  have h28 := andi_ones_left h33
  have h23 := andi_ones_left h28
  have h18 := andi_ones_left h23
  have h13 := andi_ones_left h18
  have h12 := andi_ones_right h13
  exact entries_real_of_all_abs_lt_inf a4 _ _ _ h12

end Cert.Bridge.Finite
-- ==== Proof.Keep.lean ====
/-
  Buffers that outlive the boundary they were written at.

  The program is a chain of host stretches and kernel regions. A host operation writes one buffer and a region writes
  its result array; every other buffer holds across the boundary what it held before. The edge sources, the edge
  destinations and the edge weights computed by the first stretch are read again by each layer's aggregation, and the
  arguments are read by the stretch that needs them: this module walks each of them across the boundaries between.
-/
import proofs.«100148_j72756745994791_1_alg».proof.Proof.Gen.KernelIdeal.Frame

set_option maxRecDepth 16384

noncomputable section

namespace Cert.Bridge.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the stretch writes the buffer: each operation's one written buffer is another one. -/
macro "none_writes" ops:ident : tactic => `(tactic| (
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem arg2_1 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by none_writes hostOps0))
theorem arg2_2 (c : Dev nD) : W2 m ρ c (Proc.devRef .tc main_arg2) = W1 m ρ c (Proc.devRef .tc main_arg2) :=
  W2_of_ne m ρ c main_arg2 (by decide)
theorem arg2_3 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by none_writes hostOps1))
theorem arg2_4 (c : Dev nD) : W4 m ρ c (Proc.devRef .tc main_arg2) = W3 m ρ c (Proc.devRef .tc main_arg2) :=
  W4_of_ne m ρ c main_arg2 (by decide)
theorem arg2_5 (c : Dev nD) : W5 m ρ c (Proc.devRef .tc main_arg2) = W4 m ρ c (Proc.devRef .tc main_arg2) :=
  StableHlo.after_of_forall_not_mem (b := Proc.devRef .tc main_arg2) _ _ (List.forall_iff_forall_mem.mp (by none_writes hostOps2))
theorem arg2_6 (c : Dev nD) : W6 m ρ c (Proc.devRef .tc main_arg2) = W5 m ρ c (Proc.devRef .tc main_arg2) :=
  W6_of_ne m ρ c main_arg2 (by decide)
theorem arg2_7 (c : Dev nD) : W7 m ρ c (Proc.devRef .tc main_arg2) = W6 m ρ c (Proc.devRef .tc main_arg2) :=
  StableHlo.after_of_forall_not_mem (b := Proc.devRef .tc main_arg2) _ _ (List.forall_iff_forall_mem.mp (by none_writes hostOps3))
theorem arg2_8 (c : Dev nD) : W8 m ρ c (Proc.devRef .tc main_arg2) = W7 m ρ c (Proc.devRef .tc main_arg2) :=
  W8_of_ne m ρ c main_arg2 (by decide)
theorem arg2_9 (c : Dev nD) : W9 m ρ c (Proc.devRef .tc main_arg2) = W8 m ρ c (Proc.devRef .tc main_arg2) :=
  StableHlo.after_of_forall_not_mem (b := Proc.devRef .tc main_arg2) _ _ (List.forall_iff_forall_mem.mp (by none_writes hostOps4))
theorem arg2_10 (c : Dev nD) : W10 m ρ c (Proc.devRef .tc main_arg2) = W9 m ρ c (Proc.devRef .tc main_arg2) :=
  W10_of_ne m ρ c main_arg2 (by decide)
theorem arg2_11 (c : Dev nD) : W11 m ρ c (Proc.devRef .tc main_arg2) = W10 m ρ c (Proc.devRef .tc main_arg2) :=
  StableHlo.after_of_forall_not_mem (b := Proc.devRef .tc main_arg2) _ _ (List.forall_iff_forall_mem.mp (by none_writes hostOps5))
theorem arg2_12 (c : Dev nD) : W12 m ρ c (Proc.devRef .tc main_arg2) = W11 m ρ c (Proc.devRef .tc main_arg2) :=
  W12_of_ne m ρ c main_arg2 (by decide)

theorem arg3_1 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by none_writes hostOps0))
theorem arg3_2 (c : Dev nD) : W2 m ρ c (Proc.devRef .tc main_arg3) = W1 m ρ c (Proc.devRef .tc main_arg3) :=
  W2_of_ne m ρ c main_arg3 (by decide)
theorem arg3_3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by none_writes hostOps1))
theorem arg3_4 (c : Dev nD) : W4 m ρ c (Proc.devRef .tc main_arg3) = W3 m ρ c (Proc.devRef .tc main_arg3) :=
  W4_of_ne m ρ c main_arg3 (by decide)
theorem arg3_5 (c : Dev nD) : W5 m ρ c (Proc.devRef .tc main_arg3) = W4 m ρ c (Proc.devRef .tc main_arg3) :=
  StableHlo.after_of_forall_not_mem (b := Proc.devRef .tc main_arg3) _ _ (List.forall_iff_forall_mem.mp (by none_writes hostOps2))
theorem arg3_6 (c : Dev nD) : W6 m ρ c (Proc.devRef .tc main_arg3) = W5 m ρ c (Proc.devRef .tc main_arg3) :=
  W6_of_ne m ρ c main_arg3 (by decide)
theorem arg3_7 (c : Dev nD) : W7 m ρ c (Proc.devRef .tc main_arg3) = W6 m ρ c (Proc.devRef .tc main_arg3) :=
  StableHlo.after_of_forall_not_mem (b := Proc.devRef .tc main_arg3) _ _ (List.forall_iff_forall_mem.mp (by none_writes hostOps3))
theorem arg3_8 (c : Dev nD) : W8 m ρ c (Proc.devRef .tc main_arg3) = W7 m ρ c (Proc.devRef .tc main_arg3) :=
  W8_of_ne m ρ c main_arg3 (by decide)

theorem arg4_1 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by none_writes hostOps0))
theorem arg4_2 (c : Dev nD) : W2 m ρ c (Proc.devRef .tc main_arg4) = W1 m ρ c (Proc.devRef .tc main_arg4) :=
  W2_of_ne m ρ c main_arg4 (by decide)
theorem arg4_3 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by none_writes hostOps1))
theorem arg4_4 (c : Dev nD) : W4 m ρ c (Proc.devRef .tc main_arg4) = W3 m ρ c (Proc.devRef .tc main_arg4) :=
  W4_of_ne m ρ c main_arg4 (by decide)
theorem arg4_5 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by none_writes hostOps2))
theorem arg4_6 (c : Dev nD) : W6 m ρ c (Proc.devRef .tc main_arg4) = W5 m ρ c (Proc.devRef .tc main_arg4) :=
  W6_of_ne m ρ c main_arg4 (by decide)
theorem arg4_7 (c : Dev nD) : W7 m ρ c (Proc.devRef .tc main_arg4) = W6 m ρ c (Proc.devRef .tc main_arg4) :=
  StableHlo.after_of_forall_not_mem (b := Proc.devRef .tc main_arg4) _ _ (List.forall_iff_forall_mem.mp (by none_writes hostOps3))
theorem arg4_8 (c : Dev nD) : W8 m ρ c (Proc.devRef .tc main_arg4) = W7 m ρ c (Proc.devRef .tc main_arg4) :=
  W8_of_ne m ρ c main_arg4 (by decide)
theorem arg4_9 (c : Dev nD) : W9 m ρ c (Proc.devRef .tc main_arg4) = W8 m ρ c (Proc.devRef .tc main_arg4) :=
  StableHlo.after_of_forall_not_mem (b := Proc.devRef .tc main_arg4) _ _ (List.forall_iff_forall_mem.mp (by none_writes hostOps4))
theorem arg4_10 (c : Dev nD) : W10 m ρ c (Proc.devRef .tc main_arg4) = W9 m ρ c (Proc.devRef .tc main_arg4) :=
  W10_of_ne m ρ c main_arg4 (by decide)

theorem arg5_1 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by none_writes hostOps0))
theorem arg5_2 (c : Dev nD) : W2 m ρ c (Proc.devRef .tc main_arg5) = W1 m ρ c (Proc.devRef .tc main_arg5) :=
  W2_of_ne m ρ c main_arg5 (by decide)
theorem arg5_3 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by none_writes hostOps1))
theorem arg5_4 (c : Dev nD) : W4 m ρ c (Proc.devRef .tc main_arg5) = W3 m ρ c (Proc.devRef .tc main_arg5) :=
  W4_of_ne m ρ c main_arg5 (by decide)
theorem arg5_5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by none_writes hostOps2))
theorem arg5_6 (c : Dev nD) : W6 m ρ c (Proc.devRef .tc main_arg5) = W5 m ρ c (Proc.devRef .tc main_arg5) :=
  W6_of_ne m ρ c main_arg5 (by decide)
theorem arg5_7 (c : Dev nD) : W7 m ρ c (Proc.devRef .tc main_arg5) = W6 m ρ c (Proc.devRef .tc main_arg5) :=
  StableHlo.after_of_forall_not_mem (b := Proc.devRef .tc main_arg5) _ _ (List.forall_iff_forall_mem.mp (by none_writes hostOps3))
theorem arg5_8 (c : Dev nD) : W8 m ρ c (Proc.devRef .tc main_arg5) = W7 m ρ c (Proc.devRef .tc main_arg5) :=
  W8_of_ne m ρ c main_arg5 (by decide)
theorem arg5_9 (c : Dev nD) : W9 m ρ c (Proc.devRef .tc main_arg5) = W8 m ρ c (Proc.devRef .tc main_arg5) :=
  StableHlo.after_of_forall_not_mem (b := Proc.devRef .tc main_arg5) _ _ (List.forall_iff_forall_mem.mp (by none_writes hostOps4))
theorem arg5_10 (c : Dev nD) : W10 m ρ c (Proc.devRef .tc main_arg5) = W9 m ρ c (Proc.devRef .tc main_arg5) :=
  W10_of_ne m ρ c main_arg5 (by decide)

theorem arg6_1 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by none_writes hostOps0))
theorem arg6_2 (c : Dev nD) : W2 m ρ c (Proc.devRef .tc main_arg6) = W1 m ρ c (Proc.devRef .tc main_arg6) :=
  W2_of_ne m ρ c main_arg6 (by decide)
theorem arg6_3 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by none_writes hostOps1))
theorem arg6_4 (c : Dev nD) : W4 m ρ c (Proc.devRef .tc main_arg6) = W3 m ρ c (Proc.devRef .tc main_arg6) :=
  W4_of_ne m ρ c main_arg6 (by decide)
theorem arg6_5 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by none_writes hostOps2))
theorem arg6_6 (c : Dev nD) : W6 m ρ c (Proc.devRef .tc main_arg6) = W5 m ρ c (Proc.devRef .tc main_arg6) :=
  W6_of_ne m ρ c main_arg6 (by decide)
theorem arg6_7 (c : Dev nD) : W7 m ρ c (Proc.devRef .tc main_arg6) = W6 m ρ c (Proc.devRef .tc main_arg6) :=
  StableHlo.after_of_forall_not_mem (b := Proc.devRef .tc main_arg6) _ _ (List.forall_iff_forall_mem.mp (by none_writes hostOps3))
theorem arg6_8 (c : Dev nD) : W8 m ρ c (Proc.devRef .tc main_arg6) = W7 m ρ c (Proc.devRef .tc main_arg6) :=
  W8_of_ne m ρ c main_arg6 (by decide)
theorem arg6_9 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by none_writes hostOps4))
theorem arg6_10 (c : Dev nD) : W10 m ρ c (Proc.devRef .tc main_arg6) = W9 m ρ c (Proc.devRef .tc main_arg6) :=
  W10_of_ne m ρ c main_arg6 (by decide)

theorem arg7_1 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by none_writes hostOps0))
theorem arg7_2 (c : Dev nD) : W2 m ρ c (Proc.devRef .tc main_arg7) = W1 m ρ c (Proc.devRef .tc main_arg7) :=
  W2_of_ne m ρ c main_arg7 (by decide)
theorem arg7_3 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by none_writes hostOps1))
theorem arg7_4 (c : Dev nD) : W4 m ρ c (Proc.devRef .tc main_arg7) = W3 m ρ c (Proc.devRef .tc main_arg7) :=
  W4_of_ne m ρ c main_arg7 (by decide)
theorem arg7_5 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by none_writes hostOps2))
theorem arg7_6 (c : Dev nD) : W6 m ρ c (Proc.devRef .tc main_arg7) = W5 m ρ c (Proc.devRef .tc main_arg7) :=
  W6_of_ne m ρ c main_arg7 (by decide)
theorem arg7_7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by none_writes hostOps3))
theorem arg7_8 (c : Dev nD) : W8 m ρ c (Proc.devRef .tc main_arg7) = W7 m ρ c (Proc.devRef .tc main_arg7) :=
  W8_of_ne m ρ c main_arg7 (by decide)
theorem arg7_9 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by none_writes hostOps4))
theorem arg7_10 (c : Dev nD) : W10 m ρ c (Proc.devRef .tc main_arg7) = W9 m ρ c (Proc.devRef .tc main_arg7) :=
  W10_of_ne m ρ c main_arg7 (by decide)
theorem arg7_11 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by none_writes hostOps5))
theorem arg7_12 (c : Dev nD) : W12 m ρ c (Proc.devRef .tc main_arg7) = W11 m ρ c (Proc.devRef .tc main_arg7) :=
  W12_of_ne m ρ c main_arg7 (by decide)
theorem arg7_13 (c : Dev nD) : W13 m ρ c (Proc.devRef .tc main_arg7) = W12 m ρ c (Proc.devRef .tc main_arg7) :=
  StableHlo.after_of_forall_not_mem (b := Proc.devRef .tc main_arg7) _ _ (List.forall_iff_forall_mem.mp (by none_writes hostOps6))
theorem arg7_14 (c : Dev nD) : W14 m ρ c (Proc.devRef .tc main_arg7) = W13 m ρ c (Proc.devRef .tc main_arg7) :=
  StableHlo.after_of_forall_not_mem (b := Proc.devRef .tc main_arg7) _ _ (List.forall_iff_forall_mem.mp (by none_writes hostOps6_1))
theorem arg7_15 (c : Dev nD) : W15 m ρ c (Proc.devRef .tc main_arg7) = W14 m ρ c (Proc.devRef .tc main_arg7) :=
  StableHlo.after_of_forall_not_mem (b := Proc.devRef .tc main_arg7) _ _ (List.forall_iff_forall_mem.mp (by none_writes hostOps6_2))

theorem arg11_1 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by none_writes hostOps0))
theorem arg11_2 (c : Dev nD) : W2 m ρ c (Proc.devRef .tc main_arg11) = W1 m ρ c (Proc.devRef .tc main_arg11) :=
  W2_of_ne m ρ c main_arg11 (by decide)
theorem arg11_3 (c : Dev nD) : W3 m ρ c (Proc.devRef .tc main_arg11) = W2 m ρ c (Proc.devRef .tc main_arg11) :=
  StableHlo.after_of_forall_not_mem (b := Proc.devRef .tc main_arg11) _ _ (List.forall_iff_forall_mem.mp (by none_writes hostOps1))
theorem arg11_4 (c : Dev nD) : W4 m ρ c (Proc.devRef .tc main_arg11) = W3 m ρ c (Proc.devRef .tc main_arg11) :=
  W4_of_ne m ρ c main_arg11 (by decide)
theorem arg11_5 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by none_writes hostOps2))
theorem arg11_6 (c : Dev nD) : W6 m ρ c (Proc.devRef .tc main_arg11) = W5 m ρ c (Proc.devRef .tc main_arg11) :=
  W6_of_ne m ρ c main_arg11 (by decide)
theorem arg11_7 (c : Dev nD) : W7 m ρ c (Proc.devRef .tc main_arg11) = W6 m ρ c (Proc.devRef .tc main_arg11) :=
  StableHlo.after_of_forall_not_mem (b := Proc.devRef .tc main_arg11) _ _ (List.forall_iff_forall_mem.mp (by none_writes hostOps3))
theorem arg11_8 (c : Dev nD) : W8 m ρ c (Proc.devRef .tc main_arg11) = W7 m ρ c (Proc.devRef .tc main_arg11) :=
  W8_of_ne m ρ c main_arg11 (by decide)
theorem arg11_9 (c : Dev nD) : W9 m ρ c (Proc.devRef .tc main_arg11) = W8 m ρ c (Proc.devRef .tc main_arg11) :=
  StableHlo.after_of_forall_not_mem (b := Proc.devRef .tc main_arg11) _ _ (List.forall_iff_forall_mem.mp (by none_writes hostOps4))
theorem arg11_10 (c : Dev nD) : W10 m ρ c (Proc.devRef .tc main_arg11) = W9 m ρ c (Proc.devRef .tc main_arg11) :=
  W10_of_ne m ρ c main_arg11 (by decide)
theorem arg11_11 (c : Dev nD) : W11 m ρ c (Proc.devRef .tc main_arg11) = W10 m ρ c (Proc.devRef .tc main_arg11) :=
  StableHlo.after_of_forall_not_mem (b := Proc.devRef .tc main_arg11) _ _ (List.forall_iff_forall_mem.mp (by none_writes hostOps5))
theorem arg11_12 (c : Dev nD) : W12 m ρ c (Proc.devRef .tc main_arg11) = W11 m ρ c (Proc.devRef .tc main_arg11) :=
  W12_of_ne m ρ c main_arg11 (by decide)
theorem arg11_13 (c : Dev nD) : W13 m ρ c (Proc.devRef .tc main_arg11) = W12 m ρ c (Proc.devRef .tc main_arg11) :=
  StableHlo.after_of_forall_not_mem (b := Proc.devRef .tc main_arg11) _ _ (List.forall_iff_forall_mem.mp (by none_writes hostOps6))
theorem arg11_14 (c : Dev nD) : W14 m ρ c (Proc.devRef .tc main_arg11) = W13 m ρ c (Proc.devRef .tc main_arg11) :=
  StableHlo.after_of_forall_not_mem (b := Proc.devRef .tc main_arg11) _ _ (List.forall_iff_forall_mem.mp (by none_writes hostOps6_1))
theorem arg11_15 (c : Dev nD) : W15 m ρ c (Proc.devRef .tc main_arg11) = W14 m ρ c (Proc.devRef .tc main_arg11) :=
  StableHlo.after_of_forall_not_mem (b := Proc.devRef .tc main_arg11) _ _ (List.forall_iff_forall_mem.mp (by none_writes hostOps6_2))

theorem arg8_1 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by none_writes hostOps0))
theorem arg8_2 (c : Dev nD) : W2 m ρ c (Proc.devRef .tc main_arg8) = W1 m ρ c (Proc.devRef .tc main_arg8) :=
  W2_of_ne m ρ c main_arg8 (by decide)
theorem arg8_3 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by none_writes hostOps1))
theorem arg8_4 (c : Dev nD) : W4 m ρ c (Proc.devRef .tc main_arg8) = W3 m ρ c (Proc.devRef .tc main_arg8) :=
  W4_of_ne m ρ c main_arg8 (by decide)
theorem arg8_5 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by none_writes hostOps2))
theorem arg8_6 (c : Dev nD) : W6 m ρ c (Proc.devRef .tc main_arg8) = W5 m ρ c (Proc.devRef .tc main_arg8) :=
  W6_of_ne m ρ c main_arg8 (by decide)
theorem arg8_7 (c : Dev nD) : W7 m ρ c (Proc.devRef .tc main_arg8) = W6 m ρ c (Proc.devRef .tc main_arg8) :=
  StableHlo.after_of_forall_not_mem (b := Proc.devRef .tc main_arg8) _ _ (List.forall_iff_forall_mem.mp (by none_writes hostOps3))
theorem arg8_8 (c : Dev nD) : W8 m ρ c (Proc.devRef .tc main_arg8) = W7 m ρ c (Proc.devRef .tc main_arg8) :=
  W8_of_ne m ρ c main_arg8 (by decide)
theorem arg8_9 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by none_writes hostOps4))
theorem arg8_10 (c : Dev nD) : W10 m ρ c (Proc.devRef .tc main_arg8) = W9 m ρ c (Proc.devRef .tc main_arg8) :=
  W10_of_ne m ρ c main_arg8 (by decide)
theorem arg8_11 (c : Dev nD) : W11 m ρ c (Proc.devRef .tc main_arg8) = W10 m ρ c (Proc.devRef .tc main_arg8) :=
  StableHlo.after_of_forall_not_mem (b := Proc.devRef .tc main_arg8) _ _ (List.forall_iff_forall_mem.mp (by none_writes hostOps5))
theorem arg8_12 (c : Dev nD) : W12 m ρ c (Proc.devRef .tc main_arg8) = W11 m ρ c (Proc.devRef .tc main_arg8) :=
  W12_of_ne m ρ c main_arg8 (by decide)
theorem arg8_13 (c : Dev nD) : W13 m ρ c (Proc.devRef .tc main_arg8) = W12 m ρ c (Proc.devRef .tc main_arg8) :=
  StableHlo.after_of_forall_not_mem (b := Proc.devRef .tc main_arg8) _ _ (List.forall_iff_forall_mem.mp (by none_writes hostOps6))
theorem arg8_14 (c : Dev nD) : W14 m ρ c (Proc.devRef .tc main_arg8) = W13 m ρ c (Proc.devRef .tc main_arg8) :=
  StableHlo.after_of_forall_not_mem (b := Proc.devRef .tc main_arg8) _ _ (List.forall_iff_forall_mem.mp (by none_writes hostOps6_1))

theorem arg9_1 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by none_writes hostOps0))
theorem arg9_2 (c : Dev nD) : W2 m ρ c (Proc.devRef .tc main_arg9) = W1 m ρ c (Proc.devRef .tc main_arg9) :=
  W2_of_ne m ρ c main_arg9 (by decide)
theorem arg9_3 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by none_writes hostOps1))
theorem arg9_4 (c : Dev nD) : W4 m ρ c (Proc.devRef .tc main_arg9) = W3 m ρ c (Proc.devRef .tc main_arg9) :=
  W4_of_ne m ρ c main_arg9 (by decide)
theorem arg9_5 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by none_writes hostOps2))
theorem arg9_6 (c : Dev nD) : W6 m ρ c (Proc.devRef .tc main_arg9) = W5 m ρ c (Proc.devRef .tc main_arg9) :=
  W6_of_ne m ρ c main_arg9 (by decide)
theorem arg9_7 (c : Dev nD) : W7 m ρ c (Proc.devRef .tc main_arg9) = W6 m ρ c (Proc.devRef .tc main_arg9) :=
  StableHlo.after_of_forall_not_mem (b := Proc.devRef .tc main_arg9) _ _ (List.forall_iff_forall_mem.mp (by none_writes hostOps3))
theorem arg9_8 (c : Dev nD) : W8 m ρ c (Proc.devRef .tc main_arg9) = W7 m ρ c (Proc.devRef .tc main_arg9) :=
  W8_of_ne m ρ c main_arg9 (by decide)
theorem arg9_9 (c : Dev nD) : W9 m ρ c (Proc.devRef .tc main_arg9) = W8 m ρ c (Proc.devRef .tc main_arg9) :=
  StableHlo.after_of_forall_not_mem (b := Proc.devRef .tc main_arg9) _ _ (List.forall_iff_forall_mem.mp (by none_writes hostOps4))
theorem arg9_10 (c : Dev nD) : W10 m ρ c (Proc.devRef .tc main_arg9) = W9 m ρ c (Proc.devRef .tc main_arg9) :=
  W10_of_ne m ρ c main_arg9 (by decide)
theorem arg9_11 (c : Dev nD) : W11 m ρ c (Proc.devRef .tc main_arg9) = W10 m ρ c (Proc.devRef .tc main_arg9) :=
  StableHlo.after_of_forall_not_mem (b := Proc.devRef .tc main_arg9) _ _ (List.forall_iff_forall_mem.mp (by none_writes hostOps5))
theorem arg9_12 (c : Dev nD) : W12 m ρ c (Proc.devRef .tc main_arg9) = W11 m ρ c (Proc.devRef .tc main_arg9) :=
  W12_of_ne m ρ c main_arg9 (by decide)
theorem arg9_13 (c : Dev nD) : W13 m ρ c (Proc.devRef .tc main_arg9) = W12 m ρ c (Proc.devRef .tc main_arg9) :=
  StableHlo.after_of_forall_not_mem (b := Proc.devRef .tc main_arg9) _ _ (List.forall_iff_forall_mem.mp (by none_writes hostOps6))
theorem arg9_14 (c : Dev nD) : W14 m ρ c (Proc.devRef .tc main_arg9) = W13 m ρ c (Proc.devRef .tc main_arg9) :=
  StableHlo.after_of_forall_not_mem (b := Proc.devRef .tc main_arg9) _ _ (List.forall_iff_forall_mem.mp (by none_writes hostOps6_1))

theorem arg10_1 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by none_writes hostOps0))
theorem arg10_2 (c : Dev nD) : W2 m ρ c (Proc.devRef .tc main_arg10) = W1 m ρ c (Proc.devRef .tc main_arg10) :=
  W2_of_ne m ρ c main_arg10 (by decide)
theorem arg10_3 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by none_writes hostOps1))
theorem arg10_4 (c : Dev nD) : W4 m ρ c (Proc.devRef .tc main_arg10) = W3 m ρ c (Proc.devRef .tc main_arg10) :=
  W4_of_ne m ρ c main_arg10 (by decide)
theorem arg10_5 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by none_writes hostOps2))
theorem arg10_6 (c : Dev nD) : W6 m ρ c (Proc.devRef .tc main_arg10) = W5 m ρ c (Proc.devRef .tc main_arg10) :=
  W6_of_ne m ρ c main_arg10 (by decide)
theorem arg10_7 (c : Dev nD) : W7 m ρ c (Proc.devRef .tc main_arg10) = W6 m ρ c (Proc.devRef .tc main_arg10) :=
  StableHlo.after_of_forall_not_mem (b := Proc.devRef .tc main_arg10) _ _ (List.forall_iff_forall_mem.mp (by none_writes hostOps3))
theorem arg10_8 (c : Dev nD) : W8 m ρ c (Proc.devRef .tc main_arg10) = W7 m ρ c (Proc.devRef .tc main_arg10) :=
  W8_of_ne m ρ c main_arg10 (by decide)
theorem arg10_9 (c : Dev nD) : W9 m ρ c (Proc.devRef .tc main_arg10) = W8 m ρ c (Proc.devRef .tc main_arg10) :=
  StableHlo.after_of_forall_not_mem (b := Proc.devRef .tc main_arg10) _ _ (List.forall_iff_forall_mem.mp (by none_writes hostOps4))
theorem arg10_10 (c : Dev nD) : W10 m ρ c (Proc.devRef .tc main_arg10) = W9 m ρ c (Proc.devRef .tc main_arg10) :=
  W10_of_ne m ρ c main_arg10 (by decide)
theorem arg10_11 (c : Dev nD) : W11 m ρ c (Proc.devRef .tc main_arg10) = W10 m ρ c (Proc.devRef .tc main_arg10) :=
  StableHlo.after_of_forall_not_mem (b := Proc.devRef .tc main_arg10) _ _ (List.forall_iff_forall_mem.mp (by none_writes hostOps5))
theorem arg10_12 (c : Dev nD) : W12 m ρ c (Proc.devRef .tc main_arg10) = W11 m ρ c (Proc.devRef .tc main_arg10) :=
  W12_of_ne m ρ c main_arg10 (by decide)
theorem arg10_13 (c : Dev nD) : W13 m ρ c (Proc.devRef .tc main_arg10) = W12 m ρ c (Proc.devRef .tc main_arg10) :=
  StableHlo.after_of_forall_not_mem (b := Proc.devRef .tc main_arg10) _ _ (List.forall_iff_forall_mem.mp (by none_writes hostOps6))
theorem arg10_14 (c : Dev nD) : W14 m ρ c (Proc.devRef .tc main_arg10) = W13 m ρ c (Proc.devRef .tc main_arg10) :=
  StableHlo.after_of_forall_not_mem (b := Proc.devRef .tc main_arg10) _ _ (List.forall_iff_forall_mem.mp (by none_writes hostOps6_1))

theorem arg12_1 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by none_writes hostOps0))
theorem arg12_2 (c : Dev nD) : W2 m ρ c (Proc.devRef .tc main_arg12) = W1 m ρ c (Proc.devRef .tc main_arg12) :=
  W2_of_ne m ρ c main_arg12 (by decide)
theorem arg12_3 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by none_writes hostOps1))
theorem arg12_4 (c : Dev nD) : W4 m ρ c (Proc.devRef .tc main_arg12) = W3 m ρ c (Proc.devRef .tc main_arg12) :=
  W4_of_ne m ρ c main_arg12 (by decide)
theorem arg12_5 (c : Dev nD) : W5 m ρ c (Proc.devRef .tc main_arg12) = W4 m ρ c (Proc.devRef .tc main_arg12) :=
  StableHlo.after_of_forall_not_mem (b := Proc.devRef .tc main_arg12) _ _ (List.forall_iff_forall_mem.mp (by none_writes hostOps2))
theorem arg12_6 (c : Dev nD) : W6 m ρ c (Proc.devRef .tc main_arg12) = W5 m ρ c (Proc.devRef .tc main_arg12) :=
  W6_of_ne m ρ c main_arg12 (by decide)
theorem arg12_7 (c : Dev nD) : W7 m ρ c (Proc.devRef .tc main_arg12) = W6 m ρ c (Proc.devRef .tc main_arg12) :=
  StableHlo.after_of_forall_not_mem (b := Proc.devRef .tc main_arg12) _ _ (List.forall_iff_forall_mem.mp (by none_writes hostOps3))
theorem arg12_8 (c : Dev nD) : W8 m ρ c (Proc.devRef .tc main_arg12) = W7 m ρ c (Proc.devRef .tc main_arg12) :=
  W8_of_ne m ρ c main_arg12 (by decide)
theorem arg12_9 (c : Dev nD) : W9 m ρ c (Proc.devRef .tc main_arg12) = W8 m ρ c (Proc.devRef .tc main_arg12) :=
  StableHlo.after_of_forall_not_mem (b := Proc.devRef .tc main_arg12) _ _ (List.forall_iff_forall_mem.mp (by none_writes hostOps4))
theorem arg12_10 (c : Dev nD) : W10 m ρ c (Proc.devRef .tc main_arg12) = W9 m ρ c (Proc.devRef .tc main_arg12) :=
  W10_of_ne m ρ c main_arg12 (by decide)
theorem arg12_11 (c : Dev nD) : W11 m ρ c (Proc.devRef .tc main_arg12) = W10 m ρ c (Proc.devRef .tc main_arg12) :=
  StableHlo.after_of_forall_not_mem (b := Proc.devRef .tc main_arg12) _ _ (List.forall_iff_forall_mem.mp (by none_writes hostOps5))
theorem arg12_12 (c : Dev nD) : W12 m ρ c (Proc.devRef .tc main_arg12) = W11 m ρ c (Proc.devRef .tc main_arg12) :=
  W12_of_ne m ρ c main_arg12 (by decide)
theorem arg12_13 (c : Dev nD) : W13 m ρ c (Proc.devRef .tc main_arg12) = W12 m ρ c (Proc.devRef .tc main_arg12) :=
  StableHlo.after_of_forall_not_mem (b := Proc.devRef .tc main_arg12) _ _ (List.forall_iff_forall_mem.mp (by none_writes hostOps6))
theorem arg12_14 (c : Dev nD) : W14 m ρ c (Proc.devRef .tc main_arg12) = W13 m ρ c (Proc.devRef .tc main_arg12) :=
  StableHlo.after_of_forall_not_mem (b := Proc.devRef .tc main_arg12) _ _ (List.forall_iff_forall_mem.mp (by none_writes hostOps6_1))

theorem v3_2 (c : Dev nD) : W2 m ρ c (Proc.devRef .tc main_v3) = W1 m ρ c (Proc.devRef .tc main_v3) :=
  W2_of_ne m ρ c main_v3 (by decide)
theorem v3_3 (c : Dev nD) : W3 m ρ c (Proc.devRef .tc main_v3) = W2 m ρ c (Proc.devRef .tc main_v3) :=
  StableHlo.after_of_forall_not_mem (b := Proc.devRef .tc main_v3) _ _ (List.forall_iff_forall_mem.mp (by none_writes hostOps1))
theorem v3_4 (c : Dev nD) : W4 m ρ c (Proc.devRef .tc main_v3) = W3 m ρ c (Proc.devRef .tc main_v3) :=
  W4_of_ne m ρ c main_v3 (by decide)
theorem v3_5 (c : Dev nD) : W5 m ρ c (Proc.devRef .tc main_v3) = W4 m ρ c (Proc.devRef .tc main_v3) :=
  StableHlo.after_of_forall_not_mem (b := Proc.devRef .tc main_v3) _ _ (List.forall_iff_forall_mem.mp (by none_writes hostOps2))
theorem v3_6 (c : Dev nD) : W6 m ρ c (Proc.devRef .tc main_v3) = W5 m ρ c (Proc.devRef .tc main_v3) :=
  W6_of_ne m ρ c main_v3 (by decide)
theorem v3_7 (c : Dev nD) : W7 m ρ c (Proc.devRef .tc main_v3) = W6 m ρ c (Proc.devRef .tc main_v3) :=
  StableHlo.after_of_forall_not_mem (b := Proc.devRef .tc main_v3) _ _ (List.forall_iff_forall_mem.mp (by none_writes hostOps3))
theorem v3_8 (c : Dev nD) : W8 m ρ c (Proc.devRef .tc main_v3) = W7 m ρ c (Proc.devRef .tc main_v3) :=
  W8_of_ne m ρ c main_v3 (by decide)
theorem v3_9 (c : Dev nD) : W9 m ρ c (Proc.devRef .tc main_v3) = W8 m ρ c (Proc.devRef .tc main_v3) :=
  StableHlo.after_of_forall_not_mem (b := Proc.devRef .tc main_v3) _ _ (List.forall_iff_forall_mem.mp (by none_writes hostOps4))
theorem v3_10 (c : Dev nD) : W10 m ρ c (Proc.devRef .tc main_v3) = W9 m ρ c (Proc.devRef .tc main_v3) :=
  W10_of_ne m ρ c main_v3 (by decide)

theorem v6_2 (c : Dev nD) : W2 m ρ c (Proc.devRef .tc main_v6) = W1 m ρ c (Proc.devRef .tc main_v6) :=
  W2_of_ne m ρ c main_v6 (by decide)
theorem v6_3 (c : Dev nD) : W3 m ρ c (Proc.devRef .tc main_v6) = W2 m ρ c (Proc.devRef .tc main_v6) :=
  StableHlo.after_of_forall_not_mem (b := Proc.devRef .tc main_v6) _ _ (List.forall_iff_forall_mem.mp (by none_writes hostOps1))
theorem v6_4 (c : Dev nD) : W4 m ρ c (Proc.devRef .tc main_v6) = W3 m ρ c (Proc.devRef .tc main_v6) :=
  W4_of_ne m ρ c main_v6 (by decide)
theorem v6_5 (c : Dev nD) : W5 m ρ c (Proc.devRef .tc main_v6) = W4 m ρ c (Proc.devRef .tc main_v6) :=
  StableHlo.after_of_forall_not_mem (b := Proc.devRef .tc main_v6) _ _ (List.forall_iff_forall_mem.mp (by none_writes hostOps2))
theorem v6_6 (c : Dev nD) : W6 m ρ c (Proc.devRef .tc main_v6) = W5 m ρ c (Proc.devRef .tc main_v6) :=
  W6_of_ne m ρ c main_v6 (by decide)
theorem v6_7 (c : Dev nD) : W7 m ρ c (Proc.devRef .tc main_v6) = W6 m ρ c (Proc.devRef .tc main_v6) :=
  StableHlo.after_of_forall_not_mem (b := Proc.devRef .tc main_v6) _ _ (List.forall_iff_forall_mem.mp (by none_writes hostOps3))
theorem v6_8 (c : Dev nD) : W8 m ρ c (Proc.devRef .tc main_v6) = W7 m ρ c (Proc.devRef .tc main_v6) :=
  W8_of_ne m ρ c main_v6 (by decide)
theorem v6_9 (c : Dev nD) : W9 m ρ c (Proc.devRef .tc main_v6) = W8 m ρ c (Proc.devRef .tc main_v6) :=
  StableHlo.after_of_forall_not_mem (b := Proc.devRef .tc main_v6) _ _ (List.forall_iff_forall_mem.mp (by none_writes hostOps4))
theorem v6_10 (c : Dev nD) : W10 m ρ c (Proc.devRef .tc main_v6) = W9 m ρ c (Proc.devRef .tc main_v6) :=
  W10_of_ne m ρ c main_v6 (by decide)

theorem v27_2 (c : Dev nD) : W2 m ρ c (Proc.devRef .tc main_v27) = W1 m ρ c (Proc.devRef .tc main_v27) :=
  W2_of_ne m ρ c main_v27 (by decide)
theorem v27_3 (c : Dev nD) : W3 m ρ c (Proc.devRef .tc main_v27) = W2 m ρ c (Proc.devRef .tc main_v27) :=
  StableHlo.after_of_forall_not_mem (b := Proc.devRef .tc main_v27) _ _ (List.forall_iff_forall_mem.mp (by none_writes hostOps1))
theorem v27_4 (c : Dev nD) : W4 m ρ c (Proc.devRef .tc main_v27) = W3 m ρ c (Proc.devRef .tc main_v27) :=
  W4_of_ne m ρ c main_v27 (by decide)
theorem v27_5 (c : Dev nD) : W5 m ρ c (Proc.devRef .tc main_v27) = W4 m ρ c (Proc.devRef .tc main_v27) :=
  StableHlo.after_of_forall_not_mem (b := Proc.devRef .tc main_v27) _ _ (List.forall_iff_forall_mem.mp (by none_writes hostOps2))
theorem v27_6 (c : Dev nD) : W6 m ρ c (Proc.devRef .tc main_v27) = W5 m ρ c (Proc.devRef .tc main_v27) :=
  W6_of_ne m ρ c main_v27 (by decide)
theorem v27_7 (c : Dev nD) : W7 m ρ c (Proc.devRef .tc main_v27) = W6 m ρ c (Proc.devRef .tc main_v27) :=
  StableHlo.after_of_forall_not_mem (b := Proc.devRef .tc main_v27) _ _ (List.forall_iff_forall_mem.mp (by none_writes hostOps3))
theorem v27_8 (c : Dev nD) : W8 m ρ c (Proc.devRef .tc main_v27) = W7 m ρ c (Proc.devRef .tc main_v27) :=
  W8_of_ne m ρ c main_v27 (by decide)
theorem v27_9 (c : Dev nD) : W9 m ρ c (Proc.devRef .tc main_v27) = W8 m ρ c (Proc.devRef .tc main_v27) :=
  StableHlo.after_of_forall_not_mem (b := Proc.devRef .tc main_v27) _ _ (List.forall_iff_forall_mem.mp (by none_writes hostOps4))
theorem v27_10 (c : Dev nD) : W10 m ρ c (Proc.devRef .tc main_v27) = W9 m ρ c (Proc.devRef .tc main_v27) :=
  W10_of_ne m ρ c main_v27 (by decide)

theorem v67_5 (c : Dev nD) : W5 m ρ c (Proc.devRef .tc main_v67) = W4 m ρ c (Proc.devRef .tc main_v67) :=
  StableHlo.after_of_forall_not_mem (b := Proc.devRef .tc main_v67) _ _ (List.forall_iff_forall_mem.mp (by none_writes hostOps2))

theorem v107_9 (c : Dev nD) : W9 m ρ c (Proc.devRef .tc main_v107) = W8 m ρ c (Proc.devRef .tc main_v107) :=
  StableHlo.after_of_forall_not_mem (b := Proc.devRef .tc main_v107) _ _ (List.forall_iff_forall_mem.mp (by none_writes hostOps4))

theorem v154_14 (c : Dev nD) : W14 m ρ c (Proc.devRef .tc main_v154) = W13 m ρ c (Proc.devRef .tc main_v154) :=
  StableHlo.after_of_forall_not_mem (b := Proc.devRef .tc main_v154) _ _ (List.forall_iff_forall_mem.mp (by none_writes hostOps6_1))

end Cert.Bridge.Keep

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«100148_j72756745994791_1_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.LinLayer.lean ====
/-
  A dense projection read entry by entry.

  Entry (r, c) of a product X · W is the sum over k of X(r, k) · W(k, c): row r of X against column c of W.  The
  kernel computes it block by block on the matrix unit, into a zero accumulator, after a change of float format that
  is the identity on the extended reals; the reference computes the whole product at once.  Both are this sum.
-/
import proofs.«100148_j72756745994791_1_alg».proof.Proof.Gen.KernelIdeal.Skeleton
import proofs.«100148_j72756745994791_1_alg».proof.Proof.LibDense
import Idealize.ShloMosaic.Lib.Pipeline.Value
import Idealize.ShloMosaic.Lib.ValueIdx
import Idealize.ShloMosaic.PureOps.Ideal.Laws

noncomputable section

namespace Cert.Bridge.Lin

open Cert.KernelIdeal Cert.KernelIdeal.Gen
open Idealize.ShloMosaic Idealize.ShloMosaic.ValueIdx
open Cert.Hand.Dense

/-- The product X · W of the node features with a square weight matrix, entry by entry. -/
def prod (X : S100000x128.Idx → EReal) (W : S128x128.Idx → EReal) : S100000x128.Idx → EReal :=
  fun i => lin X (col W (LibMatmul.colOf i)) (LibMatmul.rowOf i)

/-- The first layer's block product at (p, q): row p of the block against column q of the weights. -/
theorem block_entry0 (x0 : Vec Ideal S2000x128 .f32) (x1 : Vec Ideal S128x128 .f32) (p : Fin 2000) (q : Fin 128) :
    k0_pay1 (F := Ideal) x0 x1 (ix2 p q) = lin x0 (col x1 q) p := by
  unfold k0_pay1
  rw [shapeCast_self]
  exact matmul_entry (M := 2000) (K := 128) (N := 128) none (truncf .bf16 x0 bitsLt_bf16_f32) (truncf .bf16 x1 bitsLt_bf16_f32) p q

/-- The second layer's block product at (p, q). -/
theorem block_entry2 (x0 : Vec Ideal S2000x128 .f32) (x1 : Vec Ideal S128x128 .f32) (p : Fin 2000) (q : Fin 128) :
    k2_pay1 (F := Ideal) x0 x1 (ix2 p q) = lin x0 (col x1 q) p := by
  unfold k2_pay1
  rw [shapeCast_self, shapeCast_self]
  exact matmul_entry (M := 2000) (K := 128) (N := 128) none (truncf .bf16 x0 bitsLt_bf16_f32) (truncf .bf16 x1 bitsLt_bf16_f32) p q

/-- The third layer's block product at (p, q). -/
theorem block_entry4 (x0 : Vec Ideal S2000x128 .f32) (x1 : Vec Ideal S128x128 .f32) (p : Fin 2000) (q : Fin 128) :
    k4_pay1 (F := Ideal) x0 x1 (ix2 p q) = lin x0 (col x1 q) p := by
  unfold k4_pay1
  rw [shapeCast_self, shapeCast_self]
  exact matmul_entry (M := 2000) (K := 128) (N := 128) none (truncf .bf16 x0 bitsLt_bf16_f32) (truncf .bf16 x1 bitsLt_bf16_f32) p q

/-- The whole product computed at once is the same function of its operands. -/
theorem dot_eq_prod (d : DotDims S100000x128 S128x128 S100000x128) (hd : d = DotDims.plain 100000 128 128)
    (X : FVec Ideal S100000x128 .f32) (W : FVec Ideal S128x128 .f32) :
    Host.dotGeneral d none X W = prod X W := by
  subst hd
  funext i
  obtain ⟨r, c, rfl⟩ : ∃ (r : Fin 100000) (c : Fin 128), i = ix2 r c := ⟨i 0, i 1, eq_ix2 i⟩
  exact dot_entry (M := 100000) (K := 128) (N := 128) none .single X W r c

end Cert.Bridge.Lin

end
-- ==== Proof.LinTile0.lean ====
/-
  Layer 1's projection, tiled over the rows: fifty blocks of 2000 rows, each block of the result the matching
  block of the features times the whole weight matrix.  A block's entry (p, q) sits at row 2000 t + p and column q of
  the array, and reads row 2000 t + p of the features, so the blocks written back side by side are the whole product.
-/
import proofs.«100148_j72756745994791_1_alg».proof.Proof.Gen.KernelIdeal.Frame
import proofs.«100148_j72756745994791_1_alg».proof.Proof.LinLayer

set_option maxRecDepth 16384

noncomputable section

namespace Cert.Bridge.Lin0

open Cert.KernelIdeal Cert.KernelIdeal.Gen
open Idealize.ShloMosaic Idealize.ShloMosaic.TcCoe Idealize.ShloMosaic.ValueIdx Idealize.SL.Sem
open Cert.Hand.Dense Cert.Bridge.Lin

theorem origin : (![0, 0] : Fin 2 → Nat) = fun _ => 0 := funext fun a => by fin_cases a <;> rfl

/-- Where each window's block sits at grid point t: the features and the result at block row t, the weights whole. -/
theorem block_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the whole product. -/
theorem written (c : Dev nD) (t : Fin cfg0.N) :
    (dat0 V c).flushed 2 t = ((cfg0.win 2).blk t).view.read (Elt Ideal) (prod (V c main_arg0) (V c main_v29)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := block_rows t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = prod (V c main_arg0) (V c main_v29) (((cfg0.win 2).blk t).view.emb (ix2 p q))
  refine (block_entry0 _ _ p q).trans ?_
  unfold prod lin
  refine Finset.sum_congr rfl fun k _ => ?_
  refine congrArg₂ (· * ·) ?_ ?_
  · show V c main_arg0 (((cfg0.win 0).blk t).view.emb (ix2 p k))
      = V c main_arg0 (ix2 (LibMatmul.rowOf (((cfg0.win 2).blk t).view.emb (ix2 p q))) k)
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_v29 (((cfg0.win 1).blk t).view.emb (ix2 k q))
      = V c main_v29 (ix2 k (LibMatmul.colOf (((cfg0.win 2).blk t).view.emb (ix2 p q))))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the array is in point t's block iff each coordinate is in the block's range on its axis. -/
theorem in_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every block row is some grid point's. -/
theorem every_row : ∀ q0 : Fin 50, ∃ t : Fin cfg0.N, win0_2.index t = ![q0.val, 0] :=
  (by decide +kernel : ∀ q0 : Fin 50, ∃ t : Fin grid0.N, win0_2.index t = ![q0.val, 0])

/-- Row r of the array lies in block r / 2000: the blocks tile the array. -/
theorem tiled (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := every_row ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the result array holds the whole product of the arrays the region found. -/
theorem whole (c : Dev nD) : (dat0 V c).arrAt 2 cfg0.N = prod (V c main_arg0) (V c main_v29) :=
  (dat0 V c).arrAt_eq_of_cover 2 _ (fun t _ => written V c t) tiled

end Cert.Bridge.Lin0

end
-- ==== Proof.StageA.lean ====
/-
  The first stretch of host operations and the first projection.

  Both programs begin alike: the edge list with a self loop appended to every node, the degree of every node, the
  symmetric edge weights 1/sqrt(deg(src) · deg(dst)), and the first layer's weight matrix cut out of the stack.
  The kernel program's buffers after these operations hold the same terms the reference computes.  The first
  projection, tiled over the rows by the kernel, is the reference's product of the node features with that matrix.
-/
import proofs.«100148_j72756745994791_1_alg».proof.Proof.Gen.KernelIdeal.Frame
import proofs.«100148_j72756745994791_1_alg».proof.Proof.RefRead
import proofs.«100148_j72756745994791_1_alg».proof.Proof.Keep
import proofs.«100148_j72756745994791_1_alg».proof.Proof.LinLayer
import proofs.«100148_j72756745994791_1_alg».proof.Proof.LinTile0
import Idealize.ShloMosaic.Lib.StableHlo.Run

set_option maxRecDepth 16384

noncomputable section

namespace Cert.Bridge.Stage

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- The edge sources with the self loops appended. -/
theorem w1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
/-- The edge destinations with the self loops appended. -/
theorem w1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp <;> rfl
/-- The symmetric edge weights, as a one-column matrix. -/
theorem w1_v27 (c : Dev nD) : W1 m ρ c (Proc.devRef .tc main_v27) = val_main_v27 (F := Ideal) (m ((c : Thread nD τ).loc main_arg1)) := by
  show StableHlo.after hostOps0 (W0 m ρ c) (Proc.devRef .tc main_v27) = _
  after_results_simp <;> rfl
/-- The first layer's weight matrix. -/
theorem w1_v29 (c : Dev nD) : W1 m ρ c (Proc.devRef .tc main_v29) = val_main_v29 (F := Ideal) (m ((c : Thread nD τ).loc main_arg3)) := by
  show StableHlo.after hostOps0 (W0 m ρ c) (Proc.devRef .tc main_v29) = _
  after_results_simp <;> rfl
/-- The node features are untouched by the first stretch. -/
theorem w1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

/-- The first projection: the node features times the first weight matrix. -/
theorem w2_v30 (c : Dev nD) : W2 m ρ c (Proc.devRef .tc main_v30) = val_main_v30 (F := Ideal) (m ((c : Thread nD τ).loc main_arg0)) (m ((c : Thread nD τ).loc main_arg3)) := by
  refine (W2_arr m ρ c 2).trans ?_
  rw [Lin0.whole (V1 m ρ) c]
  show Lin.prod (W1 m ρ c (Proc.devRef .tc main_arg0)) (W1 m ρ c (Proc.devRef .tc main_v29)) = _
  rw [w1_arg0, w1_v29]
  exact (Lin.dot_eq_prod Cert.ReferenceIdeal.dot_S100000x128_S128x128_S100000x128_1_0_0_1_n_n rfl _ _).symm

theorem v3_at2 (c : Dev nD) : W2 m ρ c (Proc.devRef .tc main_v3) = val_main_v3 (F := Ideal) (m ((c : Thread nD τ).loc main_arg1)) :=
  (Keep.v3_2 m ρ c).trans (w1_v3 m ρ c)
theorem v6_at2 (c : Dev nD) : W2 m ρ c (Proc.devRef .tc main_v6) = val_main_v6 (F := Ideal) (m ((c : Thread nD τ).loc main_arg1)) :=
  (Keep.v6_2 m ρ c).trans (w1_v6 m ρ c)
theorem v27_at2 (c : Dev nD) : W2 m ρ c (Proc.devRef .tc main_v27) = val_main_v27 (F := Ideal) (m ((c : Thread nD τ).loc main_arg1)) :=
  (Keep.v27_2 m ρ c).trans (w1_v27 m ρ c)
theorem v3_at6 (c : Dev nD) : W6 m ρ c (Proc.devRef .tc main_v3) = val_main_v3 (F := Ideal) (m ((c : Thread nD τ).loc main_arg1)) :=
  (Keep.v3_6 m ρ c).trans ((Keep.v3_5 m ρ c).trans ((Keep.v3_4 m ρ c).trans ((Keep.v3_3 m ρ c).trans ((Keep.v3_2 m ρ c).trans (w1_v3 m ρ c)))))
theorem v6_at6 (c : Dev nD) : W6 m ρ c (Proc.devRef .tc main_v6) = val_main_v6 (F := Ideal) (m ((c : Thread nD τ).loc main_arg1)) :=
  (Keep.v6_6 m ρ c).trans ((Keep.v6_5 m ρ c).trans ((Keep.v6_4 m ρ c).trans ((Keep.v6_3 m ρ c).trans ((Keep.v6_2 m ρ c).trans (w1_v6 m ρ c)))))
theorem v27_at6 (c : Dev nD) : W6 m ρ c (Proc.devRef .tc main_v27) = val_main_v27 (F := Ideal) (m ((c : Thread nD τ).loc main_arg1)) :=
  (Keep.v27_6 m ρ c).trans ((Keep.v27_5 m ρ c).trans ((Keep.v27_4 m ρ c).trans ((Keep.v27_3 m ρ c).trans ((Keep.v27_2 m ρ c).trans (w1_v27 m ρ c)))))
theorem v3_at10 (c : Dev nD) : W10 m ρ c (Proc.devRef .tc main_v3) = val_main_v3 (F := Ideal) (m ((c : Thread nD τ).loc main_arg1)) :=
  (Keep.v3_10 m ρ c).trans ((Keep.v3_9 m ρ c).trans ((Keep.v3_8 m ρ c).trans ((Keep.v3_7 m ρ c).trans ((Keep.v3_6 m ρ c).trans ((Keep.v3_5 m ρ c).trans ((Keep.v3_4 m ρ c).trans ((Keep.v3_3 m ρ c).trans ((Keep.v3_2 m ρ c).trans (w1_v3 m ρ c)))))))))
theorem v6_at10 (c : Dev nD) : W10 m ρ c (Proc.devRef .tc main_v6) = val_main_v6 (F := Ideal) (m ((c : Thread nD τ).loc main_arg1)) :=
  (Keep.v6_10 m ρ c).trans ((Keep.v6_9 m ρ c).trans ((Keep.v6_8 m ρ c).trans ((Keep.v6_7 m ρ c).trans ((Keep.v6_6 m ρ c).trans ((Keep.v6_5 m ρ c).trans ((Keep.v6_4 m ρ c).trans ((Keep.v6_3 m ρ c).trans ((Keep.v6_2 m ρ c).trans (w1_v6 m ρ c)))))))))
theorem v27_at10 (c : Dev nD) : W10 m ρ c (Proc.devRef .tc main_v27) = val_main_v27 (F := Ideal) (m ((c : Thread nD τ).loc main_arg1)) :=
  (Keep.v27_10 m ρ c).trans ((Keep.v27_9 m ρ c).trans ((Keep.v27_8 m ρ c).trans ((Keep.v27_7 m ρ c).trans ((Keep.v27_6 m ρ c).trans ((Keep.v27_5 m ρ c).trans ((Keep.v27_4 m ρ c).trans ((Keep.v27_3 m ρ c).trans ((Keep.v27_2 m ρ c).trans (w1_v27 m ρ c)))))))))
theorem arg4_at2 (c : Dev nD) : W2 m ρ c (Proc.devRef .tc main_arg4) = (m ((c : Thread nD τ).loc main_arg4)) :=
  (Keep.arg4_2 m ρ c).trans ((Keep.arg4_1 m ρ c).trans (rfl))
theorem arg5_at2 (c : Dev nD) : W2 m ρ c (Proc.devRef .tc main_arg5) = (m ((c : Thread nD τ).loc main_arg5)) :=
  (Keep.arg5_2 m ρ c).trans ((Keep.arg5_1 m ρ c).trans (rfl))
theorem arg6_at2 (c : Dev nD) : W2 m ρ c (Proc.devRef .tc main_arg6) = (m ((c : Thread nD τ).loc main_arg6)) :=
  (Keep.arg6_2 m ρ c).trans ((Keep.arg6_1 m ρ c).trans (rfl))
theorem arg4_at6 (c : Dev nD) : W6 m ρ c (Proc.devRef .tc main_arg4) = (m ((c : Thread nD τ).loc main_arg4)) :=
  (Keep.arg4_6 m ρ c).trans ((Keep.arg4_5 m ρ c).trans ((Keep.arg4_4 m ρ c).trans ((Keep.arg4_3 m ρ c).trans ((Keep.arg4_2 m ρ c).trans ((Keep.arg4_1 m ρ c).trans (rfl))))))
theorem arg5_at6 (c : Dev nD) : W6 m ρ c (Proc.devRef .tc main_arg5) = (m ((c : Thread nD τ).loc main_arg5)) :=
  (Keep.arg5_6 m ρ c).trans ((Keep.arg5_5 m ρ c).trans ((Keep.arg5_4 m ρ c).trans ((Keep.arg5_3 m ρ c).trans ((Keep.arg5_2 m ρ c).trans ((Keep.arg5_1 m ρ c).trans (rfl))))))
theorem arg6_at6 (c : Dev nD) : W6 m ρ c (Proc.devRef .tc main_arg6) = (m ((c : Thread nD τ).loc main_arg6)) :=
  (Keep.arg6_6 m ρ c).trans ((Keep.arg6_5 m ρ c).trans ((Keep.arg6_4 m ρ c).trans ((Keep.arg6_3 m ρ c).trans ((Keep.arg6_2 m ρ c).trans ((Keep.arg6_1 m ρ c).trans (rfl))))))
theorem arg4_at10 (c : Dev nD) : W10 m ρ c (Proc.devRef .tc main_arg4) = (m ((c : Thread nD τ).loc main_arg4)) :=
  (Keep.arg4_10 m ρ c).trans ((Keep.arg4_9 m ρ c).trans ((Keep.arg4_8 m ρ c).trans ((Keep.arg4_7 m ρ c).trans ((Keep.arg4_6 m ρ c).trans ((Keep.arg4_5 m ρ c).trans ((Keep.arg4_4 m ρ c).trans ((Keep.arg4_3 m ρ c).trans ((Keep.arg4_2 m ρ c).trans ((Keep.arg4_1 m ρ c).trans (rfl))))))))))
theorem arg5_at10 (c : Dev nD) : W10 m ρ c (Proc.devRef .tc main_arg5) = (m ((c : Thread nD τ).loc main_arg5)) :=
  (Keep.arg5_10 m ρ c).trans ((Keep.arg5_9 m ρ c).trans ((Keep.arg5_8 m ρ c).trans ((Keep.arg5_7 m ρ c).trans ((Keep.arg5_6 m ρ c).trans ((Keep.arg5_5 m ρ c).trans ((Keep.arg5_4 m ρ c).trans ((Keep.arg5_3 m ρ c).trans ((Keep.arg5_2 m ρ c).trans ((Keep.arg5_1 m ρ c).trans (rfl))))))))))
theorem arg6_at10 (c : Dev nD) : W10 m ρ c (Proc.devRef .tc main_arg6) = (m ((c : Thread nD τ).loc main_arg6)) :=
  (Keep.arg6_10 m ρ c).trans ((Keep.arg6_9 m ρ c).trans ((Keep.arg6_8 m ρ c).trans ((Keep.arg6_7 m ρ c).trans ((Keep.arg6_6 m ρ c).trans ((Keep.arg6_5 m ρ c).trans ((Keep.arg6_4 m ρ c).trans ((Keep.arg6_3 m ρ c).trans ((Keep.arg6_2 m ρ c).trans ((Keep.arg6_1 m ρ c).trans (rfl))))))))))
theorem arg3_at4 (c : Dev nD) : W4 m ρ c (Proc.devRef .tc main_arg3) = (m ((c : Thread nD τ).loc main_arg3)) :=
  (Keep.arg3_4 m ρ c).trans ((Keep.arg3_3 m ρ c).trans ((Keep.arg3_2 m ρ c).trans ((Keep.arg3_1 m ρ c).trans (rfl))))
theorem arg3_at8 (c : Dev nD) : W8 m ρ c (Proc.devRef .tc main_arg3) = (m ((c : Thread nD τ).loc main_arg3)) :=
  (Keep.arg3_8 m ρ c).trans ((Keep.arg3_7 m ρ c).trans ((Keep.arg3_6 m ρ c).trans ((Keep.arg3_5 m ρ c).trans ((Keep.arg3_4 m ρ c).trans ((Keep.arg3_3 m ρ c).trans ((Keep.arg3_2 m ρ c).trans ((Keep.arg3_1 m ρ c).trans (rfl))))))))
theorem arg2_at12 (c : Dev nD) : W12 m ρ c (Proc.devRef .tc main_arg2) = (m ((c : Thread nD τ).loc main_arg2)) :=
  (Keep.arg2_12 m ρ c).trans ((Keep.arg2_11 m ρ c).trans ((Keep.arg2_10 m ρ c).trans ((Keep.arg2_9 m ρ c).trans ((Keep.arg2_8 m ρ c).trans ((Keep.arg2_7 m ρ c).trans ((Keep.arg2_6 m ρ c).trans ((Keep.arg2_5 m ρ c).trans ((Keep.arg2_4 m ρ c).trans ((Keep.arg2_3 m ρ c).trans ((Keep.arg2_2 m ρ c).trans ((Keep.arg2_1 m ρ c).trans (rfl))))))))))))
theorem arg8_at14 (c : Dev nD) : W14 m ρ c (Proc.devRef .tc main_arg8) = (m ((c : Thread nD τ).loc main_arg8)) :=
  (Keep.arg8_14 m ρ c).trans ((Keep.arg8_13 m ρ c).trans ((Keep.arg8_12 m ρ c).trans ((Keep.arg8_11 m ρ c).trans ((Keep.arg8_10 m ρ c).trans ((Keep.arg8_9 m ρ c).trans ((Keep.arg8_8 m ρ c).trans ((Keep.arg8_7 m ρ c).trans ((Keep.arg8_6 m ρ c).trans ((Keep.arg8_5 m ρ c).trans ((Keep.arg8_4 m ρ c).trans ((Keep.arg8_3 m ρ c).trans ((Keep.arg8_2 m ρ c).trans ((Keep.arg8_1 m ρ c).trans (rfl))))))))))))))
theorem arg9_at14 (c : Dev nD) : W14 m ρ c (Proc.devRef .tc main_arg9) = (m ((c : Thread nD τ).loc main_arg9)) :=
  (Keep.arg9_14 m ρ c).trans ((Keep.arg9_13 m ρ c).trans ((Keep.arg9_12 m ρ c).trans ((Keep.arg9_11 m ρ c).trans ((Keep.arg9_10 m ρ c).trans ((Keep.arg9_9 m ρ c).trans ((Keep.arg9_8 m ρ c).trans ((Keep.arg9_7 m ρ c).trans ((Keep.arg9_6 m ρ c).trans ((Keep.arg9_5 m ρ c).trans ((Keep.arg9_4 m ρ c).trans ((Keep.arg9_3 m ρ c).trans ((Keep.arg9_2 m ρ c).trans ((Keep.arg9_1 m ρ c).trans (rfl))))))))))))))
theorem arg10_at14 (c : Dev nD) : W14 m ρ c (Proc.devRef .tc main_arg10) = (m ((c : Thread nD τ).loc main_arg10)) :=
  (Keep.arg10_14 m ρ c).trans ((Keep.arg10_13 m ρ c).trans ((Keep.arg10_12 m ρ c).trans ((Keep.arg10_11 m ρ c).trans ((Keep.arg10_10 m ρ c).trans ((Keep.arg10_9 m ρ c).trans ((Keep.arg10_8 m ρ c).trans ((Keep.arg10_7 m ρ c).trans ((Keep.arg10_6 m ρ c).trans ((Keep.arg10_5 m ρ c).trans ((Keep.arg10_4 m ρ c).trans ((Keep.arg10_3 m ρ c).trans ((Keep.arg10_2 m ρ c).trans ((Keep.arg10_1 m ρ c).trans (rfl))))))))))))))
theorem arg12_at14 (c : Dev nD) : W14 m ρ c (Proc.devRef .tc main_arg12) = (m ((c : Thread nD τ).loc main_arg12)) :=
  (Keep.arg12_14 m ρ c).trans ((Keep.arg12_13 m ρ c).trans ((Keep.arg12_12 m ρ c).trans ((Keep.arg12_11 m ρ c).trans ((Keep.arg12_10 m ρ c).trans ((Keep.arg12_9 m ρ c).trans ((Keep.arg12_8 m ρ c).trans ((Keep.arg12_7 m ρ c).trans ((Keep.arg12_6 m ρ c).trans ((Keep.arg12_5 m ρ c).trans ((Keep.arg12_4 m ρ c).trans ((Keep.arg12_3 m ρ c).trans ((Keep.arg12_2 m ρ c).trans ((Keep.arg12_1 m ρ c).trans (rfl))))))))))))))
theorem arg7_at15 (c : Dev nD) : W15 m ρ c (Proc.devRef .tc main_arg7) = (m ((c : Thread nD τ).loc main_arg7)) :=
  (Keep.arg7_15 m ρ c).trans ((Keep.arg7_14 m ρ c).trans ((Keep.arg7_13 m ρ c).trans ((Keep.arg7_12 m ρ c).trans ((Keep.arg7_11 m ρ c).trans ((Keep.arg7_10 m ρ c).trans ((Keep.arg7_9 m ρ c).trans ((Keep.arg7_8 m ρ c).trans ((Keep.arg7_7 m ρ c).trans ((Keep.arg7_6 m ρ c).trans ((Keep.arg7_5 m ρ c).trans ((Keep.arg7_4 m ρ c).trans ((Keep.arg7_3 m ρ c).trans ((Keep.arg7_2 m ρ c).trans ((Keep.arg7_1 m ρ c).trans (rfl)))))))))))))))
theorem arg11_at15 (c : Dev nD) : W15 m ρ c (Proc.devRef .tc main_arg11) = (m ((c : Thread nD τ).loc main_arg11)) :=
  (Keep.arg11_15 m ρ c).trans ((Keep.arg11_14 m ρ c).trans ((Keep.arg11_13 m ρ c).trans ((Keep.arg11_12 m ρ c).trans ((Keep.arg11_11 m ρ c).trans ((Keep.arg11_10 m ρ c).trans ((Keep.arg11_9 m ρ c).trans ((Keep.arg11_8 m ρ c).trans ((Keep.arg11_7 m ρ c).trans ((Keep.arg11_6 m ρ c).trans ((Keep.arg11_5 m ρ c).trans ((Keep.arg11_4 m ρ c).trans ((Keep.arg11_3 m ρ c).trans ((Keep.arg11_2 m ρ c).trans ((Keep.arg11_1 m ρ c).trans (rfl)))))))))))))))

end Cert.Bridge.Stage

end
-- ==== Proof.LibERealShift.lean ====
/-
  Shifting by a finite constant on the extended reals.

  On `EReal` addition is total (`⊥ + x = ⊥` for every `x`, so `⊤ + ⊥ = ⊥`) and subtraction is `a + -m`: the usual
  cancellation laws fail at the infinities in general. Two of them survive whenever the shift is a REAL number:
  a common real shift cancels in a difference, and the mean of shifted terms is the shifted mean. Together
  they say that centring a family (subtracting its mean) forgets a real shift of the family.
-/
import Mathlib.Data.EReal.Inv
import Mathlib.Algebra.BigOperators.Group.Finset.Basic
import Mathlib.Tactic

namespace ERealShift

open scoped BigOperators

/-- A common real shift cancels in a difference, at the infinities too: `(a + b) - (m + b) = a - m` for all extended
    reals `a`, `m` and every real `b`. By cases: if `a = ⊥` both sides are `⊥`; if `a = ⊤` both sides are `⊤ - m`
    with `m` and `m + b` infinite together; if `a` is real and `m` infinite both sides are `∓∞`; on reals it is
    arithmetic. (A shift by `⊤` would not cancel: `(0 + ⊤) - (0 + ⊤) = ⊥`, not `0`.) -/
theorem add_coe_sub_add_coe (a m : EReal) (b : ℝ) : (a + (b : EReal)) - (m + (b : EReal)) = a - m := by
  induction a using EReal.rec with
  | bot => rw [EReal.bot_add, EReal.bot_sub, EReal.bot_sub]
  | top =>
    induction m using EReal.rec with
    | bot => rw [EReal.bot_add, EReal.top_add_coe]
    | top => rw [EReal.top_add_coe]
    | coe m => rw [EReal.top_add_coe, ← EReal.coe_add, EReal.top_sub_coe, EReal.top_sub_coe]
  | coe a =>
    induction m using EReal.rec with
    | bot => rw [EReal.bot_add, ← EReal.coe_add, EReal.coe_sub_bot, EReal.coe_sub_bot]
    | top => rw [EReal.top_add_coe, EReal.sub_top, EReal.sub_top]
    | coe m => rw [← EReal.coe_add, ← EReal.coe_add, ← EReal.coe_sub, ← EReal.coe_sub]; congr 1; ring

/-- The mean of shifted terms is the shifted mean: for a finite family `a` of extended reals, a real shift `b`, and
    the positive real `c` that is the reciprocal of the family's size, `(∑ i, (a i + b)) * c = (∑ i, a i) * c + b`.
    The sum splits as `∑ a + n • b` (addition on `EReal` is a commutative monoid); if `∑ a` is `⊥` or `⊤` both sides are
    that infinity (the real terms and the positive factor do not move it); if it is real, it is arithmetic with `n * c = 1`. -/
theorem sum_add_coe_mul {ι : Type*} [Fintype ι] (a : ι → EReal) (b c : ℝ) (hc : 0 < c)
    (hN : (Fintype.card ι : ℝ) * c = 1) :
    (∑ i, (a i + (b : EReal))) * (c : EReal) = (∑ i, a i) * (c : EReal) + (b : EReal) := by
  have h : (Fintype.card ι) • (b : EReal) = (((Fintype.card ι : ℝ) * b : ℝ) : EReal) := by
    rw [← EReal.coe_nsmul, nsmul_eq_mul]
  rw [Finset.sum_add_distrib, Finset.sum_const, Finset.card_univ, h]
  generalize (∑ i, a i) = s
  induction s using EReal.rec with
  | bot => rw [EReal.bot_add, EReal.bot_mul_coe_of_pos hc, EReal.bot_add]
  | top => rw [EReal.top_add_coe, EReal.top_mul_coe_of_pos hc, EReal.top_add_coe]
  | coe s =>
    rw [← EReal.coe_add, ← EReal.coe_mul, ← EReal.coe_mul, ← EReal.coe_add]
    congr 1
    linear_combination b * hN

/-- Centring forgets a real shift: a shifted value minus the mean of the shifted family is the value minus the mean of
    the family. -/
theorem add_coe_sub_mean_add_coe {ι : Type*} [Fintype ι] (a : ι → EReal) (b c : ℝ) (hc : 0 < c)
    (hN : (Fintype.card ι : ℝ) * c = 1) (x : EReal) :
    (x + (b : EReal)) - (∑ j, (a j + (b : EReal))) * (c : EReal) = x - (∑ j, a j) * (c : EReal) := by
  rw [sum_add_coe_mul a b c hc hN, add_coe_sub_add_coe]

end ERealShift
-- ==== Proof.BnLayer.lean ====
/-
  One batch-norm + ReLU layer: the reference's host operations against the kernel's split of the work
  (column statistics of the un-biased array on the host, the normalisation in the kernel body).

  For an array `A` (100000 rows, 128 features), a bias `b`, scale `g` and offset `be` per feature, the reference
  forms `H = A + b`, the column mean `μ = (∑ₖ H k) / n`, the biased variance `σ² = (∑ₖ (H k - μ)²) / n` and returns
  `max ((H - μ) * rsqrt (σ² + ε) * g + be) 0`. The kernel computes the mean `m` and the variance `v` of `A` itself, hands
  the body the row `m + b`, and the body returns `max (((A + b) - (m + b)) * rsqrt (v + ε) * g + be) 0`.
  When every entry of `b` is a real number the two agree on the extended reals: `μ = m + b` (the mean of shifted terms
  is the shifted mean), so `H - μ = A - m = (A + b) - (m + b)` (a common real shift cancels in a difference), hence
  also `σ² = v`.
-/
import proofs.«100148_j72756745994791_1_alg».proof.Proof.Gen.KernelIdeal.Skeleton
import proofs.«100148_j72756745994791_1_alg».proof.Proof.Gen.ReferenceIdeal
import proofs.«100148_j72756745994791_1_alg».proof.Proof.LibERealShift
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Bridge.Bn

open Idealize.ShloMosaic Idealize.ShloMosaic.ValueIdx
open scoped BigOperators

variable {F : FTy → Type} [FloatOps F]

/-! ## The reference's layer, as a function of its four arrays -/

section Reference
open Cert.ReferenceIdeal Cert.ReferenceIdeal.Gen

/-- A per-feature vector repeated down the rows (the reference's two `broadcast_in_dim`s: `[128] → [1,128] → [n,128]`). -/
def refRows (v : FVec F S128 .f32) : FVec F S100000x128 .f32 :=
  broadcastInDim S100000x128 ![0, 1] bcast_S1x128_S100000x128_0_1 (broadcastInDim S1x128 ![1] bcast_S128_S1x128_1 v)

/-- The column mean as the host computes it: the sum down the rows from zero, divided by the literal `1.0e5`. -/
def refColMean (X : FVec F S100000x128 .f32) : FVec F S128 .f32 :=
  Host.divf (Host.reduceAdd X (constant S_ .f32 0x00000000#32) reducesTo_S100000x128_S128_d0 h_S_)
    (broadcastInDim S128 ![] bcast_S_S128 (constant S_ .f32 0x47C35000#32))

/-- `H = A + b`. -/
def refBiased (A : FVec F S100000x128 .f32) (b : FVec F S128 .f32) : FVec F S100000x128 .f32 :=
  addf A (refRows b)

/-- `H - μ`, `μ` the column mean of `H`. -/
def refCentred (A : FVec F S100000x128 .f32) (b : FVec F S128 .f32) : FVec F S100000x128 .f32 :=
  subf (refBiased A b) (refRows (refColMean (refBiased A b)))

/-- `σ²`: the column mean of `(H - μ)²`. -/
def refVar (A : FVec F S100000x128 .f32) (b : FVec F S128 .f32) : FVec F S128 .f32 :=
  refColMean (mulf (refCentred A b) (refCentred A b))

/-- The reference's batch norm + ReLU of `A` with bias `b`, scale `g`, offset `be`:
    `max ((H - μ) * rsqrt (σ² + ε) * g + be) 0`, `ε` the literal `0x3727C5AC`. -/
def bnRef (A : FVec F S100000x128 .f32) (b g be : FVec F S128 .f32) : FVec F S100000x128 .f32 :=
  maximumf
    (addf
      (mulf
        (mulf (refCentred A b)
          (refRows (Host.rsqrt (addf (refVar A b) (broadcastInDim S128 ![] bcast_S_S128 (constant S_ .f32 0x3727C5AC#32))))))
        (refRows g))
      (refRows be))
    (broadcastInDim S100000x128 ![] bcast_S_S100000x128 (constant S_ .f32 0x00000000#32))

end Reference

/-! ## The kernel program's host statistics and its body at one element -/

section Kernel
open Cert.KernelIdeal Cert.KernelIdeal.Gen

/-- The kernel program's column mean of `A` (no bias): the sum down the rows from zero, divided by the literal `1.0e5`. -/
def kMean (A : FVec F S100000x128 .f32) : FVec F S128 .f32 :=
  Host.divf (Host.reduceAdd A (constant S_ .f32 0x00000000#32) reducesTo_S100000x128_S128_d0 h_S_)
    (broadcastInDim S128 ![] bcast_S_S128 (constant S_ .f32 0x47C35000#32))

/-- `A - m`, `m` the column mean of `A`. -/
def kCentred (A : FVec F S100000x128 .f32) : FVec F S100000x128 .f32 :=
  subf A (broadcastInDim S100000x128 ![0, 1] bcast_S1x128_S100000x128_0_1 (broadcastInDim S1x128 ![1] bcast_S128_S1x128_1 (kMean A)))

/-- The kernel program's column variance of `A`: the column mean of `(A - m)²`. -/
def kVar (A : FVec F S100000x128 .f32) : FVec F S128 .f32 :=
  Host.divf (Host.reduceAdd (mulf (kCentred A) (kCentred A)) (constant S_ .f32 0x00000000#32) reducesTo_S100000x128_S128_d0 h_S_)
    (broadcastInDim S128 ![] bcast_S_S128 (constant S_ .f32 0x47C35000#32))

/-- The mean row the body receives: `m + b`. -/
def kMeanH (A : FVec F S100000x128 .f32) (b : FVec F S128 .f32) : FVec F S128 .f32 :=
  addf (kMean A) b

end Kernel

/-- The body's arithmetic on one element `a` with its feature's bias, variance, mean, scale and offset:
    `max (((a + b) - m) * rsqrt (v + ε) * g + be) 0`, the two literals kept as bit patterns. -/
def bnPt (a rb rv rm rg rbe : EReal) : EReal :=
  max ((((a + rb) - rm) * Ideal.rsqrt (rv + Ideal.ofBits .f32 0x3727C5AC#32)) * rg + rbe) (Ideal.ofBits .f32 0x00000000#32)

/-- The batch-norm body at row `p`, feature `q` of a block is `bnPt` of the block's element and the five rows at `q`. -/
theorem bn_payload (x0 : Vec Ideal Cert.KernelIdeal.S2000x128 .f32) (rb rv rm rg rbe : Vec Ideal Cert.KernelIdeal.S1x128 .f32)
    (p : Fin 2000) (q : Fin 128) :
    Cert.KernelIdeal.Gen.k1_pay1 (F := Ideal) x0 rb rv rm rg rbe (ix2 p q)
      = bnPt (x0 (ix2 p q)) (rb (ix2 (0 : Fin 1) q)) (rv (ix2 (0 : Fin 1) q)) (rm (ix2 (0 : Fin 1) q))
          (rg (ix2 (0 : Fin 1) q)) (rbe (ix2 (0 : Fin 1) q)) := by
  unfold Cert.KernelIdeal.Gen.k1_pay1
  simp only [shapeCast_self, maximumf_apply, addf_apply, mulf_apply, subf_apply, broadcastTo_1b_ab_apply, broadcast_apply]
  rfl

/-- The second and third layers run the same body. -/
theorem pay3_eq : @Cert.KernelIdeal.Gen.k3_pay1 = @Cert.KernelIdeal.Gen.k1_pay1 := rfl
theorem pay5_eq : @Cert.KernelIdeal.Gen.k5_pay1 = @Cert.KernelIdeal.Gen.k1_pay1 := rfl

/-! ## Reading the layout operations and the column mean at an index -/

/-- The literal `0x47C35000` is the real number `100000`, the row count. -/
theorem ofBits_rowCount : Ideal.ofBits .f32 0x47C35000#32 = ((100000 : ℝ) : EReal) := by
  simp [Ideal.ofBits, Ideal.ieee, -EReal.coe_mul]; norm_num

/-- A per-feature vector repeated down the rows (`[128] → [1,128] → [100000,128]`) reads, at `(p, q)`, the vector at `q`. -/
theorem rows_apply {α : Type} (h1 : (⟨1, ![128]⟩ : Shape).BroadcastsInDim ⟨2, ![1, 128]⟩ ![1])
    (h2 : (⟨2, ![1, 128]⟩ : Shape).BroadcastsInDim ⟨2, ![100000, 128]⟩ ![0, 1]) (v : (⟨1, ![128]⟩ : Shape).Idx → α)
    (p : Fin 100000) (q : Fin 128) :
    broadcastInDim ⟨2, ![100000, 128]⟩ ![0, 1] h2 (broadcastInDim ⟨2, ![1, 128]⟩ ![1] h1 v) (ix2 p q) = v (ix1 q) := by
  rw [broadcastInDim_apply _ h2 _ (ix2 p q) (ix2 (0 : Fin 1) q) (fun a => match a with
        | ⟨0, _⟩ => by show 0 = if (1 : Nat) = 1 then 0 else p.val; rw [if_pos rfl]
        | ⟨1, _⟩ => by show q.val = if (128 : Nat) = 1 then 0 else q.val; rw [if_neg (by decide)]),
      broadcastInDim_apply _ h1 _ (ix2 (0 : Fin 1) q) (ix1 q) (fun a => match a with
        | ⟨0, _⟩ => by show q.val = if (128 : Nat) = 1 then 0 else q.val; rw [if_neg (by decide)])]

/-- The host's reciprocal square root at an index is the ideal one of the element. -/
theorem hostRsqrt_apply {s : Shape} {φ : FTy} (x : FVec Ideal s φ) (i : s.Idx) : Host.rsqrt x i = Ideal.rsqrt (x i) := rfl

/-- The host's column mean at feature `q` — the sum down the rows from the zero literal, divided by the literal `1.0e5` —
    is the sum of the column times the reciprocal of the row count. -/
theorem colMean_apply (X : FVec Ideal ⟨2, ![100000, 128]⟩ .f32)
    (hr : (⟨2, ![100000, 128]⟩ : Shape).ReducesTo [0] ⟨1, ![128]⟩) (hu : 0 < (⟨0, ![]⟩ : Shape).numel)
    (hb : (⟨0, ![]⟩ : Shape).BroadcastsInDim ⟨1, ![128]⟩ ![]) (q : Fin 128) :
    Host.divf (F := Ideal) (Host.reduceAdd (F := Ideal) X (constant (F := Ideal) ⟨0, ![]⟩ .f32 0x00000000#32) hr hu)
        (broadcastInDim ⟨1, ![128]⟩ ![] hb (constant (F := Ideal) ⟨0, ![]⟩ .f32 0x47C35000#32)) (ix1 q)
      = (∑ k : Fin 100000, X (ix2 k q)) * ((1 / 100000 : ℝ) : EReal) := by
  have hsum : Ideal.hostReduceAdd hr X (Ideal.ofBits .f32 0x00000000#32) (ix1 q)
      = Ideal.ofBits .f32 0x00000000#32 + ∑ k : Fin 100000, X (ix2 k q) := by
    rw [Ideal.hostReduceAdd_single hr (by decide)]
    refine congrArg (_ + ·) (Finset.sum_congr rfl fun k _ => ?_)
    exact congrArg X (funext fun a => Fin.ext (by match a with | ⟨0, _⟩ => rfl | ⟨1, _⟩ => rfl))
  rw [hostDivf_apply, hostReduceAdd_apply, broadcastInDim_scalar_apply, constant_apply, constant_apply, ofBits_rowCount,
    Ideal.div_coe (by norm_num), hsum, Ideal.ofBits_zero_f32, zero_add]

/-! ## The two sides at an element -/

/-- The kernel program's column mean of `A` at feature `q`. -/
theorem kMean_apply (A : FVec Ideal Cert.KernelIdeal.S100000x128 .f32) (q : Fin 128) :
    kMean (F := Ideal) A (ix1 q) = (∑ k : Fin 100000, A (ix2 k q)) * ((1 / 100000 : ℝ) : EReal) :=
  colMean_apply A _ _ _ q

/-- The reference's column mean at feature `q`. -/
theorem refColMean_apply (X : FVec Ideal Cert.ReferenceIdeal.S100000x128 .f32) (q : Fin 128) :
    refColMean (F := Ideal) X (ix1 q) = (∑ k : Fin 100000, X (ix2 k q)) * ((1 / 100000 : ℝ) : EReal) :=
  colMean_apply X _ _ _ q

/-- A per-feature vector repeated down the rows, the reference's spelling, at `(p, q)`. -/
theorem refRows_apply (v : FVec Ideal Cert.ReferenceIdeal.S128 .f32) (p : Fin 100000) (q : Fin 128) :
    refRows (F := Ideal) v (ix2 p q) = v (ix1 q) :=
  rows_apply _ _ v p q

/-- The kernel program's centred array at `(p, q)`: the element minus its column's mean. -/
theorem kCentred_apply (A : FVec Ideal Cert.KernelIdeal.S100000x128 .f32) (p : Fin 100000) (q : Fin 128) :
    kCentred (F := Ideal) A (ix2 p q) = A (ix2 p q) - (∑ k : Fin 100000, A (ix2 k q)) * ((1 / 100000 : ℝ) : EReal) := by
  unfold kCentred
  rw [subf_apply, rows_apply, kMean_apply]

/-- `H = A + b` at `(p, q)`. -/
theorem refBiased_apply (A : FVec Ideal Cert.ReferenceIdeal.S100000x128 .f32) (b : FVec Ideal Cert.ReferenceIdeal.S128 .f32)
    (p : Fin 100000) (q : Fin 128) : refBiased (F := Ideal) A b (ix2 p q) = A (ix2 p q) + b (ix1 q) := by
  unfold refBiased
  rw [addf_apply, refRows_apply]

/-- The reference's centred array at `(p, q)`, when the bias at `q` is a real number: the bias drops out, and it is the
    element of `A` minus the mean of `A`'s column — the kernel program's centred array. -/
theorem refCentred_apply (A : FVec Ideal Cert.ReferenceIdeal.S100000x128 .f32) (b : FVec Ideal Cert.ReferenceIdeal.S128 .f32)
    (q : Fin 128) (r : ℝ) (hr : b (ix1 q) = (r : EReal)) (p : Fin 100000) :
    refCentred (F := Ideal) A b (ix2 p q) = A (ix2 p q) - (∑ k : Fin 100000, A (ix2 k q)) * ((1 / 100000 : ℝ) : EReal) := by
  unfold refCentred
  rw [subf_apply, refRows_apply, refColMean_apply]
  simp only [refBiased_apply, hr]
  exact ERealShift.add_coe_sub_mean_add_coe (fun k => A (ix2 k q)) r (1 / 100000) (by norm_num)
    (by rw [Fintype.card_fin]; norm_num) (A (ix2 p q))

/-- The two variances agree at a feature whose bias is a real number. -/
theorem refVar_eq_kVar (A : FVec Ideal Cert.ReferenceIdeal.S100000x128 .f32) (b : FVec Ideal Cert.ReferenceIdeal.S128 .f32)
    (q : Fin 128) (r : ℝ) (hr : b (ix1 q) = (r : EReal)) :
    refVar (F := Ideal) A b (ix1 q) = kVar (F := Ideal) A (ix1 q) := by
  unfold refVar kVar
  rw [refColMean_apply, colMean_apply]
  simp only [mulf_apply, refCentred_apply A b q r hr, kCentred_apply]

/-- The layer, kernel against reference, at one element: the body's arithmetic on `A`'s element with the kernel program's
    rows (bias, variance of `A`, mean of `A` plus bias, scale, offset) is the reference's batch norm + ReLU there,
    whenever every entry of the bias is a real number. -/
theorem bn_eq (A : FVec Ideal Cert.ReferenceIdeal.S100000x128 .f32) (b g be : FVec Ideal Cert.ReferenceIdeal.S128 .f32)
    (hb : ∀ j, ∃ r : ℝ, b j = (r : EReal)) (i : Cert.ReferenceIdeal.S100000x128.Idx) (p : Fin 100000) (q : Fin 128)
    (hi : i = ix2 p q) :
    bnPt (A i) (b (ix1 q)) (kVar (F := Ideal) A (ix1 q)) (kMeanH (F := Ideal) A b (ix1 q)) (g (ix1 q)) (be (ix1 q))
      = bnRef (F := Ideal) A b g be i := by
  subst hi
  obtain ⟨r, hr⟩ := hb (ix1 q)
  have hk : A (ix2 p q) + b (ix1 q) - kMeanH (F := Ideal) A b (ix1 q)
      = A (ix2 p q) - (∑ k : Fin 100000, A (ix2 k q)) * ((1 / 100000 : ℝ) : EReal) := by
    unfold kMeanH
    rw [addf_apply, kMean_apply, hr, ERealShift.add_coe_sub_add_coe]
  unfold bnRef bnPt
  rw [hk, maximumf_apply, addf_apply, mulf_apply, mulf_apply, refCentred_apply A b q r hr p, refRows_apply, refRows_apply,
    refRows_apply, hostRsqrt_apply, addf_apply, refVar_eq_kVar A b q r hr, broadcastInDim_scalar_apply,
    broadcastInDim_scalar_apply, constant_apply, constant_apply]

/-- The same, through the body: on a block whose element at `(p, q)` is `A`'s at `(p', q)`, with the five `[128]` vectors
    reshaped to `[1,128]` rows as the kernel program passes them, the body's result at `(p, q)` is the reference's layer
    at `(p', q)`. -/
theorem bn_body_eq (A : FVec Ideal Cert.ReferenceIdeal.S100000x128 .f32) (b g be : FVec Ideal Cert.ReferenceIdeal.S128 .f32)
    (hb : ∀ j, ∃ r : ℝ, b j = (r : EReal)) (x0 : Vec Ideal Cert.KernelIdeal.S2000x128 .f32) (p : Fin 2000) (q : Fin 128)
    (p' : Fin 100000) (hx : x0 (ix2 p q) = A (ix2 p' q)) :
    Cert.KernelIdeal.Gen.k1_pay1 (F := Ideal) x0
        (shapeCast Cert.KernelIdeal.S1x128 b Cert.KernelIdeal.Gen.shapeCasts_S128_S1x128)
        (shapeCast Cert.KernelIdeal.S1x128 (kVar (F := Ideal) A) Cert.KernelIdeal.Gen.shapeCasts_S128_S1x128)
        (shapeCast Cert.KernelIdeal.S1x128 (kMeanH (F := Ideal) A b) Cert.KernelIdeal.Gen.shapeCasts_S128_S1x128)
        (shapeCast Cert.KernelIdeal.S1x128 g Cert.KernelIdeal.Gen.shapeCasts_S128_S1x128)
        (shapeCast Cert.KernelIdeal.S1x128 be Cert.KernelIdeal.Gen.shapeCasts_S128_S1x128) (ix2 p q)
      = bnRef (F := Ideal) A b g be (ix2 p' q) := by
  rw [bn_payload, hx]
  simp only [shapeCast_a_1a_apply]
  exact bn_eq A b g be hb _ p' q rfl

end Cert.Bridge.Bn
-- ==== Proof.BnRef.lean ====
/-
  The reference program's three batch-norm + ReLU layers are, each, the one function `bnRef` of the layer's aggregated
  features and its bias, scale and offset rows: the reference prints the same sequence of operations three times.
-/
import proofs.«100148_j72756745994791_1_alg».proof.Proof.RefRead
import proofs.«100148_j72756745994791_1_alg».proof.Proof.BnLayer

noncomputable section

namespace Cert.Bridge.Bn

open Idealize.ShloMosaic
open Cert.ReferenceIdeal Cert.ReferenceIdeal.Gen Cert.ReferenceIdeal.Read

/-- The reference's first layer is `bnRef` of its aggregated features and its three parameter rows. -/
theorem ref_bn1 (x0 : (⟨S100000x128, .f32⟩ : BufTy).Contents (Elt Ideal)) (x1 : (⟨S2x640000, .i32⟩ : BufTy).Contents (Elt Ideal))
    (x3 : (⟨S3x128x128, .f32⟩ : BufTy).Contents (Elt Ideal)) (x4 x5 x6 : (⟨S3x128, .f32⟩ : BufTy).Contents (Elt Ideal)) :
    val_main_v77 (F := Ideal) x0 x1 x3 x4 x5 x6
      = bnRef (F := Ideal) (val_main_v42 (F := Ideal) x0 x1 x3) (val_main_v44 (F := Ideal) x4) (val_main_v49 (F := Ideal) x5)
          (val_main_v51 (F := Ideal) x6) := rfl

/-- The reference's second layer is `bnRef` of its aggregated features and its three parameter rows. -/
theorem ref_bn2 (x0 : (⟨S100000x128, .f32⟩ : BufTy).Contents (Elt Ideal)) (x1 : (⟨S2x640000, .i32⟩ : BufTy).Contents (Elt Ideal))
    (x3 : (⟨S3x128x128, .f32⟩ : BufTy).Contents (Elt Ideal)) (x4 x5 x6 : (⟨S3x128, .f32⟩ : BufTy).Contents (Elt Ideal)) :
    val_main_v127 (F := Ideal) x0 x1 x3 x4 x5 x6
      = bnRef (F := Ideal) (val_main_v92 (F := Ideal) x0 x1 x3 x4 x5 x6) (val_main_v94 (F := Ideal) x4) (val_main_v99 (F := Ideal) x5)
          (val_main_v101 (F := Ideal) x6) := rfl

/-- The reference's third layer is `bnRef` of its aggregated features and its three parameter rows. -/
theorem ref_bn3 (x0 : (⟨S100000x128, .f32⟩ : BufTy).Contents (Elt Ideal)) (x1 : (⟨S2x640000, .i32⟩ : BufTy).Contents (Elt Ideal))
    (x3 : (⟨S3x128x128, .f32⟩ : BufTy).Contents (Elt Ideal)) (x4 x5 x6 : (⟨S3x128, .f32⟩ : BufTy).Contents (Elt Ideal)) :
    val_main_v177 (F := Ideal) x0 x1 x3 x4 x5 x6
      = bnRef (F := Ideal) (val_main_v142 (F := Ideal) x0 x1 x3 x4 x5 x6) (val_main_v144 (F := Ideal) x4) (val_main_v149 (F := Ideal) x5)
          (val_main_v151 (F := Ideal) x6) := rfl

end Cert.Bridge.Bn
-- ==== Proof.BnKer.lean ====
/-
  A batch-norm layer as one function of whole arrays.

  The body treats every element with the five numbers of its own feature column: bias, variance, mean, scale and
  offset, each given as a one-row matrix.  So the array the region leaves is, at (r, c), the body's arithmetic of the
  aggregated feature at (r, c) and the five rows at c.  When the rows are the bias, the column variance of the
  aggregate, its column mean plus the bias, the scale and the offset, that array is the reference's layer: a finite
  bias moves the mean and leaves every centred value where it was.
-/
import proofs.«100148_j72756745994791_1_alg».proof.Proof.BnLayer

noncomputable section

namespace Cert.Bridge.Bn

open Idealize.ShloMosaic Idealize.ShloMosaic.ValueIdx
open Cert.KernelIdeal Cert.KernelIdeal.Gen

/-- The feature column of an index of the node-feature array. -/
abbrev colIx (i : S100000x128.Idx) : Fin 128 := ⟨(i 1).val, (i 1).isLt⟩

/-- What the batch-norm region leaves, from the aggregate and the five rows (bias, scale, offset, mean, variance). -/
def bnKer (A : S100000x128.Idx → EReal) (rb rg rbe rm rv : S1x128.Idx → EReal) : S100000x128.Idx → EReal :=
  fun i => bnPt (A i) (rb (ix2 (0 : Fin 1) (colIx i))) (rv (ix2 (0 : Fin 1) (colIx i))) (rm (ix2 (0 : Fin 1) (colIx i)))
    (rg (ix2 (0 : Fin 1) (colIx i))) (rbe (ix2 (0 : Fin 1) (colIx i)))

/-- With the rows the kernel program passes, the region's array is the reference's layer, whenever every entry of the
    bias is a real number. -/
theorem bnKer_rows (A : FVec Ideal S100000x128 .f32) (b g be : FVec Ideal S128 .f32) (hb : ∀ j, ∃ r : ℝ, b j = (r : EReal)) :
    bnKer A (shapeCast S1x128 b shapeCasts_S128_S1x128) (shapeCast S1x128 g shapeCasts_S128_S1x128)
        (shapeCast S1x128 be shapeCasts_S128_S1x128) (shapeCast S1x128 (kMeanH (F := Ideal) A b) shapeCasts_S128_S1x128)
        (shapeCast S1x128 (kVar (F := Ideal) A) shapeCasts_S128_S1x128)
      = bnRef (F := Ideal) A b g be := by
  funext i
  obtain ⟨p, q, rfl⟩ : ∃ (p : Fin 100000) (q : Fin 128), i = ix2 p q := ⟨i 0, i 1, eq_ix2 i⟩
  show bnPt (A (ix2 p q)) (shapeCast S1x128 b shapeCasts_S128_S1x128 (ix2 (0 : Fin 1) q))
      (shapeCast S1x128 (kVar (F := Ideal) A) shapeCasts_S128_S1x128 (ix2 (0 : Fin 1) q))
      (shapeCast S1x128 (kMeanH (F := Ideal) A b) shapeCasts_S128_S1x128 (ix2 (0 : Fin 1) q))
      (shapeCast S1x128 g shapeCasts_S128_S1x128 (ix2 (0 : Fin 1) q))
      (shapeCast S1x128 be shapeCasts_S128_S1x128 (ix2 (0 : Fin 1) q)) = _
  simp only [shapeCast_a_1a_apply]
  exact bn_eq A b g be hb _ p q rfl

end Cert.Bridge.Bn

end
-- ==== Proof.BnTile1.lean ====
/-
  Layer 1's batch norm and ReLU, tiled over the rows: fifty blocks of 2000 rows of the aggregate, each treated
  element by element with the five one-row matrices, which every grid point reads whole.  A block's element (p, q)
  sits at row 2000 t + p, column q of the array, and the rows are read at column q, so the blocks written back side by
  side are the whole layer.
-/
import proofs.«100148_j72756745994791_1_alg».proof.Proof.Gen.KernelIdeal.Frame
import proofs.«100148_j72756745994791_1_alg».proof.Proof.BnKer

set_option maxRecDepth 16384

noncomputable section

namespace Cert.Bridge.Bn1

open Cert.KernelIdeal Cert.KernelIdeal.Gen
open Idealize.ShloMosaic Idealize.ShloMosaic.TcCoe Idealize.ShloMosaic.ValueIdx Idealize.SL.Sem
open Cert.Bridge.Bn

theorem origin : (![0, 0] : Fin 2 → Nat) = fun _ => 0 := funext fun a => by fin_cases a <;> rfl

/-- Where each window's block sits at grid point t: the aggregate and the result at block row t, the five rows whole. -/
theorem block_rows : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What grid point t writes back is block t of the whole layer. -/
theorem written (c : Dev nD) (t : Fin cfg1.N) :
    (dat1 V c).flushed 6 t = ((cfg1.win 6).blk t).view.read (Elt Ideal)
      (bnKer (V c main_v42) (V c main_v62) (V c main_v63) (V c main_v64) (V c main_v65) (V c main_v66)) := by
  show (cfg1.win 6).cut (grid1.coords t) ((dat1 V c).after 6 t) = _
  rw [after1_6]
  unfold out1_6
  rw [View.canon_unit_zero origin]
  simp only [View.ld_unit_zero (S := S2000x128) origin, View.ld_unit_zero (S := S1x128) origin]
  obtain ⟨e0, e1, f10, f11, f20, f21, f30, f31, f40, f41, f50, f51, e6, e7⟩ := block_rows t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 5 t) (iblk1 V c 4 t) (iblk1 V c 2 t) (iblk1 V c 3 t) (ix2 p q)
    = bnKer (V c main_v42) (V c main_v62) (V c main_v63) (V c main_v64) (V c main_v65) (V c main_v66) (((cfg1.win 6).blk t).view.emb (ix2 p q))
  refine (bn_payload _ _ _ _ _ _ p q).trans ?_
  unfold bnKer
  refine congr (congr (congr (congr (congr (congrArg bnPt ?_) ?_) ?_) ?_) ?_) ?_
  · show V c main_v42 (((cfg1.win 0).blk t).view.emb (ix2 p q)) = V c main_v42 (((cfg1.win 6).blk t).view.emb (ix2 p q))
    refine congrArg _ (funext fun a => Fin.ext ?_)
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * q.val = win1_6.index t (1 : Fin 2) * 128 + 1 * q.val; omega
  · show V c main_v62 (((cfg1.win 1).blk t).view.emb (ix2 (0 : Fin 1) q))
      = V c main_v62 (ix2 (0 : Fin 1) (colIx (((cfg1.win 6).blk t).view.emb (ix2 p q))))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_6.index t (1 : Fin 2) * 128 + 1 * q.val; omega
  · show V c main_v66 (((cfg1.win 5).blk t).view.emb (ix2 (0 : Fin 1) q))
      = V c main_v66 (ix2 (0 : Fin 1) (colIx (((cfg1.win 6).blk t).view.emb (ix2 p q))))
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  · show V c main_v65 (((cfg1.win 4).blk t).view.emb (ix2 (0 : Fin 1) q))
      = V c main_v65 (ix2 (0 : Fin 1) (colIx (((cfg1.win 6).blk t).view.emb (ix2 p q))))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  · show V c main_v63 (((cfg1.win 2).blk t).view.emb (ix2 (0 : Fin 1) q))
      = V c main_v63 (ix2 (0 : Fin 1) (colIx (((cfg1.win 6).blk t).view.emb (ix2 p q))))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  · show V c main_v64 (((cfg1.win 3).blk t).view.emb (ix2 (0 : Fin 1) q))
      = V c main_v64 (ix2 (0 : Fin 1) (colIx (((cfg1.win 6).blk t).view.emb (ix2 p q))))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega

/-- An index of the array is in point t's block iff each coordinate is in the block's range on its axis. -/
theorem in_block (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v67).slice (win1_6.rect t)).set ↔ _
  rw [View.set_slice_whole, Rect.mem_set_unit]
  exact Iff.rfl

/-- Every block row is some grid point's. -/
theorem every_row : ∀ q0 : Fin 50, ∃ t : Fin cfg1.N, win1_6.index t = ![q0.val, 0] :=
  (by decide +kernel : ∀ q0 : Fin 50, ∃ t : Fin grid1.N, win1_6.index t = ![q0.val, 0])

/-- Row r of the array lies in block r / 2000: the blocks tile the array. -/
theorem tiled (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := every_row ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [in_block]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- After the region the result array holds the whole layer of the arrays the region found. -/
theorem whole (c : Dev nD) : (dat1 V c).arrAt 6 cfg1.N
    = bnKer (V c main_v42) (V c main_v62) (V c main_v63) (V c main_v64) (V c main_v65) (V c main_v66) :=
  (dat1 V c).arrAt_eq_of_cover 6 _ (fun t _ => written V c t) tiled

end Cert.Bridge.Bn1

end
-- ==== Proof.StageB.lean ====
/-
  The first layer after its projection.

  Every node sums its in-neighbours' projected features, each weighted by its edge, and the layer adds a bias,
  normalises every feature column over the nodes and clips at zero.  The kernel program takes the column statistics
  of the sums themselves and shifts the mean by the bias; the reference takes them after adding the bias.  A finite
  bias shifts the mean and leaves every centred value unchanged, so the two layers are equal.
-/
import proofs.«100148_j72756745994791_1_alg».proof.Proof.StageA
import proofs.«100148_j72756745994791_1_alg».proof.Proof.BnRef
import proofs.«100148_j72756745994791_1_alg».proof.Proof.BnKer
import proofs.«100148_j72756745994791_1_alg».proof.Proof.BnTile1
import Idealize.ShloMosaic.Lib.StableHlo.Run

set_option maxRecDepth 16384

noncomputable section

namespace Cert.Bridge.Stage

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- The aggregate: each node's weighted sum of its in-neighbours' projected features. -/
theorem w3_v42 (c : Dev nD) : W3 m ρ c (Proc.devRef .tc main_v42) = val_main_v42 (F := Ideal) (m ((c : Thread nD τ).loc main_arg0)) (m ((c : Thread nD τ).loc main_arg1)) (m ((c : Thread nD τ).loc main_arg3)) := by
  show StableHlo.after hostOps1 (W2 m ρ c) (Proc.devRef .tc main_v42) = _
  after_results_simp
  rw [w2_v30, v3_at2, v6_at2, v27_at2]
  rfl

/-- The bias as a one-row matrix. -/
theorem w3_v62 (c : Dev nD) : W3 m ρ c (Proc.devRef .tc main_v62)
    = shapeCast S1x128 (val_main_v44 (F := Ideal) (m ((c : Thread nD τ).loc main_arg4))) shapeCasts_S128_S1x128 := by
  show StableHlo.after hostOps1 (W2 m ρ c) (Proc.devRef .tc main_v62) = _
  after_results_simp
  rw [arg4_at2]
  rfl

/-- The scale as a one-row matrix. -/
theorem w3_v63 (c : Dev nD) : W3 m ρ c (Proc.devRef .tc main_v63)
    = shapeCast S1x128 (val_main_v49 (F := Ideal) (m ((c : Thread nD τ).loc main_arg5))) shapeCasts_S128_S1x128 := by
  show StableHlo.after hostOps1 (W2 m ρ c) (Proc.devRef .tc main_v63) = _
  after_results_simp
  rw [arg5_at2]
  rfl

/-- The offset as a one-row matrix. -/
theorem w3_v64 (c : Dev nD) : W3 m ρ c (Proc.devRef .tc main_v64)
    = shapeCast S1x128 (val_main_v51 (F := Ideal) (m ((c : Thread nD τ).loc main_arg6))) shapeCasts_S128_S1x128 := by
  show StableHlo.after hostOps1 (W2 m ρ c) (Proc.devRef .tc main_v64) = _
  after_results_simp
  rw [arg6_at2]
  rfl

/-- The aggregate's column mean plus the bias, as a one-row matrix. -/
theorem w3_v65 (c : Dev nD) : W3 m ρ c (Proc.devRef .tc main_v65)
    = shapeCast S1x128 (Bn.kMeanH (F := Ideal) (val_main_v42 (F := Ideal) (m ((c : Thread nD τ).loc main_arg0)) (m ((c : Thread nD τ).loc main_arg1)) (m ((c : Thread nD τ).loc main_arg3))) (val_main_v44 (F := Ideal) (m ((c : Thread nD τ).loc main_arg4)))) shapeCasts_S128_S1x128 := by
  show StableHlo.after hostOps1 (W2 m ρ c) (Proc.devRef .tc main_v65) = _
  after_results_simp
  rw [w2_v30, v3_at2, v6_at2, v27_at2, arg4_at2]
  rfl

/-- The aggregate's column variance, as a one-row matrix. -/
theorem w3_v66 (c : Dev nD) : W3 m ρ c (Proc.devRef .tc main_v66)
    = shapeCast S1x128 (Bn.kVar (F := Ideal) (val_main_v42 (F := Ideal) (m ((c : Thread nD τ).loc main_arg0)) (m ((c : Thread nD τ).loc main_arg1)) (m ((c : Thread nD τ).loc main_arg3)))) shapeCasts_S128_S1x128 := by
  show StableHlo.after hostOps1 (W2 m ρ c) (Proc.devRef .tc main_v66) = _
  after_results_simp
  rw [w2_v30, v3_at2, v6_at2, v27_at2]
  rfl

/-- Every entry of this layer's bias is an entry of the bias argument, hence a real number. -/
theorem bias1_real (hfin : ∀ (c : Dev nD) (i : S3x128.Idx), ∃ r : ℝ, m ((c : Thread nD τ).loc main_arg4) i = (r : EReal)) (c : Dev nD) (j : S128.Idx) : ∃ r : ℝ, (val_main_v44 (F := Ideal) (m ((c : Thread nD τ).loc main_arg4))) j = (r : EReal) := by
  rw [val_main_v44_apply, val_main_v43_apply]
  exact hfin c _

/-- The layer: batch norm and ReLU of the aggregate plus bias, as the reference computes it. -/
theorem w4_v67 (hfin : ∀ (c : Dev nD) (i : S3x128.Idx), ∃ r : ℝ, m ((c : Thread nD τ).loc main_arg4) i = (r : EReal)) (c : Dev nD) : W4 m ρ c (Proc.devRef .tc main_v67) = val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W4_arr m ρ c 6).trans ?_
  rw [Bn1.whole (V3 m ρ) c]
  show Bn.bnKer (W3 m ρ c (Proc.devRef .tc main_v42)) (W3 m ρ c (Proc.devRef .tc main_v62)) (W3 m ρ c (Proc.devRef .tc main_v63))
    (W3 m ρ c (Proc.devRef .tc main_v64)) (W3 m ρ c (Proc.devRef .tc main_v65)) (W3 m ρ c (Proc.devRef .tc main_v66)) = _
  rw [w3_v42 m ρ, w3_v62, w3_v63, w3_v64, w3_v65 m ρ, w3_v66 m ρ]
  rw [Bn.bnKer_rows _ _ _ _ (bias1_real m hfin c)]
  exact (Bn.ref_bn1 _ _ _ _ _ _).symm

end Cert.Bridge.Stage

end
-- ==== Proof.LinTile2.lean ====
/-
  Layer 2's projection, tiled over the rows: fifty blocks of 2000 rows, each block of the result the matching
  block of the features times the whole weight matrix.  A block's entry (p, q) sits at row 2000 t + p and column q of
  the array, and reads row 2000 t + p of the features, so the blocks written back side by side are the whole product.
-/
import proofs.«100148_j72756745994791_1_alg».proof.Proof.Gen.KernelIdeal.Frame
import proofs.«100148_j72756745994791_1_alg».proof.Proof.LinLayer

set_option maxRecDepth 16384

noncomputable section

namespace Cert.Bridge.Lin2

open Cert.KernelIdeal Cert.KernelIdeal.Gen
open Idealize.ShloMosaic Idealize.ShloMosaic.TcCoe Idealize.ShloMosaic.ValueIdx Idealize.SL.Sem
open Cert.Hand.Dense Cert.Bridge.Lin

theorem origin : (![0, 0] : Fin 2 → Nat) = fun _ => 0 := funext fun a => by fin_cases a <;> rfl

/-- Where each window's block sits at grid point t: the features and the result at block row t, the weights whole. -/
theorem block_rows : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the whole product. -/
theorem written (c : Dev nD) (t : Fin cfg2.N) :
    (dat2 V c).flushed 2 t = ((cfg2.win 2).blk t).view.read (Elt Ideal) (prod (V c main_v67) (V c main_v69)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x128) origin]
  obtain ⟨e0, e1, e2, e3, e4, e5⟩ := block_rows t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q)
    = prod (V c main_v67) (V c main_v69) (((cfg2.win 2).blk t).view.emb (ix2 p q))
  refine (block_entry2 _ _ p q).trans ?_
  unfold prod lin
  refine Finset.sum_congr rfl fun k _ => ?_
  refine congrArg₂ (· * ·) ?_ ?_
  · show V c main_v67 (((cfg2.win 0).blk t).view.emb (ix2 p k))
      = V c main_v67 (ix2 (LibMatmul.rowOf (((cfg2.win 2).blk t).view.emb (ix2 p q))) k)
    refine congrArg _ (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  · show V c main_v69 (((cfg2.win 1).blk t).view.emb (ix2 k q))
      = V c main_v69 (ix2 k (LibMatmul.colOf (((cfg2.win 2).blk t).view.emb (ix2 p q))))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the array is in point t's block iff each coordinate is in the block's range on its axis. -/
theorem in_block (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v70).slice (win2_2.rect t)).set ↔ _
  rw [View.set_slice_whole, Rect.mem_set_unit]
  exact Iff.rfl

/-- Every block row is some grid point's. -/
theorem every_row : ∀ q0 : Fin 50, ∃ t : Fin cfg2.N, win2_2.index t = ![q0.val, 0] :=
  (by decide +kernel : ∀ q0 : Fin 50, ∃ t : Fin grid2.N, win2_2.index t = ![q0.val, 0])

/-- Row r of the array lies in block r / 2000: the blocks tile the array. -/
theorem tiled (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := every_row ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [in_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region the result array holds the whole product of the arrays the region found. -/
theorem whole (c : Dev nD) : (dat2 V c).arrAt 2 cfg2.N = prod (V c main_v67) (V c main_v69) :=
  (dat2 V c).arrAt_eq_of_cover 2 _ (fun t _ => written V c t) tiled

end Cert.Bridge.Lin2

end
-- ==== Proof.BnTile3.lean ====
/-
  Layer 2's batch norm and ReLU, tiled over the rows: fifty blocks of 2000 rows of the aggregate, each treated
  element by element with the five one-row matrices, which every grid point reads whole.  A block's element (p, q)
  sits at row 2000 t + p, column q of the array, and the rows are read at column q, so the blocks written back side by
  side are the whole layer.
-/
import proofs.«100148_j72756745994791_1_alg».proof.Proof.Gen.KernelIdeal.Frame
import proofs.«100148_j72756745994791_1_alg».proof.Proof.BnKer

set_option maxRecDepth 16384

noncomputable section

namespace Cert.Bridge.Bn3

open Cert.KernelIdeal Cert.KernelIdeal.Gen
open Idealize.ShloMosaic Idealize.ShloMosaic.TcCoe Idealize.ShloMosaic.ValueIdx Idealize.SL.Sem
open Cert.Bridge.Bn

theorem origin : (![0, 0] : Fin 2 → Nat) = fun _ => 0 := funext fun a => by fin_cases a <;> rfl

/-- Where each window's block sits at grid point t: the aggregate and the result at block row t, the five rows whole. -/
theorem block_rows : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- What grid point t writes back is block t of the whole layer. -/
theorem written (c : Dev nD) (t : Fin cfg3.N) :
    (dat3 V c).flushed 6 t = ((cfg3.win 6).blk t).view.read (Elt Ideal)
      (bnKer (V c main_v82) (V c main_v102) (V c main_v103) (V c main_v104) (V c main_v105) (V c main_v106)) := by
  show (cfg3.win 6).cut (grid3.coords t) ((dat3 V c).after 6 t) = _
  rw [after3_6]
  unfold out3_6
  rw [View.canon_unit_zero origin]
  simp only [View.ld_unit_zero (S := S2000x128) origin, View.ld_unit_zero (S := S1x128) origin]
  obtain ⟨e0, e1, f10, f11, f20, f21, f30, f31, f40, f41, f50, f51, e6, e7⟩ := block_rows t
  funext j
  obtain ⟨p, q, rfl⟩ : ∃ (p : Fin 2000) (q : Fin 128), j = ix2 p q := ⟨j 0, j 1, eq_ix2 j⟩
  show k1_pay1 (F := Ideal) (iblk3 V c 0 t) (iblk3 V c 1 t) (iblk3 V c 5 t) (iblk3 V c 4 t) (iblk3 V c 2 t) (iblk3 V c 3 t) (ix2 p q)
    = bnKer (V c main_v82) (V c main_v102) (V c main_v103) (V c main_v104) (V c main_v105) (V c main_v106) (((cfg3.win 6).blk t).view.emb (ix2 p q))
  refine (bn_payload _ _ _ _ _ _ p q).trans ?_
  unfold bnKer
  refine congr (congr (congr (congr (congr (congrArg bnPt ?_) ?_) ?_) ?_) ?_) ?_
  · show V c main_v82 (((cfg3.win 0).blk t).view.emb (ix2 p q)) = V c main_v82 (((cfg3.win 6).blk t).view.emb (ix2 p q))
    refine congrArg _ (funext fun a => Fin.ext ?_)
    match a with
    | ⟨0, _⟩ => show win3_0.index t (0 : Fin 2) * 2000 + 1 * p.val = win3_6.index t (0 : Fin 2) * 2000 + 1 * p.val; omega
    | ⟨1, _⟩ => show win3_0.index t (1 : Fin 2) * 128 + 1 * q.val = win3_6.index t (1 : Fin 2) * 128 + 1 * q.val; omega
  · show V c main_v102 (((cfg3.win 1).blk t).view.emb (ix2 (0 : Fin 1) q))
      = V c main_v102 (ix2 (0 : Fin 1) (colIx (((cfg3.win 6).blk t).view.emb (ix2 p q))))
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = win3_6.index t (1 : Fin 2) * 128 + 1 * q.val; omega
  · show V c main_v106 (((cfg3.win 5).blk t).view.emb (ix2 (0 : Fin 1) q))
      = V c main_v106 (ix2 (0 : Fin 1) (colIx (((cfg3.win 6).blk t).view.emb (ix2 p q))))
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  · show V c main_v105 (((cfg3.win 4).blk t).view.emb (ix2 (0 : Fin 1) q))
      = V c main_v105 (ix2 (0 : Fin 1) (colIx (((cfg3.win 6).blk t).view.emb (ix2 p q))))
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  · show V c main_v103 (((cfg3.win 2).blk t).view.emb (ix2 (0 : Fin 1) q))
      = V c main_v103 (ix2 (0 : Fin 1) (colIx (((cfg3.win 6).blk t).view.emb (ix2 p q))))
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_6.index t (1 : Fin 2) * 128 + 1 * q.val; omega
  · show V c main_v104 (((cfg3.win 3).blk t).view.emb (ix2 (0 : Fin 1) q))
      = V c main_v104 (ix2 (0 : Fin 1) (colIx (((cfg3.win 6).blk t).view.emb (ix2 p q))))
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = win3_6.index t (1 : Fin 2) * 128 + 1 * q.val; omega

/-- An index of the array is in point t's block iff each coordinate is in the block's range on its axis. -/
theorem in_block (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v107).slice (win3_6.rect t)).set ↔ _
  rw [View.set_slice_whole, Rect.mem_set_unit]
  exact Iff.rfl

/-- Every block row is some grid point's. -/
theorem every_row : ∀ q0 : Fin 50, ∃ t : Fin cfg3.N, win3_6.index t = ![q0.val, 0] :=
  (by decide +kernel : ∀ q0 : Fin 50, ∃ t : Fin grid3.N, win3_6.index t = ![q0.val, 0])

/-- Row r of the array lies in block r / 2000: the blocks tile the array. -/
theorem tiled (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := every_row ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [in_block]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- After the region the result array holds the whole layer of the arrays the region found. -/
theorem whole (c : Dev nD) : (dat3 V c).arrAt 6 cfg3.N
    = bnKer (V c main_v82) (V c main_v102) (V c main_v103) (V c main_v104) (V c main_v105) (V c main_v106) :=
  (dat3 V c).arrAt_eq_of_cover 6 _ (fun t _ => written V c t) tiled

end Cert.Bridge.Bn3

end
-- ==== Proof.StageC.lean ====
/-
  The second layer: the weight matrix cut out of the stack, the projection of the first layer's features tiled over
  the rows, the weighted sums over in-neighbours, and batch norm with ReLU.  Each step is the first layer's step on the
  first layer's output, with the second slab of every parameter stack.
-/
import proofs.«100148_j72756745994791_1_alg».proof.Proof.StageB
import proofs.«100148_j72756745994791_1_alg».proof.Proof.LinTile2
import proofs.«100148_j72756745994791_1_alg».proof.Proof.BnTile3
import Idealize.ShloMosaic.Lib.StableHlo.Run

set_option maxRecDepth 16384

noncomputable section

namespace Cert.Bridge.Stage

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- This layer's weight matrix, cut out of the stack. -/
theorem w5_v69 (c : Dev nD) : W5 m ρ c (Proc.devRef .tc main_v69) = val_main_v79 (F := Ideal) (m ((c : Thread nD τ).loc main_arg3)) := by
  show StableHlo.after hostOps2 (W4 m ρ c) (Proc.devRef .tc main_v69) = _
  after_results_simp
  rw [arg3_at4]
  rfl

/-- The previous layer's features are still there. -/
theorem w5_v67 (hfin : ∀ (c : Dev nD) (i : S3x128.Idx), ∃ r : ℝ, m ((c : Thread nD τ).loc main_arg4) i = (r : EReal)) (c : Dev nD) : W5 m ρ c (Proc.devRef .tc main_v67) = val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (Keep.v67_5 m ρ c).trans (w4_v67 m ρ hfin c)

/-- This layer's projection: the previous layer's features times the weight matrix. -/
theorem w6_v70 (hfin : ∀ (c : Dev nD) (i : S3x128.Idx), ∃ r : ℝ, m ((c : Thread nD τ).loc main_arg4) i = (r : EReal)) (c : Dev nD) : W6 m ρ c (Proc.devRef .tc main_v70) = val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 2).trans ?_
  rw [Lin2.whole (V5 m ρ) c]
  show Lin.prod (W5 m ρ c (Proc.devRef .tc main_v67)) (W5 m ρ c (Proc.devRef .tc main_v69)) = _
  rw [w5_v67 m ρ hfin, w5_v69]
  exact (Lin.dot_eq_prod Cert.ReferenceIdeal.dot_S100000x128_S128x128_S100000x128_1_0_0_1_n_n rfl _ _).symm

/-- The aggregate: each node's weighted sum of its in-neighbours' projected features. -/
theorem w7_v82 (hfin : ∀ (c : Dev nD) (i : S3x128.Idx), ∃ r : ℝ, m ((c : Thread nD τ).loc main_arg4) i = (r : EReal)) (c : Dev nD) : W7 m ρ c (Proc.devRef .tc main_v82) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v82) = _
  after_results_simp
  rw [w6_v70 m ρ hfin, v3_at6, v6_at6, v27_at6]
  rfl

/-- The bias as a one-row matrix. -/
theorem w7_v102 (c : Dev nD) : W7 m ρ c (Proc.devRef .tc main_v102)
    = shapeCast S1x128 (val_main_v94 (F := Ideal) (m ((c : Thread nD τ).loc main_arg4))) shapeCasts_S128_S1x128 := by
  show StableHlo.after hostOps3 (W6 m ρ c) (Proc.devRef .tc main_v102) = _
  after_results_simp
  rw [arg4_at6]
  rfl

/-- The scale as a one-row matrix. -/
theorem w7_v103 (c : Dev nD) : W7 m ρ c (Proc.devRef .tc main_v103)
    = shapeCast S1x128 (val_main_v99 (F := Ideal) (m ((c : Thread nD τ).loc main_arg5))) shapeCasts_S128_S1x128 := by
  show StableHlo.after hostOps3 (W6 m ρ c) (Proc.devRef .tc main_v103) = _
  after_results_simp
  rw [arg5_at6]
  rfl

/-- The offset as a one-row matrix. -/
theorem w7_v104 (c : Dev nD) : W7 m ρ c (Proc.devRef .tc main_v104)
    = shapeCast S1x128 (val_main_v101 (F := Ideal) (m ((c : Thread nD τ).loc main_arg6))) shapeCasts_S128_S1x128 := by
  show StableHlo.after hostOps3 (W6 m ρ c) (Proc.devRef .tc main_v104) = _
  after_results_simp
  rw [arg6_at6]
  rfl

/-- The aggregate's column mean plus the bias, as a one-row matrix. -/
theorem w7_v105 (hfin : ∀ (c : Dev nD) (i : S3x128.Idx), ∃ r : ℝ, m ((c : Thread nD τ).loc main_arg4) i = (r : EReal)) (c : Dev nD) : W7 m ρ c (Proc.devRef .tc main_v105)
    = shapeCast S1x128 (Bn.kMeanH (F := Ideal) (val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (val_main_v94 (F := Ideal) (m ((c : Thread nD τ).loc main_arg4)))) shapeCasts_S128_S1x128 := by
  show StableHlo.after hostOps3 (W6 m ρ c) (Proc.devRef .tc main_v105) = _
  after_results_simp
  rw [w6_v70 m ρ hfin, v3_at6, v6_at6, v27_at6, arg4_at6]
  rfl

/-- The aggregate's column variance, as a one-row matrix. -/
theorem w7_v106 (hfin : ∀ (c : Dev nD) (i : S3x128.Idx), ∃ r : ℝ, m ((c : Thread nD τ).loc main_arg4) i = (r : EReal)) (c : Dev nD) : W7 m ρ c (Proc.devRef .tc main_v106)
    = shapeCast S1x128 (Bn.kVar (F := Ideal) (val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) shapeCasts_S128_S1x128 := by
  show StableHlo.after hostOps3 (W6 m ρ c) (Proc.devRef .tc main_v106) = _
  after_results_simp
  rw [w6_v70 m ρ hfin, v3_at6, v6_at6, v27_at6]
  rfl

/-- Every entry of this layer's bias is an entry of the bias argument, hence a real number. -/
theorem bias2_real (hfin : ∀ (c : Dev nD) (i : S3x128.Idx), ∃ r : ℝ, m ((c : Thread nD τ).loc main_arg4) i = (r : EReal)) (c : Dev nD) (j : S128.Idx) : ∃ r : ℝ, (val_main_v94 (F := Ideal) (m ((c : Thread nD τ).loc main_arg4))) j = (r : EReal) := by
  rw [val_main_v94_apply, val_main_v93_apply]
  exact hfin c _

/-- The layer: batch norm and ReLU of the aggregate plus bias, as the reference computes it. -/
theorem w8_v107 (hfin : ∀ (c : Dev nD) (i : S3x128.Idx), ∃ r : ℝ, m ((c : Thread nD τ).loc main_arg4) i = (r : EReal)) (c : Dev nD) : W8 m ρ c (Proc.devRef .tc main_v107) = val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 6).trans ?_
  rw [Bn3.whole (V7 m ρ) c]
  show Bn.bnKer (W7 m ρ c (Proc.devRef .tc main_v82)) (W7 m ρ c (Proc.devRef .tc main_v102)) (W7 m ρ c (Proc.devRef .tc main_v103))
    (W7 m ρ c (Proc.devRef .tc main_v104)) (W7 m ρ c (Proc.devRef .tc main_v105)) (W7 m ρ c (Proc.devRef .tc main_v106)) = _
  rw [w7_v82 m ρ hfin, w7_v102, w7_v103, w7_v104, w7_v105 m ρ hfin, w7_v106 m ρ hfin]
  rw [Bn.bnKer_rows _ _ _ _ (bias2_real m hfin c)]
  exact (Bn.ref_bn2 _ _ _ _ _ _).symm

end Cert.Bridge.Stage

end
-- ==== Proof.LinTile4.lean ====
/-
  Layer 3's projection, tiled over the rows: fifty blocks of 2000 rows, each block of the result the matching
  block of the features times the whole weight matrix.  A block's entry (p, q) sits at row 2000 t + p and column q of
  the array, and reads row 2000 t + p of the features, so the blocks written back side by side are the whole product.
-/
import proofs.«100148_j72756745994791_1_alg».proof.Proof.Gen.KernelIdeal.Frame
import proofs.«100148_j72756745994791_1_alg».proof.Proof.LinLayer

set_option maxRecDepth 16384

noncomputable section

namespace Cert.Bridge.Lin4

open Cert.KernelIdeal Cert.KernelIdeal.Gen
open Idealize.ShloMosaic Idealize.ShloMosaic.TcCoe Idealize.ShloMosaic.ValueIdx Idealize.SL.Sem
open Cert.Hand.Dense Cert.Bridge.Lin

theorem origin : (![0, 0] : Fin 2 → Nat) = fun _ => 0 := funext fun a => by fin_cases a <;> rfl

/-- Where each window's block sits at grid point t: the features and the result at block row t, the weights whole. -/
theorem block_rows : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What grid point t writes back is block t of the whole product. -/
theorem written (c : Dev nD) (t : Fin cfg4.N) :
    (dat4 V c).flushed 2 t = ((cfg4.win 2).blk t).view.read (Elt Ideal) (prod (V c main_v107) (V c main_v109)) := by
  show (cfg4.win 2).cut (grid4.coords t) ((dat4 V c).after 2 t) = _
  rw [after4_2]
  unfold out4_2
  rw [View.canon_unit_zero origin]
  simp only [View.ld_unit_zero (S := S2000x128) origin, View.ld_unit_zero (S := S128x128) origin]
  obtain ⟨e0, e1, e2, e3, e4, e5⟩ := block_rows t
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (ix2 p q)
    = prod (V c main_v107) (V c main_v109) (((cfg4.win 2).blk t).view.emb (ix2 p q))
  refine (block_entry4 _ _ p q).trans ?_
  unfold prod lin
  refine Finset.sum_congr rfl fun k _ => ?_
  refine congrArg₂ (· * ·) ?_ ?_
  · show V c main_v107 (((cfg4.win 0).blk t).view.emb (ix2 p k))
      = V c main_v107 (ix2 (LibMatmul.rowOf (((cfg4.win 2).blk t).view.emb (ix2 p q))) k)
    refine congrArg _ (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  · show V c main_v109 (((cfg4.win 1).blk t).view.emb (ix2 k q))
      = V c main_v109 (ix2 k (LibMatmul.colOf (((cfg4.win 2).blk t).view.emb (ix2 p q))))
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega

/-- An index of the array is in point t's block iff each coordinate is in the block's range on its axis. -/
theorem in_block (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v110).slice (win4_2.rect t)).set ↔ _
  rw [View.set_slice_whole, Rect.mem_set_unit]
  exact Iff.rfl

/-- Every block row is some grid point's. -/
theorem every_row : ∀ q0 : Fin 50, ∃ t : Fin cfg4.N, win4_2.index t = ![q0.val, 0] :=
  (by decide +kernel : ∀ q0 : Fin 50, ∃ t : Fin grid4.N, win4_2.index t = ![q0.val, 0])

/-- Row r of the array lies in block r / 2000: the blocks tile the array. -/
theorem tiled (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := every_row ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [in_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- After the region the result array holds the whole product of the arrays the region found. -/
theorem whole (c : Dev nD) : (dat4 V c).arrAt 2 cfg4.N = prod (V c main_v107) (V c main_v109) :=
  (dat4 V c).arrAt_eq_of_cover 2 _ (fun t _ => written V c t) tiled

end Cert.Bridge.Lin4

end
-- ==== Proof.BnTile5.lean ====
/-
  Layer 3's batch norm and ReLU, tiled over the rows: fifty blocks of 2000 rows of the aggregate, each treated
  element by element with the five one-row matrices, which every grid point reads whole.  A block's element (p, q)
  sits at row 2000 t + p, column q of the array, and the rows are read at column q, so the blocks written back side by
  side are the whole layer.
-/
import proofs.«100148_j72756745994791_1_alg».proof.Proof.Gen.KernelIdeal.Frame
import proofs.«100148_j72756745994791_1_alg».proof.Proof.BnKer

set_option maxRecDepth 16384

noncomputable section

namespace Cert.Bridge.Bn5

open Cert.KernelIdeal Cert.KernelIdeal.Gen
open Idealize.ShloMosaic Idealize.ShloMosaic.TcCoe Idealize.ShloMosaic.ValueIdx Idealize.SL.Sem
open Cert.Bridge.Bn

theorem origin : (![0, 0] : Fin 2 → Nat) = fun _ => 0 := funext fun a => by fin_cases a <;> rfl

/-- Where each window's block sits at grid point t: the aggregate and the result at block row t, the five rows whole. -/
theorem block_rows : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b))

/-- What grid point t writes back is block t of the whole layer. -/
theorem written (c : Dev nD) (t : Fin cfg5.N) :
    (dat5 V c).flushed 6 t = ((cfg5.win 6).blk t).view.read (Elt Ideal)
      (bnKer (V c main_v122) (V c main_v142) (V c main_v143) (V c main_v144) (V c main_v145) (V c main_v146)) := by
  show (cfg5.win 6).cut (grid5.coords t) ((dat5 V c).after 6 t) = _
  rw [after5_6]
  unfold out5_6
  rw [View.canon_unit_zero origin]
  simp only [View.ld_unit_zero (S := S2000x128) origin, View.ld_unit_zero (S := S1x128) origin]
  obtain ⟨e0, e1, f10, f11, f20, f21, f30, f31, f40, f41, f50, f51, e6, e7⟩ := block_rows t
  funext j
  obtain ⟨p, q, rfl⟩ : ∃ (p : Fin 2000) (q : Fin 128), j = ix2 p q := ⟨j 0, j 1, eq_ix2 j⟩
  show k1_pay1 (F := Ideal) (iblk5 V c 0 t) (iblk5 V c 1 t) (iblk5 V c 5 t) (iblk5 V c 4 t) (iblk5 V c 2 t) (iblk5 V c 3 t) (ix2 p q)
    = bnKer (V c main_v122) (V c main_v142) (V c main_v143) (V c main_v144) (V c main_v145) (V c main_v146) (((cfg5.win 6).blk t).view.emb (ix2 p q))
  refine (bn_payload _ _ _ _ _ _ p q).trans ?_
  unfold bnKer
  refine congr (congr (congr (congr (congr (congrArg bnPt ?_) ?_) ?_) ?_) ?_) ?_
  · show V c main_v122 (((cfg5.win 0).blk t).view.emb (ix2 p q)) = V c main_v122 (((cfg5.win 6).blk t).view.emb (ix2 p q))
    refine congrArg _ (funext fun a => Fin.ext ?_)
    match a with
    | ⟨0, _⟩ => show win5_0.index t (0 : Fin 2) * 2000 + 1 * p.val = win5_6.index t (0 : Fin 2) * 2000 + 1 * p.val; omega
    | ⟨1, _⟩ => show win5_0.index t (1 : Fin 2) * 128 + 1 * q.val = win5_6.index t (1 : Fin 2) * 128 + 1 * q.val; omega
  · show V c main_v142 (((cfg5.win 1).blk t).view.emb (ix2 (0 : Fin 1) q))
      = V c main_v142 (ix2 (0 : Fin 1) (colIx (((cfg5.win 6).blk t).view.emb (ix2 p q))))
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = win5_6.index t (1 : Fin 2) * 128 + 1 * q.val; omega
  · show V c main_v146 (((cfg5.win 5).blk t).view.emb (ix2 (0 : Fin 1) q))
      = V c main_v146 (ix2 (0 : Fin 1) (colIx (((cfg5.win 6).blk t).view.emb (ix2 p q))))
    refine congrArg _ (funext fun a => Fin.ext ?_)
    match a with
    | ⟨0, _⟩ => show win5_5.index t (0 : Fin 2) * 1 + 1 * 0 = 0; omega
    | ⟨1, _⟩ => show win5_5.index t (1 : Fin 2) * 128 + 1 * q.val = win5_6.index t (1 : Fin 2) * 128 + 1 * q.val; omega
  · show V c main_v145 (((cfg5.win 4).blk t).view.emb (ix2 (0 : Fin 1) q))
      = V c main_v145 (ix2 (0 : Fin 1) (colIx (((cfg5.win 6).blk t).view.emb (ix2 p q))))
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = win5_6.index t (1 : Fin 2) * 128 + 1 * q.val; omega
  · show V c main_v143 (((cfg5.win 2).blk t).view.emb (ix2 (0 : Fin 1) q))
      = V c main_v143 (ix2 (0 : Fin 1) (colIx (((cfg5.win 6).blk t).view.emb (ix2 p q))))
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = win5_6.index t (1 : Fin 2) * 128 + 1 * q.val; omega
  · show V c main_v144 (((cfg5.win 3).blk t).view.emb (ix2 (0 : Fin 1) q))
      = V c main_v144 (ix2 (0 : Fin 1) (colIx (((cfg5.win 6).blk t).view.emb (ix2 p q))))
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = win5_6.index t (1 : Fin 2) * 128 + 1 * q.val; omega

/-- An index of the array is in point t's block iff each coordinate is in the block's range on its axis. -/
theorem in_block (t : Fin cfg5.N) (i : S100000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v147).slice (win5_6.rect t)).set ↔ _
  rw [View.set_slice_whole, Rect.mem_set_unit]
  exact Iff.rfl

/-- Every block row is some grid point's. -/
theorem every_row : ∀ q0 : Fin 50, ∃ t : Fin cfg5.N, win5_6.index t = ![q0.val, 0] :=
  (by decide +kernel : ∀ q0 : Fin 50, ∃ t : Fin grid5.N, win5_6.index t = ![q0.val, 0])

/-- Row r of the array lies in block r / 2000: the blocks tile the array. -/
theorem tiled (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  obtain ⟨t, ht⟩ := every_row ⟨(i 0).val / 2000, by omega⟩
  have q0 : win5_6.index t (0 : Fin 2) = (i 0).val / 2000 := congrFun ht 0
  have q1 : win5_6.index t (1 : Fin 2) = 0 := congrFun ht 1
  refine ⟨t, flush5_6 t, ?_⟩
  rw [in_block]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 128 ≤ (i 1).val ∧ (i 1).val < win5_6.index t (1 : Fin 2) * 128 + 128; omega

/-- After the region the result array holds the whole layer of the arrays the region found. -/
theorem whole (c : Dev nD) : (dat5 V c).arrAt 6 cfg5.N
    = bnKer (V c main_v122) (V c main_v142) (V c main_v143) (V c main_v144) (V c main_v145) (V c main_v146) :=
  (dat5 V c).arrAt_eq_of_cover 6 _ (fun t _ => written V c t) tiled

end Cert.Bridge.Bn5

end
-- ==== Proof.StageD.lean ====
/-
  The third layer: the same four steps on the second layer's output, with the third slab of every parameter stack.
-/
import proofs.«100148_j72756745994791_1_alg».proof.Proof.StageC
import proofs.«100148_j72756745994791_1_alg».proof.Proof.LinTile4
import proofs.«100148_j72756745994791_1_alg».proof.Proof.BnTile5
import Idealize.ShloMosaic.Lib.StableHlo.Run

set_option maxRecDepth 16384

noncomputable section

namespace Cert.Bridge.Stage

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- This layer's weight matrix, cut out of the stack. -/
theorem w9_v109 (c : Dev nD) : W9 m ρ c (Proc.devRef .tc main_v109) = val_main_v129 (F := Ideal) (m ((c : Thread nD τ).loc main_arg3)) := by
  show StableHlo.after hostOps4 (W8 m ρ c) (Proc.devRef .tc main_v109) = _
  after_results_simp
  rw [arg3_at8]
  rfl

/-- The previous layer's features are still there. -/
theorem w9_v107 (hfin : ∀ (c : Dev nD) (i : S3x128.Idx), ∃ r : ℝ, m ((c : Thread nD τ).loc main_arg4) i = (r : EReal)) (c : Dev nD) : W9 m ρ c (Proc.devRef .tc main_v107) = val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (Keep.v107_9 m ρ c).trans (w8_v107 m ρ hfin c)

/-- This layer's projection: the previous layer's features times the weight matrix. -/
theorem w10_v110 (hfin : ∀ (c : Dev nD) (i : S3x128.Idx), ∃ r : ℝ, m ((c : Thread nD τ).loc main_arg4) i = (r : EReal)) (c : Dev nD) : W10 m ρ c (Proc.devRef .tc main_v110) = val_main_v130 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W10_arr m ρ c 2).trans ?_
  rw [Lin4.whole (V9 m ρ) c]
  show Lin.prod (W9 m ρ c (Proc.devRef .tc main_v107)) (W9 m ρ c (Proc.devRef .tc main_v109)) = _
  rw [w9_v107 m ρ hfin, w9_v109]
  exact (Lin.dot_eq_prod Cert.ReferenceIdeal.dot_S100000x128_S128x128_S100000x128_1_0_0_1_n_n rfl _ _).symm

/-- The aggregate: each node's weighted sum of its in-neighbours' projected features. -/
theorem w11_v122 (hfin : ∀ (c : Dev nD) (i : S3x128.Idx), ∃ r : ℝ, m ((c : Thread nD τ).loc main_arg4) i = (r : EReal)) (c : Dev nD) : W11 m ρ c (Proc.devRef .tc main_v122) = val_main_v142 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v122) = _
  after_results_simp
  rw [w10_v110 m ρ hfin, v3_at10, v6_at10, v27_at10]
  rfl

/-- The bias as a one-row matrix. -/
theorem w11_v142 (c : Dev nD) : W11 m ρ c (Proc.devRef .tc main_v142)
    = shapeCast S1x128 (val_main_v144 (F := Ideal) (m ((c : Thread nD τ).loc main_arg4))) shapeCasts_S128_S1x128 := by
  show StableHlo.after hostOps5 (W10 m ρ c) (Proc.devRef .tc main_v142) = _
  after_results_simp
  rw [arg4_at10]
  rfl

/-- The scale as a one-row matrix. -/
theorem w11_v143 (c : Dev nD) : W11 m ρ c (Proc.devRef .tc main_v143)
    = shapeCast S1x128 (val_main_v149 (F := Ideal) (m ((c : Thread nD τ).loc main_arg5))) shapeCasts_S128_S1x128 := by
  show StableHlo.after hostOps5 (W10 m ρ c) (Proc.devRef .tc main_v143) = _
  after_results_simp
  rw [arg5_at10]
  rfl

/-- The offset as a one-row matrix. -/
theorem w11_v144 (c : Dev nD) : W11 m ρ c (Proc.devRef .tc main_v144)
    = shapeCast S1x128 (val_main_v151 (F := Ideal) (m ((c : Thread nD τ).loc main_arg6))) shapeCasts_S128_S1x128 := by
  show StableHlo.after hostOps5 (W10 m ρ c) (Proc.devRef .tc main_v144) = _
  after_results_simp
  rw [arg6_at10]
  rfl

/-- The aggregate's column mean plus the bias, as a one-row matrix. -/
theorem w11_v145 (hfin : ∀ (c : Dev nD) (i : S3x128.Idx), ∃ r : ℝ, m ((c : Thread nD τ).loc main_arg4) i = (r : EReal)) (c : Dev nD) : W11 m ρ c (Proc.devRef .tc main_v145)
    = shapeCast S1x128 (Bn.kMeanH (F := Ideal) (val_main_v142 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (val_main_v144 (F := Ideal) (m ((c : Thread nD τ).loc main_arg4)))) shapeCasts_S128_S1x128 := by
  show StableHlo.after hostOps5 (W10 m ρ c) (Proc.devRef .tc main_v145) = _
  after_results_simp
  rw [w10_v110 m ρ hfin, v3_at10, v6_at10, v27_at10, arg4_at10]
  rfl

/-- The aggregate's column variance, as a one-row matrix. -/
theorem w11_v146 (hfin : ∀ (c : Dev nD) (i : S3x128.Idx), ∃ r : ℝ, m ((c : Thread nD τ).loc main_arg4) i = (r : EReal)) (c : Dev nD) : W11 m ρ c (Proc.devRef .tc main_v146)
    = shapeCast S1x128 (Bn.kVar (F := Ideal) (val_main_v142 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))) shapeCasts_S128_S1x128 := by
  show StableHlo.after hostOps5 (W10 m ρ c) (Proc.devRef .tc main_v146) = _
  after_results_simp
  rw [w10_v110 m ρ hfin, v3_at10, v6_at10, v27_at10]
  rfl

/-- Every entry of this layer's bias is an entry of the bias argument, hence a real number. -/
theorem bias3_real (hfin : ∀ (c : Dev nD) (i : S3x128.Idx), ∃ r : ℝ, m ((c : Thread nD τ).loc main_arg4) i = (r : EReal)) (c : Dev nD) (j : S128.Idx) : ∃ r : ℝ, (val_main_v144 (F := Ideal) (m ((c : Thread nD τ).loc main_arg4))) j = (r : EReal) := by
  rw [val_main_v144_apply, val_main_v143_apply]
  exact hfin c _

/-- The layer: batch norm and ReLU of the aggregate plus bias, as the reference computes it. -/
theorem w12_v147 (hfin : ∀ (c : Dev nD) (i : S3x128.Idx), ∃ r : ℝ, m ((c : Thread nD τ).loc main_arg4) i = (r : EReal)) (c : Dev nD) : W12 m ρ c (Proc.devRef .tc main_v147) = val_main_v177 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W12_arr m ρ c 6).trans ?_
  rw [Bn5.whole (V11 m ρ) c]
  show Bn.bnKer (W11 m ρ c (Proc.devRef .tc main_v122)) (W11 m ρ c (Proc.devRef .tc main_v142)) (W11 m ρ c (Proc.devRef .tc main_v143))
    (W11 m ρ c (Proc.devRef .tc main_v144)) (W11 m ρ c (Proc.devRef .tc main_v145)) (W11 m ρ c (Proc.devRef .tc main_v146)) = _
  rw [w11_v122 m ρ hfin, w11_v142, w11_v143, w11_v144, w11_v145 m ρ hfin, w11_v146 m ρ hfin]
  rw [Bn.bnKer_rows _ _ _ _ (bias3_real m hfin c)]
  exact (Bn.ref_bn3 _ _ _ _ _ _).symm

end Cert.Bridge.Stage

end
-- ==== Proof.HeadTile.lean ====
/-
  The head on the pooled graph embeddings runs in one block: every window is its whole array, so what the single
  grid point reads is each array as the region found it, and what it writes back is the whole result.
-/
import proofs.«100148_j72756745994791_1_alg».proof.Proof.Gen.KernelIdeal.Frame
import Idealize.ShloMosaic.PureOps.Ideal
import Idealize.ShloMosaic.Lib.Pipeline.Value

set_option maxRecDepth 16384

noncomputable section

namespace Cert.Bridge.Head6

open Cert.KernelIdeal Cert.KernelIdeal.Gen
open Idealize.ShloMosaic Idealize.ShloMosaic.TcCoe Idealize.SL.Sem

/-- The head's body as one function of the seven whole arrays it reads. -/
def headK (X : Vec Ideal S4096x128 .f32) (w0 : Vec Ideal S128x64 .f32) (rb rg rbe : Vec Ideal S1x64 .f32)
    (w1 : Vec Ideal S64x1 .f32) (rb1 : Vec Ideal S1x1 .f32) : S4096x1.Idx → EReal :=
  k6_pay1 (F := Ideal) (k6_pay2 (F := Ideal) X w0 rb rg rbe) w1 rb1

theorem origin : (![0, 0] : Fin 2 → Nat) = fun _ => 0 := funext fun a => by fin_cases a <;> rfl

/-- Every window's block is the array's first and only block. -/
theorem block_first : ∀ t : Fin cfg6.N, win6_0.index t (0 : Fin 2) = 0
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0 :=
  (by decide +kernel : ∀ t : Fin grid6.N, _)

variable (V : (c : Dev nD) → (b : Ref sig .tc) → Buf (Elt Ideal) ((c : Thread nD τ).loc b))

/-- What the grid point writes back is the whole result. -/
theorem written (c : Dev nD) (t : Fin cfg6.N) :
    (dat6 V c).flushed 7 t = ((cfg6.win 7).blk t).view.read (Elt Ideal)
      (headK (V c main_v158) (V c main_arg7) (V c main_v159) (V c main_v160) (V c main_v161) (V c main_arg11) (V c main_v162)) := by
  show (cfg6.win 7).cut (grid6.coords t) ((dat6 V c).after 7 t) = _
  rw [after6_7]
  unfold out6_7
  rw [View.canon_unit_zero origin]
  simp only [View.ld_unit_zero (S := S4096x128) origin, View.ld_unit_zero (S := S128x64) origin,
    View.ld_unit_zero (S := S1x64) origin, View.ld_unit_zero (S := S64x1) origin, View.ld_unit_zero (S := S1x1) origin]
  obtain ⟨z00, z01, z10, z11, z20, z21, z30, z31, z40, z41, z50, z51, z60, z61, z70, z71⟩ := block_first t
  have h0 : (iblk6 V c 0 t : S4096x128.Idx → EReal) = V c main_v158 := funext fun y => by
    show V c main_v158 (((cfg6.win 0).blk t).view.emb y) = V c main_v158 y
    refine congrArg _ (funext fun a => Fin.ext ?_)
    match a with
    | ⟨0, _⟩ => show win6_0.index t (0 : Fin 2) * 4096 + 1 * (y 0).val = (y 0).val; omega
    | ⟨1, _⟩ => show win6_0.index t (1 : Fin 2) * 128 + 1 * (y 1).val = (y 1).val; omega
  have h1 : (iblk6 V c 1 t : S128x64.Idx → EReal) = V c main_arg7 := funext fun y => by
    show V c main_arg7 (((cfg6.win 1).blk t).view.emb y) = V c main_arg7 y
    refine congrArg _ (funext fun a => Fin.ext ?_)
    match a with
    | ⟨0, _⟩ => show win6_1.index t (0 : Fin 2) * 128 + 1 * (y 0).val = (y 0).val; omega
    | ⟨1, _⟩ => show win6_1.index t (1 : Fin 2) * 64 + 1 * (y 1).val = (y 1).val; omega
  have h2 : (iblk6 V c 2 t : S1x64.Idx → EReal) = V c main_v159 := funext fun y => by
    show V c main_v159 (((cfg6.win 2).blk t).view.emb y) = V c main_v159 y
    refine congrArg _ (funext fun a => Fin.ext ?_)
    match a with
    | ⟨0, _⟩ => show win6_2.index t (0 : Fin 2) * 1 + 1 * (y 0).val = (y 0).val; omega
    | ⟨1, _⟩ => show win6_2.index t (1 : Fin 2) * 64 + 1 * (y 1).val = (y 1).val; omega
  have h3 : (iblk6 V c 3 t : S1x64.Idx → EReal) = V c main_v160 := funext fun y => by
    show V c main_v160 (((cfg6.win 3).blk t).view.emb y) = V c main_v160 y
    refine congrArg _ (funext fun a => Fin.ext ?_)
    match a with
    | ⟨0, _⟩ => show win6_3.index t (0 : Fin 2) * 1 + 1 * (y 0).val = (y 0).val; omega
    | ⟨1, _⟩ => show win6_3.index t (1 : Fin 2) * 64 + 1 * (y 1).val = (y 1).val; omega
  have h4 : (iblk6 V c 4 t : S1x64.Idx → EReal) = V c main_v161 := funext fun y => by
    show V c main_v161 (((cfg6.win 4).blk t).view.emb y) = V c main_v161 y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 64 + 1 * (y 1).val = (y 1).val; omega
  have h5 : (iblk6 V c 5 t : S64x1.Idx → EReal) = V c main_arg11 := funext fun y => by
    show V c main_arg11 (((cfg6.win 5).blk t).view.emb y) = V c main_arg11 y
    refine congrArg _ (funext fun a => Fin.ext ?_)
    match a with
    | ⟨0, _⟩ => show win6_5.index t (0 : Fin 2) * 64 + 1 * (y 0).val = (y 0).val; omega
    | ⟨1, _⟩ => show win6_5.index t (1 : Fin 2) * 1 + 1 * (y 1).val = (y 1).val; omega
  have h6 : (iblk6 V c 6 t : S1x1.Idx → EReal) = V c main_v162 := funext fun y => by
    show V c main_v162 (((cfg6.win 6).blk t).view.emb y) = V c main_v162 y
    refine congrArg _ (funext fun a => Fin.ext ?_)
    match a with
    | ⟨0, _⟩ => show win6_6.index t (0 : Fin 2) * 1 + 1 * (y 0).val = (y 0).val; omega
    | ⟨1, _⟩ => show win6_6.index t (1 : Fin 2) * 1 + 1 * (y 1).val = (y 1).val; omega
  funext j
  show k6_pay1 (F := Ideal) (k6_pay2 (F := Ideal) (iblk6 V c 0 t) (iblk6 V c 1 t) (iblk6 V c 2 t) (iblk6 V c 3 t) (iblk6 V c 4 t)) (iblk6 V c 5 t) (iblk6 V c 6 t) j
    = headK (V c main_v158) (V c main_arg7) (V c main_v159) (V c main_v160) (V c main_v161) (V c main_arg11) (V c main_v162) (((cfg6.win 7).blk t).view.emb j)
  have he : ((cfg6.win 7).blk t).view.emb j = j := funext fun a => Fin.ext (by
    match a with
    | ⟨0, _⟩ => show win6_7.index t (0 : Fin 2) * 4096 + 1 * (j 0).val = (j 0).val; omega
    | ⟨1, _⟩ => show win6_7.index t (1 : Fin 2) * 1 + 1 * (j 1).val = (j 1).val; omega)
  rw [he]
  unfold headK
  rw [h0, h1, h2, h3, h4, h5, h6]

/-- An index of the array is in the block iff each coordinate is in the block's range on its axis. -/
theorem in_block (t : Fin cfg6.N) (i : S4096x1.Idx) :
    i ∈ ((cfg6.win 7).blk t).view.set ↔ ∀ a : Fin 2, win6_7.index t a * S4096x1.size a ≤ (i a).val ∧ (i a).val < win6_7.index t a * S4096x1.size a + S4096x1.size a := by
  show i ∈ ((View.whole main_v163).slice (win6_7.rect t)).set ↔ _
  rw [View.set_slice_whole, Rect.mem_set_unit]
  exact Iff.rfl

/-- The one block is the whole array. -/
theorem tiled (i : S4096x1.Idx) : ∃ t : Fin cfg6.N, (cfg6.win 7).flush t = true ∧ i ∈ ((cfg6.win 7).blk t).view.set := by
  have hi0 : (i 0).val < 4096 := (i 0).isLt
  have hi1 : (i 1).val < 1 := (i 1).isLt
  obtain ⟨z00, z01, z10, z11, z20, z21, z30, z31, z40, z41, z50, z51, z60, z61, z70, z71⟩ := block_first t6_0
  refine ⟨t6_0, flush6_7 t6_0, ?_⟩
  rw [in_block]
  intro a
  match a with
  | ⟨0, _⟩ => show win6_7.index t6_0 (0 : Fin 2) * 4096 ≤ (i 0).val ∧ (i 0).val < win6_7.index t6_0 (0 : Fin 2) * 4096 + 4096; omega
  | ⟨1, _⟩ => show win6_7.index t6_0 (1 : Fin 2) * 1 ≤ (i 1).val ∧ (i 1).val < win6_7.index t6_0 (1 : Fin 2) * 1 + 1; omega

/-- After the region the result array holds the head's body of the arrays the region found. -/
theorem whole (c : Dev nD) : (dat6 V c).arrAt 7 cfg6.N
    = headK (V c main_v158) (V c main_arg7) (V c main_v159) (V c main_v160) (V c main_v161) (V c main_arg11) (V c main_v162) :=
  (dat6 V c).arrAt_eq_of_cover 7 _ (fun t _ => written V c t) tiled

end Cert.Bridge.Head6

end
-- ==== Proof.Head.lean ====
/-
  The MLP head of the graph network, kernel against reference, at the ideal values.

  Both programs compute, from the pooled embeddings P : [4096,128],
      h   = P · W0 + b0                                  (a [4096,64] array)
      μ   = (Σ over the 4096 rows of h) / 4096            (one value per column)
      σ²  = (Σ over the rows of (h − μ)²) / 4096
      z   = max ((h − μ) · rsqrt (σ² + ε) · γ + β, 0)
      out = z · W1 + b1                                  (a [4096,1] array)
  with the same literals 4096 and ε and the same arrangement of the operations. The two texts
  differ only in spelling: a product accumulated into a zero array against a product with no
  accumulator; a lane sum whose neutral accumulator is dropped against a sum from the initial
  value zero; a statistic kept as a one-row matrix [1,64] against a vector [64] laid along the
  rows afterwards; and format changes, which are the identity on extended reals. Each pair is a
  finite sum or a re-indexing, so the equality needs no law of real arithmetic beyond 0 + x = x.
-/
import proofs.«100148_j72756745994791_1_alg».proof.Proof.Gen.KernelIdeal.Skeleton
import proofs.«100148_j72756745994791_1_alg».proof.Proof.RefRead
import Idealize.ShloMosaic.Lib.KernelVsHost
import Idealize.ShloMosaic.Lib.IdealHost
import Idealize.ShloMosaic.Lib.ValueLayout
import Idealize.ShloMosaic.Lib.ValueIdxCoords

noncomputable section

namespace Cert.Bridge.Head

open Idealize.ShloMosaic Idealize.ShloMosaic.ValueIdx
open Cert.ReferenceIdeal Cert.ReferenceIdeal.Gen

variable {F : FTy → Type} [FloatOps F]

/-! ## The reference's head, stage by stage -/

/-- A vector of 64 entries laid along each of the 4096 rows: first as a one-row matrix, then down the rows. -/
def rowsOf (v : FVec F S64 .f32) : FVec F S4096x64 .f32 :=
  broadcastInDim S4096x64 ![0, 1] bcast_S1x64_S4096x64_0_1 (broadcastInDim S1x64 ![1] bcast_S64_S1x64_1 v)

/-- The mean of each column: the sum over the 4096 rows, from zero, divided by 4096. -/
def colMean (Y : FVec F S4096x64 .f32) : FVec F S64 .f32 :=
  Host.divf (Host.reduceAdd Y (constant (F := F) S_ .f32 0x00000000#32) reducesTo_S4096x64_S64_d0 h_S_)
    (broadcastInDim S64 ![] bcast_S_S64 (constant (F := F) S_ .f32 0x45800000#32))

/-- Each entry less its column's mean. -/
def centered (Y : FVec F S4096x64 .f32) : FVec F S4096x64 .f32 :=
  subf Y (rowsOf (colMean Y))

/-- The reciprocal square root of each column's variance plus ε. -/
def invStd (Y : FVec F S4096x64 .f32) : FVec F S64 .f32 :=
  Host.rsqrt (addf (colMean (mulf (centered Y) (centered Y)))
    (broadcastInDim S64 ![] bcast_S_S64 (constant (F := F) S_ .f32 0x3727C5AC#32)))

/-- Normalize each column, scale by γ, shift by β, and clamp below at zero. -/
def normRelu (Y : FVec F S4096x64 .f32) (g be : FVec F S64 .f32) : FVec F S4096x64 .f32 :=
  maximumf (addf (mulf (mulf (centered Y) (rowsOf (invStd Y))) (rowsOf g)) (rowsOf be))
    (broadcastInDim S4096x64 ![] bcast_S_S4096x64 (constant (F := F) S_ .f32 0x00000000#32))

/-- The hidden layer before normalization: P · W0 + b0. -/
def hidden (P : FVec F S4096x128 .f32) (w0 : FVec F S128x64 .f32) (b0 : FVec F S64 .f32) : FVec F S4096x64 .f32 :=
  addf (Host.dotGeneral dot_S4096x128_S128x64_S4096x64_1_0_0_1_n_n none P w0) (rowsOf b0)

/-- The reference's head: z · W1 + b1 with z the normalized, clamped hidden layer. -/
def headRef (P : FVec F S4096x128 .f32) (w0 : FVec F S128x64 .f32) (b0 g0 be0 : FVec F S64 .f32)
    (w1 : FVec F S64x1 .f32) (b1 : FVec F S1 .f32) : FVec F S4096x1 .f32 :=
  addf (Host.dotGeneral dot_S4096x64_S64x1_S4096x1_1_0_0_1_n_n none (normRelu (hidden P w0 b0) g0 be0) w1)
    (broadcastInDim S4096x1 ![0, 1] bcast_S1x1_S4096x1_0_1 (broadcastInDim S1x1 ![1] bcast_S1_S1x1_1 b1))

/-- The reference program's last value is the head above, applied to the pooled embeddings and the
    head's parameters: its operations, in order, are the stages above. -/
theorem ref_head (x0 : (⟨S100000x128, .f32⟩ : BufTy).Contents (Elt F)) (x1 : (⟨S2x640000, .i32⟩ : BufTy).Contents (Elt F))
    (x2 : (⟨S100000, .i32⟩ : BufTy).Contents (Elt F)) (x3 : (⟨S3x128x128, .f32⟩ : BufTy).Contents (Elt F))
    (x4 x5 x6 : (⟨S3x128, .f32⟩ : BufTy).Contents (Elt F)) (x7 : (⟨S128x64, .f32⟩ : BufTy).Contents (Elt F))
    (x8 x9 x10 : (⟨S64, .f32⟩ : BufTy).Contents (Elt F)) (x11 : (⟨S64x1, .f32⟩ : BufTy).Contents (Elt F))
    (x12 : (⟨S1, .f32⟩ : BufTy).Contents (Elt F)) :
    Cert.ReferenceIdeal.Read.val_main_v222 (F := F) x0 x1 x2 x3 x4 x5 x6 x7 x8 x9 x10 x11 x12
      = headRef (Cert.ReferenceIdeal.Read.val_main_v188 (F := F) x0 x1 x2 x3 x4 x5 x6) x7 x8 x9 x10 x11 x12 := rfl

/-! ## The kernel's head, stage by stage

The kernel keeps each per-column statistic as a one-row matrix [1,64] and broadcasts that row down the
4096 rows; its matrix products take operands narrowed to the 16-bit format and accumulate into a zero
array. -/

/-- A one-row matrix laid down the 4096 rows. -/
def kRows (row : FVec F S1x64 .f32) : FVec F S4096x64 .f32 :=
  broadcastTo S4096x64 row Cert.KernelIdeal.Gen.broadcasts_S1x64_S4096x64

/-- The column means as a one-row matrix: the lane sum over the rows, cast to [1,64], divided by 4096. -/
def kColMean (Y : FVec F S4096x64 .f32) : FVec F S1x64 .f32 :=
  divf (shapeCast S1x64 (multiReduction .add [0] S64 Y 0x00000000#32 Cert.KernelIdeal.Gen.reduces_S4096x64_S64 (.inl rfl) rfl)
      Cert.KernelIdeal.Gen.shapeCasts_S64_S1x64)
    (broadcast S1x64 (Scalar.ofBits (F := F) .f32 0x45800000#32))

/-- Each entry less its column's mean. -/
def kCentered (Y : FVec F S4096x64 .f32) : FVec F S4096x64 .f32 :=
  subf Y (kRows (kColMean Y))

/-- The reciprocal square root of each column's variance plus ε, as a one-row matrix. -/
def kInvStd (Y : FVec F S4096x64 .f32) : FVec F S1x64 .f32 :=
  rsqrt (addf (kColMean (mulf (kCentered Y) (kCentered Y))) (broadcast S1x64 (Scalar.ofBits (F := F) .f32 0x3727C5AC#32)))

/-- Normalize, scale by the γ row, shift by the β row, clamp below at zero, narrow to the 16-bit format. -/
def kNormRelu (Y : FVec F S4096x64 .f32) (g be : Vec F S1x64 .f32) : FVec F S4096x64 .bf16 :=
  truncf .bf16
    (maximumf
      (addf (mulf (mulf (kCentered Y) (kRows (kInvStd Y)))
          (kRows (shapeCast S1x64 g Cert.KernelIdeal.Gen.shapeCasts_S1x64_S1x64)))
        (kRows (shapeCast S1x64 be Cert.KernelIdeal.Gen.shapeCasts_S1x64_S1x64)))
      (broadcast S4096x64 (Scalar.ofBits (F := F) .f32 0x00000000#32)))
    Cert.KernelIdeal.Gen.bitsLt_bf16_f32

/-- The hidden layer before normalization: the product of the narrowed operands into zero, plus the bias row. -/
def kHidden (P : Vec F S4096x128 .f32) (w0 : Vec F S128x64 .f32) (b : Vec F S1x64 .f32) : FVec F S4096x64 .f32 :=
  addf
    (matmul Cert.KernelIdeal.dot_S4096x128_S128x64_S4096x64_1_0_0_1_n_n none
      (truncf .bf16 (shapeCast S4096x128 P Cert.KernelIdeal.Gen.shapeCasts_S4096x128_S4096x128) Cert.KernelIdeal.Gen.bitsLt_bf16_f32)
      (truncf .bf16 w0 Cert.KernelIdeal.Gen.bitsLt_bf16_f32)
      (constant (F := F) S4096x64 .f32 0x00000000#32))
    (kRows (shapeCast S1x64 b Cert.KernelIdeal.Gen.shapeCasts_S1x64_S1x64))

/-- The kernel's first payload is these stages in order. -/
theorem k6_pay2_eq (P : Vec F S4096x128 .f32) (w0 : Vec F S128x64 .f32) (b g be : Vec F S1x64 .f32) :
    Cert.KernelIdeal.Gen.k6_pay2 (F := F) P w0 b g be = kNormRelu (kHidden P w0 b) g be := rfl

/-- The kernel's last payload: the product of the narrowed z and W1 into zero, plus the one-entry bias
    laid down the rows. -/
theorem k6_pay1_eq (z : FVec F S4096x64 .bf16) (w1 : Vec F S64x1 .f32) (b1 : Vec F S1x1 .f32) :
    Cert.KernelIdeal.Gen.k6_pay1 (F := F) z w1 b1
      = addf
          (matmul Cert.KernelIdeal.dot_S4096x64_S64x1_S4096x1_1_0_0_1_n_n none z
            (truncf .bf16 w1 Cert.KernelIdeal.Gen.bitsLt_bf16_f32) (constant (F := F) S4096x1 .f32 0x00000000#32))
          (broadcastTo S4096x1 (shapeCast S1x1 b1 Cert.KernelIdeal.Gen.shapeCasts_S1x1_S1x1)
            Cert.KernelIdeal.Gen.broadcasts_S1x1_S4096x1) := rfl

/-! ## One value, two spellings -/

/-- The reference's row broadcast read at (r, c): the vector's entry c. -/
theorem rowsOf_apply (v : FVec F S64 .f32) (r : Fin 4096) (c : Fin 64) : rowsOf v (ix2 r c) = v (ix1 c) := by
  unfold rowsOf
  refine (broadcastInDim_oneRow_apply bcast_S1x64_S4096x64_0_1 _ r c).trans ?_
  exact broadcastInDim_apply ![1] bcast_S64_S1x64_1 v (ix2 (0 : Fin 1) c) (ix1 c) (fun a => match a with
    | ⟨0, _⟩ => by show c.val = if (64 : Nat) = 1 then 0 else c.val; rw [if_neg (by decide)])

/-- The kernel's row broadcast read at (r, c): the one row's entry c. -/
theorem kRows_apply (row : FVec F S1x64 .f32) (r : Fin 4096) (c : Fin 64) :
    kRows row (ix2 r c) = row (ix2 (0 : Fin 1) c) :=
  broadcastTo_1b_ab_apply row Cert.KernelIdeal.Gen.broadcasts_S1x64_S4096x64 r c

/-- A vector cast to one row and laid down the rows (the kernel's spelling, with the identity cast the
    kernel applies to a row it has loaded) is the vector laid along the rows (the reference's). -/
theorem kRows_cast (v : FVec F S64 .f32) :
    kRows (shapeCast S1x64 (shapeCast S1x64 v Cert.KernelIdeal.Gen.shapeCasts_S64_S1x64)
      Cert.KernelIdeal.Gen.shapeCasts_S1x64_S1x64) = rowsOf v := by
  funext i
  obtain ⟨p, q, rfl⟩ : ∃ (p : Fin 4096) (q : Fin 64), i = ix2 p q := ⟨i 0, i 1, eq_ix2 i⟩
  rw [kRows_apply, rowsOf_apply, shapeCast_self]
  exact shapeCast_a_1a_apply v Cert.KernelIdeal.Gen.shapeCasts_S64_S1x64 (0 : Fin 1) q

section AtIdeal

/-- The column mean, entry c: the kernel's one-row statistic and the reference's vector agree. The lane
    sum with its neutral accumulator dropped is the host's sum from the initial value zero; the divisor is
    the same literal on both sides. -/
theorem kColMean_apply (Y : FVec Ideal S4096x64 .f32) (c : Fin 64) :
    kColMean Y (ix2 (0 : Fin 1) c) = colMean Y (ix1 c) := by
  have hsum := congrFun (multiReduction_add_eq_hostReduceAdd Y 0x00000000#32 Cert.KernelIdeal.Gen.reduces_S4096x64_S64
    (.inl rfl) rfl (constant (F := Ideal) S_ .f32 0x00000000#32) reducesTo_S4096x64_S64_d0 h_S_ Ideal.ofBits_zero_f32) (ix1 c)
  show Ideal.div (shapeCast S1x64 (multiReduction .add [0] S64 Y 0x00000000#32 Cert.KernelIdeal.Gen.reduces_S4096x64_S64 (.inl rfl) rfl)
      Cert.KernelIdeal.Gen.shapeCasts_S64_S1x64 (ix2 (0 : Fin 1) c)) (Ideal.ofBits .f32 0x45800000#32)
    = Ideal.div (Host.reduceAdd Y (constant (F := Ideal) S_ .f32 0x00000000#32) reducesTo_S4096x64_S64_d0 h_S_ (ix1 c))
        (Ideal.ofBits .f32 0x45800000#32)
  rw [shapeCast_a_1a_apply, hsum]

/-- So the two row broadcasts of the column mean agree. -/
theorem kRows_kColMean (Y : FVec Ideal S4096x64 .f32) : kRows (kColMean Y) = rowsOf (colMean Y) := by
  funext i
  obtain ⟨p, q, rfl⟩ : ∃ (p : Fin 4096) (q : Fin 64), i = ix2 p q := ⟨i 0, i 1, eq_ix2 i⟩
  rw [kRows_apply, rowsOf_apply, kColMean_apply]

/-- The centered array is the same on both sides. -/
theorem kCentered_eq (Y : FVec Ideal S4096x64 .f32) : kCentered Y = centered Y := by
  unfold kCentered centered
  rw [kRows_kColMean]

/-- The reciprocal standard deviation, entry c. -/
theorem kInvStd_apply (Y : FVec Ideal S4096x64 .f32) (c : Fin 64) :
    kInvStd Y (ix2 (0 : Fin 1) c) = invStd Y (ix1 c) := by
  show Ideal.rsqrt (kColMean (mulf (kCentered Y) (kCentered Y)) (ix2 (0 : Fin 1) c) + Ideal.ofBits .f32 0x3727C5AC#32)
    = Ideal.rsqrt (colMean (mulf (centered Y) (centered Y)) (ix1 c) + Ideal.ofBits .f32 0x3727C5AC#32)
  rw [kCentered_eq, kColMean_apply]

theorem kRows_kInvStd (Y : FVec Ideal S4096x64 .f32) : kRows (kInvStd Y) = rowsOf (invStd Y) := by
  funext i
  obtain ⟨p, q, rfl⟩ : ∃ (p : Fin 4096) (q : Fin 64), i = ix2 p q := ⟨i 0, i 1, eq_ix2 i⟩
  rw [kRows_apply, rowsOf_apply, kInvStd_apply]

/-- The normalized, scaled, shifted and clamped array: the narrowing at the end is the identity. -/
theorem kNormRelu_eq (Y : FVec Ideal S4096x64 .f32) (g be : FVec Ideal S64 .f32) :
    kNormRelu Y (shapeCast S1x64 g Cert.KernelIdeal.Gen.shapeCasts_S64_S1x64)
      (shapeCast S1x64 be Cert.KernelIdeal.Gen.shapeCasts_S64_S1x64) = normRelu Y g be := by
  show maximumf
      (addf (mulf (mulf (kCentered Y) (kRows (kInvStd Y)))
          (kRows (shapeCast S1x64 (shapeCast S1x64 g Cert.KernelIdeal.Gen.shapeCasts_S64_S1x64) Cert.KernelIdeal.Gen.shapeCasts_S1x64_S1x64)))
        (kRows (shapeCast S1x64 (shapeCast S1x64 be Cert.KernelIdeal.Gen.shapeCasts_S64_S1x64) Cert.KernelIdeal.Gen.shapeCasts_S1x64_S1x64)))
      (broadcast S4096x64 (Scalar.ofBits (F := Ideal) .f32 0x00000000#32))
    = normRelu Y g be
  rw [kCentered_eq, kRows_kInvStd, kRows_cast, kRows_cast]
  rfl

/-- The hidden layer: operands narrowed (the identity) and multiplied into zero, against the host's product. -/
theorem kHidden_eq (P : FVec Ideal S4096x128 .f32) (w0 : FVec Ideal S128x64 .f32) (b0 : FVec Ideal S64 .f32) :
    kHidden P w0 (shapeCast S1x64 b0 Cert.KernelIdeal.Gen.shapeCasts_S64_S1x64) = hidden P w0 b0 := by
  unfold kHidden hidden
  rw [kRows_cast, shapeCast_self]
  exact congrArg (fun m => addf m (rowsOf b0))
    (matmul_zero_eq_dotGeneral Cert.KernelIdeal.dot_S4096x128_S128x64_S4096x64_1_0_0_1_n_n none
      (truncf .bf16 P Cert.KernelIdeal.Gen.bitsLt_bf16_f32) (truncf .bf16 w0 Cert.KernelIdeal.Gen.bitsLt_bf16_f32))

/-- The output bias: one entry cast to [1,1] and laid down the rows, both ways. -/
theorem outBias_eq (b1 : FVec Ideal S1 .f32) :
    broadcastTo S4096x1 (shapeCast S1x1 (shapeCast S1x1 b1 Cert.KernelIdeal.Gen.shapeCasts_S1_S1x1)
        Cert.KernelIdeal.Gen.shapeCasts_S1x1_S1x1) Cert.KernelIdeal.Gen.broadcasts_S1x1_S4096x1
      = broadcastInDim S4096x1 ![0, 1] bcast_S1x1_S4096x1_0_1 (broadcastInDim S1x1 ![1] bcast_S1_S1x1_1 b1) := by
  funext i
  show b1 _ = b1 _
  exact congrArg b1 ((eq_ix1_u0 _).trans (eq_ix1_u0 _).symm)

/-- The kernel's head is the reference's. -/
theorem head_eq (P : FVec Ideal S4096x128 .f32) (w0 : FVec Ideal S128x64 .f32) (b0 g0 be0 : FVec Ideal S64 .f32)
    (w1 : FVec Ideal S64x1 .f32) (b1 : FVec Ideal S1 .f32) :
    Cert.KernelIdeal.Gen.k6_pay1 (F := Ideal)
        (Cert.KernelIdeal.Gen.k6_pay2 (F := Ideal) P w0
          (shapeCast Cert.KernelIdeal.S1x64 b0 Cert.KernelIdeal.Gen.shapeCasts_S64_S1x64)
          (shapeCast Cert.KernelIdeal.S1x64 g0 Cert.KernelIdeal.Gen.shapeCasts_S64_S1x64)
          (shapeCast Cert.KernelIdeal.S1x64 be0 Cert.KernelIdeal.Gen.shapeCasts_S64_S1x64))
        w1 (shapeCast Cert.KernelIdeal.S1x1 b1 Cert.KernelIdeal.Gen.shapeCasts_S1_S1x1)
      = headRef (F := Ideal) P w0 b0 g0 be0 w1 b1 := by
  rw [k6_pay2_eq, k6_pay1_eq, kHidden_eq, kNormRelu_eq, outBias_eq]
  unfold headRef
  exact congrArg (fun m => addf m _)
    (matmul_zero_eq_dotGeneral Cert.KernelIdeal.dot_S4096x64_S64x1_S4096x1_1_0_0_1_n_n none
      (normRelu (hidden P w0 b0) g0 be0) (truncf .bf16 w1 Cert.KernelIdeal.Gen.bitsLt_bf16_f32))

end AtIdeal

end Cert.Bridge.Head
-- ==== Proof.StageE.lean ====
/-
  Pooling and the head.

  Every graph's embedding is the mean of its nodes' features: the sum of the features over the graph's nodes divided
  by the number of its nodes, at least one.  Both programs compute it with the same host operations.  The head, a
  dense layer with batch norm over the graphs and ReLU followed by a dense layer to one output, runs in the kernel
  program as one block over whole arrays and in the reference as host operations; the two are the same function.
-/
import proofs.«100148_j72756745994791_1_alg».proof.Proof.StageD
import proofs.«100148_j72756745994791_1_alg».proof.Proof.HeadTile
import proofs.«100148_j72756745994791_1_alg».proof.Proof.Head
import Idealize.ShloMosaic.Lib.StableHlo.Run

set_option maxRecDepth 16384

noncomputable section

namespace Cert.Bridge.Stage

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

theorem arg8_at12 (c : Dev nD) : W12 m ρ c (Proc.devRef .tc main_arg8) = (m ((c : Thread nD τ).loc main_arg8)) :=
  (Keep.arg8_12 m ρ c).trans ((Keep.arg8_11 m ρ c).trans ((Keep.arg8_10 m ρ c).trans ((Keep.arg8_9 m ρ c).trans ((Keep.arg8_8 m ρ c).trans ((Keep.arg8_7 m ρ c).trans ((Keep.arg8_6 m ρ c).trans ((Keep.arg8_5 m ρ c).trans ((Keep.arg8_4 m ρ c).trans ((Keep.arg8_3 m ρ c).trans ((Keep.arg8_2 m ρ c).trans ((Keep.arg8_1 m ρ c).trans (rfl))))))))))))
theorem arg9_at12 (c : Dev nD) : W12 m ρ c (Proc.devRef .tc main_arg9) = (m ((c : Thread nD τ).loc main_arg9)) :=
  (Keep.arg9_12 m ρ c).trans ((Keep.arg9_11 m ρ c).trans ((Keep.arg9_10 m ρ c).trans ((Keep.arg9_9 m ρ c).trans ((Keep.arg9_8 m ρ c).trans ((Keep.arg9_7 m ρ c).trans ((Keep.arg9_6 m ρ c).trans ((Keep.arg9_5 m ρ c).trans ((Keep.arg9_4 m ρ c).trans ((Keep.arg9_3 m ρ c).trans ((Keep.arg9_2 m ρ c).trans ((Keep.arg9_1 m ρ c).trans (rfl))))))))))))
theorem arg10_at12 (c : Dev nD) : W12 m ρ c (Proc.devRef .tc main_arg10) = (m ((c : Thread nD τ).loc main_arg10)) :=
  (Keep.arg10_12 m ρ c).trans ((Keep.arg10_11 m ρ c).trans ((Keep.arg10_10 m ρ c).trans ((Keep.arg10_9 m ρ c).trans ((Keep.arg10_8 m ρ c).trans ((Keep.arg10_7 m ρ c).trans ((Keep.arg10_6 m ρ c).trans ((Keep.arg10_5 m ρ c).trans ((Keep.arg10_4 m ρ c).trans ((Keep.arg10_3 m ρ c).trans ((Keep.arg10_2 m ρ c).trans ((Keep.arg10_1 m ρ c).trans (rfl))))))))))))
theorem arg12_at12 (c : Dev nD) : W12 m ρ c (Proc.devRef .tc main_arg12) = (m ((c : Thread nD τ).loc main_arg12)) :=
  (Keep.arg12_12 m ρ c).trans ((Keep.arg12_11 m ρ c).trans ((Keep.arg12_10 m ρ c).trans ((Keep.arg12_9 m ρ c).trans ((Keep.arg12_8 m ρ c).trans ((Keep.arg12_7 m ρ c).trans ((Keep.arg12_6 m ρ c).trans ((Keep.arg12_5 m ρ c).trans ((Keep.arg12_4 m ρ c).trans ((Keep.arg12_3 m ρ c).trans ((Keep.arg12_2 m ρ c).trans ((Keep.arg12_1 m ρ c).trans (rfl))))))))))))
/-- The node counts of the graphs, at least one (the three pooling stretches are read through to the boundary before them). -/
theorem w14_v155 (c : Dev nD) : W14 m ρ c (Proc.devRef .tc main_v155) = val_main_v185 (F := Ideal) (m ((c : Thread nD τ).loc main_arg2)) := by
  show StableHlo.after hostOps6_1 (W13 m ρ c) (Proc.devRef .tc main_v155) = _
  after_results_simp
  rw [arg2_at12]
  rfl
/-- The pooled graph embeddings: the per-graph sums of the third layer's features over the node counts. -/
theorem w15_v158 (hfin : ∀ (c : Dev nD) (i : S3x128.Idx), ∃ r : ℝ, m ((c : Thread nD τ).loc main_arg4) i = (r : EReal)) (c : Dev nD) : W15 m ρ c (Proc.devRef .tc main_v158) = val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps6_2 (W14 m ρ c) (Proc.devRef .tc main_v158) = _
  after_results_simp
  rw [w12_v147 m ρ hfin, arg2_at12]
  rfl
/-- A head parameter vector as a one-row matrix. -/
theorem w15_v159 (c : Dev nD) : W15 m ρ c (Proc.devRef .tc main_v159) = shapeCast S1x64 (m ((c : Thread nD τ).loc main_arg8)) shapeCasts_S64_S1x64 := by
  show StableHlo.after hostOps6_2 (W14 m ρ c) (Proc.devRef .tc main_v159) = _
  after_results_simp
  rw [arg8_at12]
  rfl
/-- A head parameter vector as a one-row matrix. -/
theorem w15_v160 (c : Dev nD) : W15 m ρ c (Proc.devRef .tc main_v160) = shapeCast S1x64 (m ((c : Thread nD τ).loc main_arg9)) shapeCasts_S64_S1x64 := by
  show StableHlo.after hostOps6_2 (W14 m ρ c) (Proc.devRef .tc main_v160) = _
  after_results_simp
  rw [arg9_at12]
  rfl
/-- A head parameter vector as a one-row matrix. -/
theorem w15_v161 (c : Dev nD) : W15 m ρ c (Proc.devRef .tc main_v161) = shapeCast S1x64 (m ((c : Thread nD τ).loc main_arg10)) shapeCasts_S64_S1x64 := by
  show StableHlo.after hostOps6_2 (W14 m ρ c) (Proc.devRef .tc main_v161) = _
  after_results_simp
  rw [arg10_at12]
  rfl
/-- A head parameter vector as a one-row matrix. -/
theorem w15_v162 (c : Dev nD) : W15 m ρ c (Proc.devRef .tc main_v162) = shapeCast S1x1 (m ((c : Thread nD τ).loc main_arg12)) shapeCasts_S1_S1x1 := by
  show StableHlo.after hostOps6_2 (W14 m ρ c) (Proc.devRef .tc main_v162) = _
  after_results_simp
  rw [arg12_at12]
  rfl
/-- The result: the head of the pooled embeddings, as the reference computes it. -/
theorem w16_v163 (hfin : ∀ (c : Dev nD) (i : S3x128.Idx), ∃ r : ℝ, m ((c : Thread nD τ).loc main_arg4) i = (r : EReal)) (c : Dev nD) : W16 m ρ c (Proc.devRef .tc main_v163) = val_main_v222 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W16_arr m ρ c 7).trans ?_
  rw [Head6.whole (V15 m ρ) c]
  show Head6.headK (W15 m ρ c (Proc.devRef .tc main_v158)) (W15 m ρ c (Proc.devRef .tc main_arg7)) (W15 m ρ c (Proc.devRef .tc main_v159))
    (W15 m ρ c (Proc.devRef .tc main_v160)) (W15 m ρ c (Proc.devRef .tc main_v161)) (W15 m ρ c (Proc.devRef .tc main_arg11))
    (W15 m ρ c (Proc.devRef .tc main_v162)) = _
  rw [w15_v158 m ρ hfin, arg7_at15, w15_v159, w15_v160, w15_v161, arg11_at15, w15_v162]
  unfold Head6.headK
  rw [Head.head_eq]
  exact (Head.ref_head (F := Ideal) _ _ _ _ _ _ _ _ _ _ _ _ _).symm

end Cert.Bridge.Stage

end
-- ==== Proof.Final.lean ====
/-
  The claims.

  The kernel program's result buffer ends at the value the stage modules compute: the reference's own term of the
  launch arguments.  The reference's run ends at the same term of its arguments.  From memories that agree on the
  arguments the two results are therefore equal, element by element, as extended reals.  The one hypothesis the
  bridge needs, that every entry of the bias argument is a real number, is part of the precondition.
-/
import proofs.«100148_j72756745994791_1_alg».proof.Defs
import proofs.«100148_j72756745994791_1_alg».proof.Proof.Gen.Kernel.Frame
import proofs.«100148_j72756745994791_1_alg».proof.Proof.Gen.KernelIdeal.Frame
import proofs.«100148_j72756745994791_1_alg».proof.Proof.Gen.Pre_finite_inputs
import proofs.«100148_j72756745994791_1_alg».proof.Proof.KRun
import proofs.«100148_j72756745994791_1_alg».proof.Proof.RefRun
import proofs.«100148_j72756745994791_1_alg».proof.Proof.FiniteBias
import proofs.«100148_j72756745994791_1_alg».proof.Proof.StageE

set_option maxRecDepth 16384

noncomputable section

namespace Cert.Proof.Claims

open Idealize.ShloMosaic Idealize.ShloMosaic.TcCoe Idealize.SL.Sem

/-- Under the precondition every entry of the bias argument is a real number. -/
theorem bias_entries (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S3x128.Idx) :
    ∃ r : ℝ, m ((c.tc : Thread Cert.KernelIdeal.nD Cert.KernelIdeal.τ).loc Cert.KernelIdeal.main_arg4) i = (r : EReal) :=
  Cert.Bridge.Finite.bias_real _ _ _ _ _ _ _ _ _ _ _ _ _ (hpre c) i

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- Both programs end with the reference's term of the arguments in their result buffers. -/
theorem algebraic : Cert.algebraic_KernelIdeal_ReferenceIdeal := by
  intro m ρ m' ρ' hpre hagree
  refine ⟨fun c => Cert.ReferenceIdeal.Read.val_main_v222 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Bridge.Stage.w16_v163 m ρ (bias_entries m hpre) c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Value.val_main_v222_eq, e0, e1, e2, e3, e4, e5, e6, e7, e8, e9, e10, e11, e12]

end Cert.Proof.Claims

end
-- ==== Proof.lean ====
/-
  A three-layer graph convolution network with a pooled head, kernel program against reference.

  Each layer projects the node features with a weight matrix, sums every node's in-neighbours' projections weighted
  by the symmetric degree normalisation, adds a bias, normalises every feature over the nodes and clips at zero; the
  features are then averaged per graph and passed through a two-layer head with batch norm over the graphs.
  The kernel program tiles the projections and the normalisations over blocks of 2000 rows and takes the column
  statistics before the bias is added; the reference does everything with whole-array operations and takes the
  statistics after.  Over the extended reals a tiled product is the whole product, and a finite bias moves a
  column's mean without changing its centred values, so the two programs compute the same array.  The modules:
  the kernel program's run with its result named (KRun), a product read entry by entry and tiled (LinLayer, LinTile0/2/4),
  the normalisation read element by element, tiled, and matched with the reference's (LibERealShift, BnLayer, BnRef,
  BnKer, BnTile1/3/5), the head (Head, HeadTile), the buffers that persist between stretches (Keep), the value of every
  buffer the next step reads (StageA to StageE), finiteness of the bias from the precondition (FiniteBias), and the
  claims (Final).
-/
import proofs.«100148_j72756745994791_1_alg».proof.Defs
import proofs.«100148_j72756745994791_1_alg».proof.Proof.Gen.Kernel
import proofs.«100148_j72756745994791_1_alg».proof.Proof.Gen.Kernel.Skeleton
import proofs.«100148_j72756745994791_1_alg».proof.Proof.Gen.Kernel.Launch
import proofs.«100148_j72756745994791_1_alg».proof.Proof.Gen.Kernel.Points
import proofs.«100148_j72756745994791_1_alg».proof.Proof.Gen.Kernel.Frame
import proofs.«100148_j72756745994791_1_alg».proof.Proof.Gen.KernelIdeal
import proofs.«100148_j72756745994791_1_alg».proof.Proof.Gen.KernelIdeal.Skeleton
import proofs.«100148_j72756745994791_1_alg».proof.Proof.Gen.KernelIdeal.Launch
import proofs.«100148_j72756745994791_1_alg».proof.Proof.Gen.KernelIdeal.Points
import proofs.«100148_j72756745994791_1_alg».proof.Proof.Gen.KernelIdeal.Frame
import proofs.«100148_j72756745994791_1_alg».proof.Proof.Gen.ReferenceIdeal
import proofs.«100148_j72756745994791_1_alg».proof.Proof.Gen.Pre_finite_inputs
import proofs.«100148_j72756745994791_1_alg».proof.Proof.RefRun
import proofs.«100148_j72756745994791_1_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
